-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S2x100000 : Shape := ⟨2, ![2, 100000]⟩
abbrev S512x50 : Shape := ⟨2, ![512, 50]⟩
abbrev S50 : Shape := ⟨1, ![50]⟩
abbrev S50x10 : Shape := ⟨2, ![50, 10]⟩
abbrev S10 : Shape := ⟨1, ![10]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x50 : S_.BroadcastsInDim S512x50 (![] : Fin 0 → Fin S512x50.rank)
  reducesTo_S512x50_S_d0_1 : S512x50.ReducesTo [0, 1] S_
  bcast_S_S50 : S_.BroadcastsInDim S50 (![] : Fin 0 → Fin S50.rank)
  reducesTo_S50_S_d0 : S50.ReducesTo [0] S_
  bcast_S_S50x10 : S_.BroadcastsInDim S50x10 (![] : Fin 0 → Fin S50x10.rank)
  reducesTo_S50x10_S_d0_1 : S50x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S10 .f32) (main_v13 : IVec S_ 1) (main_v16 : IVec S50x10 1) : IVec S_ 1 :=
  let main_c_5 : IVec S_ 1 := constantI S_ 1 1#1
  let main_v17 : IVec S_ 1 := (fun x v => Host.reduce IntOp.andi x v reducesTo_S50x10_S_d0_1 h_S_) main_v16 main_c_5
  let main_v18 : IVec S_ 1 := andi main_v13 main_v17
  let main_v19 : FVec F S10 .f32 := Host.absf main_arg7
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : IVec S2x100000 32) (main_arg3 : IVec S2x100000 32) (main_arg4 : FVec F S512x50 .f32) (main_arg5 : FVec F S50 .f32) (main_arg6 : FVec F S50x10 .f32) (main_arg7 : FVec F S10 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x50 .f32 := Host.absf main_arg4
  let main_cst_0 : FVec F S_ .f32 := constant S_ .f32 0x7F800000#32
  let main_v5 : FVec F S512x50 .f32 := broadcastInDim S512x50 ![] bcast_S_S512x50 main_cst_0
  let main_v6 : IVec S512x50 1 := cmpf .olt main_v4 main_v5
  let main_c_1 : IVec S_ 1 := constantI S_ 1 1#1
  let main_v7 : IVec S_ 1 := (fun x v => Host.reduce IntOp.andi x v reducesTo_S512x50_S_d0_1 h_S_) main_v6 main_c_1
  let main_v8 : IVec S_ 1 := andi main_v3 main_v7
  let main_v9 : FVec F S50 .f32 := Host.absf main_arg5
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x10 .f32 := Host.absf main_arg6
  let main_cst_4 : FVec F S_ .f32 := constant S_ .f32 0x7F800000#32
  let main_v15 : FVec F S50x10 .f32 := broadcastInDim S50x10 ![] bcast_S_S50x10 main_cst_4
  let main_v16 : IVec S50x10 1 := cmpf .olt main_v14 main_v15
  fn_part1 (F := F) main_arg7 main_v13 main_v16
-- ==== Kernel.lean ====
abbrev S50000x512 : Shape := ⟨2, ![50000, 512]⟩
abbrev S2x1600000 : Shape := ⟨2, ![2, 1600000]⟩
abbrev S2x100000 : Shape := ⟨2, ![2, 100000]⟩
abbrev S512x50 : Shape := ⟨2, ![512, 50]⟩
abbrev S50 : Shape := ⟨1, ![50]⟩
abbrev S50x10 : Shape := ⟨2, ![50, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x50 : Shape := ⟨2, ![50000, 50]⟩
abbrev S5000x512 : Shape := ⟨2, ![5000, 512]⟩
abbrev S5000x1 : Shape := ⟨2, ![5000, 1]⟩
abbrev S5000x50 : Shape := ⟨2, ![5000, 50]⟩
abbrev S1600000x50 : Shape := ⟨2, ![1600000, 50]⟩
abbrev S1x50 : Shape := ⟨2, ![1, 50]⟩
abbrev S50000x10 : Shape := ⟨2, ![50000, 10]⟩
abbrev S5000x10 : Shape := ⟨2, ![5000, 10]⟩
abbrev S1600000x10 : Shape := ⟨2, ![1600000, 10]⟩
abbrev S1x10 : Shape := ⟨2, ![1, 10]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x10 : Shape := ⟨2, ![200000, 10]⟩

abbrev nBuf : Space → Nat
  | .hbm => 99
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S2x100000, .i32⟩
  | .hbm, ⟨3, _⟩ => ⟨S2x100000, .i32⟩
  | .hbm, ⟨4, _⟩ => ⟨S512x50, .f32⟩
  | .hbm, ⟨5, _⟩ => ⟨S50, .f32⟩
  | .hbm, ⟨6, _⟩ => ⟨S50x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x50, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x50, .f32⟩
  | .hbm, ⟨40, _⟩ => ⟨S_, .f32⟩
  | .hbm, ⟨41, _⟩ => ⟨S50000x50, .f32⟩
  | .hbm, ⟨42, _⟩ => ⟨S1600000x1, .i32⟩
  | .hbm, ⟨43, _⟩ => ⟨S50000x50, .f32⟩
  | .hbm, ⟨44, _⟩ => ⟨S50000x50, .f32⟩
  | .hbm, ⟨45, _⟩ => ⟨S50000x50, .f32⟩
  | .hbm, ⟨46, _⟩ => ⟨S50000x50, .f32⟩
  | .hbm, ⟨47, _⟩ => ⟨S1x50, .f32⟩
  | .hbm, ⟨48, _⟩ => ⟨S50000x50, .f32⟩
  | .hbm, ⟨49, _⟩ => ⟨S50000x50, .f32⟩
  | .hbm, ⟨50, _⟩ => ⟨S_, .f32⟩
  | .hbm, ⟨51, _⟩ => ⟨S50000x50, .f32⟩
  | .hbm, ⟨52, _⟩ => ⟨S50000x50, .f32⟩
  | .hbm, ⟨53, _⟩ => ⟨S50000x10, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x10, .f32⟩
  | .hbm, ⟨63, _⟩ => ⟨S_, .f32⟩
  | .hbm, ⟨64, _⟩ => ⟨S50000x10, .f32⟩
  | .hbm, ⟨65, _⟩ => ⟨S1600000x1, .i32⟩
  | .hbm, ⟨66, _⟩ => ⟨S50000x10, .f32⟩
  | .hbm, ⟨67, _⟩ => ⟨S50000x10, .f32⟩
  | .hbm, ⟨68, _⟩ => ⟨S50000x10, .f32⟩
  | .hbm, ⟨69, _⟩ => ⟨S50000x10, .f32⟩
  | .hbm, ⟨70, _⟩ => ⟨S1x10, .f32⟩
  | .hbm, ⟨71, _⟩ => ⟨S50000x10, .f32⟩
  | .hbm, ⟨72, _⟩ => ⟨S50000x10, .f32⟩
  | .hbm, ⟨73, _⟩ => ⟨S2x200000, .i32⟩
  | .hbm, ⟨74, _⟩ => ⟨S1x200000, .i32⟩
  | .hbm, ⟨75, _⟩ => ⟨S200000, .i32⟩
  | .hbm, ⟨76, _⟩ => ⟨S_, .i32⟩
  | .hbm, ⟨77, _⟩ => ⟨S200000, .i32⟩
  | .hbm, ⟨78, _⟩ => ⟨S200000, .i1⟩
  | .hbm, ⟨79, _⟩ => ⟨S_, .i32⟩
  | .hbm, ⟨80, _⟩ => ⟨S200000, .i32⟩
  | .hbm, ⟨81, _⟩ => ⟨S200000, .i32⟩
  | .hbm, ⟨82, _⟩ => ⟨S200000, .i32⟩
  | .hbm, ⟨83, _⟩ => ⟨S200000x1, .i32⟩
  | .hbm, ⟨84, _⟩ => ⟨S200000x10, .f32⟩
  | .hbm, ⟨85, _⟩ => ⟨S1x200000, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x10, .f32⟩
  | .hbm, ⟨96, _⟩ => ⟨S200000x10, .f32⟩
  | .hbm, ⟨97, _⟩ => ⟨S_, .f32⟩
  | .hbm, ⟨98, _⟩ => ⟨S200000, .f32⟩
  | .local _ .vmem, ⟨0, _⟩ => ⟨S5000x512, .f32⟩
  | .local _ .vmem, ⟨1, _⟩ => ⟨S5000x512, .f32⟩
  | .local _ .vmem, ⟨2, _⟩ => ⟨S512x50, .f32⟩
  | .local _ .vmem, ⟨3, _⟩ => ⟨S5000x1, .f32⟩
  | .local _ .vmem, ⟨4, _⟩ => ⟨S5000x1, .f32⟩
  | .local _ .vmem, ⟨5, _⟩ => ⟨S5000x50, .f32⟩
  | .local _ .vmem, ⟨6, _⟩ => ⟨S5000x50, .f32⟩
  | .local _ .vmem, ⟨7, _⟩ => ⟨S5000x50, .f32⟩
  | .local _ .vmem, ⟨8, _⟩ => ⟨S5000x50, .f32⟩
  | .local _ .vmem, ⟨9, _⟩ => ⟨S50x10, .f32⟩
  | .local _ .vmem, ⟨10, _⟩ => ⟨S5000x1, .f32⟩
  | .local _ .vmem, ⟨11, _⟩ => ⟨S5000x1, .f32⟩
  | .local _ .vmem, ⟨12, _⟩ => ⟨S5000x10, .f32⟩
  | .local _ .vmem, ⟨13, _⟩ => ⟨S5000x10, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x50_S512x50_0_0 : ∀ a, (![0, 0] : Fin 2 → Nat) a + S512x50.size a ≤ S512x50.size a
  h_S512x50 : 0 < S512x50.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x50 : S5000x1.Broadcasts S5000x50
  inb_S5000x50_S5000x50_0_0 : ∀ a, (![0, 0] : Fin 2 → Nat) a + S5000x50.size a ≤ S5000x50.size a
  h_S5000x50 : 0 < S5000x50.numel
  bcast_S_S50000x50 : S_.BroadcastsInDim S50000x50 (![] : Fin 0 → Fin S50000x50.rank)
  bcast_S50000x1_S50000x50_0_1 : S50000x1.BroadcastsInDim S50000x50 (![0, 1] : Fin 2 → Fin S50000x50.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  shapeCasts_S5000x50_S5000x50 : S5000x50.ShapeCasts S5000x50
  inb_S50x10_S50x10_0_0 : ∀ a, (![0, 0] : Fin 2 → Nat) a + S50x10.size a ≤ S50x10.size a
  h_S50x10 : 0 < S50x10.numel
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  bcast_S_S50000x10 : S_.BroadcastsInDim S50000x10 (![] : Fin 0 → Fin S50000x10.rank)
  bcast_S50000x1_S50000x10_0_1 : S50000x1.BroadcastsInDim S50000x10 (![0, 1] : Fin 2 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x10_S200000_d1 : S200000x10.ReducesTo [1] S200000
  h_S_ : 0 < S_.numel
  scatter_S50000_S1600000x1_S1600000_n_0_0_1_wf : ScatterDims.WF S50000 S1600000x1 S1600000 [] [0] [0] 1
  dot_S5000x512_S512x50_S5000x50_1_0_0_1_n_n_wf : DotDims.WF S5000x512 S512x50 S5000x50 [1] [0] [0] [1] [] []
  gather_S50000x50_S1600000x1_S1600000x50_1_0_n_n_0_1_150_wf : GatherDims.WF S50000x50 S1600000x1 S1600000x50 [1] [0] [] [0] [] 1 ![1, 50]
  scatter_S50000x50_S1600000x1_S1600000x50_1_0_0_1_wf : ScatterDims.WF S50000x50 S1600000x1 S1600000x50 [1] [0] [0] 1
  dot_S5000x50_S50x10_S5000x10_1_0_0_1_n_n_wf : DotDims.WF S5000x50 S50x10 S5000x10 [1] [0] [0] [1] [] []
  gather_S50000x10_S1600000x1_S1600000x10_1_0_n_n_0_1_110_wf : GatherDims.WF S50000x10 S1600000x1 S1600000x10 [1] [0] [] [0] [] 1 ![1, 10]
  scatter_S50000x10_S1600000x1_S1600000x10_1_0_0_1_wf : ScatterDims.WF S50000x10 S1600000x1 S1600000x10 [1] [0] [0] 1
  gather_S50000x10_S200000x1_S200000x10_1_0_n_n_0_1_110_wf : GatherDims.WF S50000x10 S200000x1 S200000x10 [1] [0] [] [0] [] 1 ![1, 10]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x50.size a ≤ S512x50.size a
  hwx0_1 : ∀ i : grid0.Coords, EltTy.bits .f32 = 32 ∨ (Rect.block (s := S512x50) S512x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x50.size a ≤ S50000x50.size a
  hwx0_3 : ∀ i : grid0.Coords, EltTy.bits .f32 = 32 ∨ (Rect.block (s := S50000x50) S5000x50.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S50000x50.size a
  hwx1_0 : ∀ i : grid1.Coords, EltTy.bits .f32 = 32 ∨ (Rect.block (s := S50000x50) S5000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x10.size a ≤ S50x10.size a
  hwx1_1 : ∀ i : grid1.Coords, EltTy.bits .f32 = 32 ∨ (Rect.block (s := S50x10) S50x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S50000x10.size a
  hwx1_3 : ∀ i : grid1.Coords, EltTy.bits .f32 = 32 ∨ (Rect.block (s := S50000x10) S5000x10.size (cc1_transform_3 i) (hinb1_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x512_S512x50_S5000x50_1_0_0_1_n_n : DotDims S5000x512 S512x50 S5000x50 where
  lhsContracting := [1]
  rhsContracting := [0]
  lhsNonContracting := [0]
  rhsNonContracting := [1]
  lhsBatch := []
  rhsBatch := []
  wf := dot_S5000x512_S512x50_S5000x50_1_0_0_1_n_n_wf
def gather_S50000x50_S1600000x1_S1600000x50_1_0_n_n_0_1_150 : GatherDims S50000x50 S1600000x1 S1600000x50 where
  offsetDims := [1]
  collapsedSliceDims := [0]
  operandBatchingDims := []
  startIndicesBatchingDims := []
  startIndexMap := [0]
  indexVectorDim := 1
  sliceSizes := ![1, 50]
  wf := gather_S50000x50_S1600000x1_S1600000x50_1_0_n_n_0_1_150_wf
def scatter_S50000x50_S1600000x1_S1600000x50_1_0_0_1 : ScatterDims S50000x50 S1600000x1 S1600000x50 where
  updateWindowDims := [1]
  insertedWindowDims := [0]
  scatterDimsToOperandDims := [0]
  indexVectorDim := 1
  wf := scatter_S50000x50_S1600000x1_S1600000x50_1_0_0_1_wf
def dot_S5000x50_S50x10_S5000x10_1_0_0_1_n_n : DotDims S5000x50 S50x10 S5000x10 where
  lhsContracting := [1]
  rhsContracting := [0]
  lhsNonContracting := [0]
  rhsNonContracting := [1]
  lhsBatch := []
  rhsBatch := []
  wf := dot_S5000x50_S50x10_S5000x10_1_0_0_1_n_n_wf
def gather_S50000x10_S1600000x1_S1600000x10_1_0_n_n_0_1_110 : GatherDims S50000x10 S1600000x1 S1600000x10 where
  offsetDims := [1]
  collapsedSliceDims := [0]
  operandBatchingDims := []
  startIndicesBatchingDims := []
  startIndexMap := [0]
  indexVectorDim := 1
  sliceSizes := ![1, 10]
  wf := gather_S50000x10_S1600000x1_S1600000x10_1_0_n_n_0_1_110_wf
def scatter_S50000x10_S1600000x1_S1600000x10_1_0_0_1 : ScatterDims S50000x10 S1600000x1 S1600000x10 where
  updateWindowDims := [1]
  insertedWindowDims := [0]
  scatterDimsToOperandDims := [0]
  indexVectorDim := 1
  wf := scatter_S50000x10_S1600000x1_S1600000x10_1_0_0_1_wf
def gather_S50000x10_S200000x1_S200000x10_1_0_n_n_0_1_110 : GatherDims S50000x10 S200000x1 S200000x10 where
  offsetDims := [1]
  collapsedSliceDims := [0]
  operandBatchingDims := []
  startIndicesBatchingDims := []
  startIndexMap := [0]
  indexVectorDim := 1
  sliceSizes := ![1, 10]
  wf := gather_S50000x10_S200000x1_S200000x10_1_0_n_n_0_1_110_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S50x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S2x100000 : Shape := ⟨2, ![2, 100000]⟩
abbrev S512x50 : Shape := ⟨2, ![512, 50]⟩
abbrev S50 : Shape := ⟨1, ![50]⟩
abbrev S50x10 : Shape := ⟨2, ![50, 10]⟩
abbrev S10 : Shape := ⟨1, ![10]⟩
abbrev S50000x50 : Shape := ⟨2, ![50000, 50]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x50 : Shape := ⟨2, ![1650000, 50]⟩
abbrev S1x50 : Shape := ⟨2, ![1, 50]⟩
abbrev S50000x10 : Shape := ⟨2, ![50000, 10]⟩
abbrev S1650000x10 : Shape := ⟨2, ![1650000, 10]⟩
abbrev S1x10 : Shape := ⟨2, ![1, 10]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x10 : Shape := ⟨2, ![200000, 10]⟩

abbrev nBuf : Space → Nat
  | .hbm => 157
  | .vmem => 0
  | .smem => 0
  | _ => 0

abbrev hbmTy0_0 (i : Nat) : BufTy := match i % 128 with
  | 0 => ⟨S50000x512, .f32⟩
  | 1 => ⟨S2x1600000, .i32⟩
  | 2 => ⟨S2x100000, .i32⟩
  | 3 => ⟨S2x100000, .i32⟩
  | 4 => ⟨S512x50, .f32⟩
  | 5 => ⟨S50, .f32⟩
  | 6 => ⟨S50x10, .f32⟩
  | 7 => ⟨S10, .f32⟩
  | 8 => ⟨S50000x50, .f32⟩
  | 9 => ⟨S1x1600000, .i32⟩
  | 10 => ⟨S1600000, .i32⟩
  | 11 => ⟨S1x1600000, .i32⟩
  | 12 => ⟨S1600000, .i32⟩
  | 13 => ⟨S50000, .i32⟩
  | 14 => ⟨S1650000, .i32⟩
  | 15 => ⟨S1650000, .i32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000, .f32⟩
  | 48 => ⟨S1650000, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000x50, .f32⟩
  | 58 => ⟨S1650000x1, .f32⟩
  | 59 => ⟨S1650000x50, .f32⟩
  | 60 => ⟨S1650000x50, .f32⟩
  | 61 => ⟨S_, .f32⟩
  | 62 => ⟨S50000x50, .f32⟩
  | 63 => ⟨S1650000x1, .i32⟩
  | 64 => ⟨S50000x50, .f32⟩
  | 65 => ⟨S1x50, .f32⟩
  | 66 => ⟨S50000x50, .f32⟩
  | 67 => ⟨S50000x50, .f32⟩
  | 68 => ⟨S_, .f32⟩
  | 69 => ⟨S50000x50, .f32⟩
  | 70 => ⟨S50000x50, .f32⟩
  | 71 => ⟨S50000x10, .f32⟩
  | 72 => ⟨S1x1600000, .i32⟩
  | 73 => ⟨S1600000, .i32⟩
  | 74 => ⟨S1x1600000, .i32⟩
  | 75 => ⟨S1600000, .i32⟩
  | 76 => ⟨S50000, .i32⟩
  | 77 => ⟨S1650000, .i32⟩
  | 78 => ⟨S1650000, .i32⟩
  | 79 => ⟨S_, .f32⟩
  | 80 => ⟨S1650000, .f32⟩
  | 81 => ⟨S_, .f32⟩
  | 82 => ⟨S50000, .f32⟩
  | 83 => ⟨S1650000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000, .f32⟩
  | 111 => ⟨S1650000, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000x10, .f32⟩
  | 121 => ⟨S1650000x1, .f32⟩
  | 122 => ⟨S1650000x10, .f32⟩
  | 123 => ⟨S1650000x10, .f32⟩
  | 124 => ⟨S_, .f32⟩
  | 125 => ⟨S50000x10, .f32⟩
  | 126 => ⟨S1650000x1, .i32⟩
  | 127 => ⟨S50000x10, .f32⟩
  | _ => ⟨S50000x512, .f32⟩

abbrev hbmTy0_1 (i : Nat) : BufTy := match i % 128 with
  | 0 => ⟨S1x10, .f32⟩
  | 1 => ⟨S50000x10, .f32⟩
  | 2 => ⟨S50000x10, .f32⟩
  | 3 => ⟨S2x200000, .i32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x10, .f32⟩
  | 15 => ⟨S1x200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x10, .f32⟩
  | 26 => ⟨S200000x10, .f32⟩
  | 27 => ⟨S_, .f32⟩
  | 28 => ⟨S200000, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_22 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x50_0_1 : S1650000x1.BroadcastsInDim S1650000x50 (![0, 1] : Fin 2 → Fin S1650000x50.rank)
  bcast_S_S50000x50 : S_.BroadcastsInDim S50000x50 (![] : Fin 0 → Fin S50000x50.rank)
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S1650000x1_S1650000x10_0_1 : S1650000x1.BroadcastsInDim S1650000x10 (![0, 1] : Fin 2 → Fin S1650000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x10_S200000_d1 : S200000x10.ReducesTo [1] S200000
  h_S_ : 0 < S_.numel
  dot_S50000x512_S512x50_S50000x50_1_0_0_1_n_n_wf : DotDims.WF S50000x512 S512x50 S50000x50 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x50_S1650000x1_S1650000x50_1_0_n_n_0_1_150_wf : GatherDims.WF S50000x50 S1650000x1 S1650000x50 [1] [0] [] [0] [] 1 ![1, 50]
  scatter_S50000x50_S1650000x1_S1650000x50_1_0_0_1_wf : ScatterDims.WF S50000x50 S1650000x1 S1650000x50 [1] [0] [0] 1
  dot_S50000x50_S50x10_S50000x10_1_0_0_1_n_n_wf : DotDims.WF S50000x50 S50x10 S50000x10 [1] [0] [0] [1] [] []
  gather_S50000x10_S1650000x1_S1650000x10_1_0_n_n_0_1_110_wf : GatherDims.WF S50000x10 S1650000x1 S1650000x10 [1] [0] [] [0] [] 1 ![1, 10]
  scatter_S50000x10_S1650000x1_S1650000x10_1_0_0_1_wf : ScatterDims.WF S50000x10 S1650000x1 S1650000x10 [1] [0] [0] 1
  gather_S50000x10_S200000x1_S200000x10_1_0_n_n_0_1_110_wf : GatherDims.WF S50000x10 S200000x1 S200000x10 [1] [0] [] [0] [] 1 ![1, 10]

variable [Facts₀]

def dot_S50000x512_S512x50_S50000x50_1_0_0_1_n_n : DotDims S50000x512 S512x50 S50000x50 where
  lhsContracting := [1]
  rhsContracting := [0]
  lhsNonContracting := [0]
  rhsNonContracting := [1]
  lhsBatch := []
  rhsBatch := []
  wf := dot_S50000x512_S512x50_S50000x50_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x50_S1650000x1_S1650000x50_1_0_n_n_0_1_150 : GatherDims S50000x50 S1650000x1 S1650000x50 where
  offsetDims := [1]
  collapsedSliceDims := [0]
  operandBatchingDims := []
  startIndicesBatchingDims := []
  startIndexMap := [0]
  indexVectorDim := 1
  sliceSizes := ![1, 50]
  wf := gather_S50000x50_S1650000x1_S1650000x50_1_0_n_n_0_1_150_wf
def scatter_S50000x50_S1650000x1_S1650000x50_1_0_0_1 : ScatterDims S50000x50 S1650000x1 S1650000x50 where
  updateWindowDims := [1]
  insertedWindowDims := [0]
  scatterDimsToOperandDims := [0]
  indexVectorDim := 1
  wf := scatter_S50000x50_S1650000x1_S1650000x50_1_0_0_1_wf
def dot_S50000x50_S50x10_S50000x10_1_0_0_1_n_n : DotDims S50000x50 S50x10 S50000x10 where
  lhsContracting := [1]
  rhsContracting := [0]
  lhsNonContracting := [0]
  rhsNonContracting := [1]
  lhsBatch := []
  rhsBatch := []
  wf := dot_S50000x50_S50x10_S50000x10_1_0_0_1_n_n_wf
def gather_S50000x10_S1650000x1_S1650000x10_1_0_n_n_0_1_110 : GatherDims S50000x10 S1650000x1 S1650000x10 where
  offsetDims := [1]
  collapsedSliceDims := [0]
  operandBatchingDims := []
  startIndicesBatchingDims := []
  startIndexMap := [0]
  indexVectorDim := 1
  sliceSizes := ![1, 10]
  wf := gather_S50000x10_S1650000x1_S1650000x10_1_0_n_n_0_1_110_wf
def scatter_S50000x10_S1650000x1_S1650000x10_1_0_0_1 : ScatterDims S50000x10 S1650000x1 S1650000x10 where
  updateWindowDims := [1]
  insertedWindowDims := [0]
  scatterDimsToOperandDims := [0]
  indexVectorDim := 1
  wf := scatter_S50000x10_S1650000x1_S1650000x10_1_0_0_1_wf
def gather_S50000x10_S200000x1_S200000x10_1_0_n_n_0_1_110 : GatherDims S50000x10 S200000x1 S200000x10 where
  offsetDims := [1]
  collapsedSliceDims := [0]
  operandBatchingDims := []
  startIndicesBatchingDims := []
  startIndexMap := [0]
  indexVectorDim := 1
  sliceSizes := ![1, 10]
  wf := gather_S50000x10_S200000x1_S200000x10_1_0_n_n_0_1_110_wf

class Facts : Prop extends Facts₀ where

variable [Facts]
-- ==== Proof.KernelRun.lean ====
import proofs.«166101_j23072564314311_2_alg».proof.Proof.Gen.KernelIdeal.Frame

/-!
# The kernel's run, with the result buffer named

The program is two pipelined regions among six stretches of host operations.  The contents of
every buffer of a core at each boundary between two segments is a fold from the launch memory:
a stretch of host operations applies its operations in order (`StableHlo.after`), and a region
replaces each of its four arrays by what its write-backs leave and keeps every other buffer as
it found it.  `Gen.W8 m ρ c` is the last stage of that fold: what core `c`'s buffers hold when
the program returns, as a function of the launch memory `m` alone.

`run_value` says: from any launch memory with zero counters, every weakly fair execution of the
program on the cores terminates without a fault, and in every final state the result buffer
`main_v70` of each core holds `Gen.W8 m ρ c` read at that buffer, while the eight argument
arrays hold what they held at launch.  It is the generated frame's run with one more buffer
read out of the last thread state; what `Gen.W8` IS at `main_v70`, as a function of the
arguments, is the business of the modules that follow.
-/

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes
-- unfolding plain definitions in a metavariable's type
set_option backward.isDefEq.respectTransparency.types false in
/-- Every weakly fair execution of the program from `m` (zero counters, generator registers `ρ`)
    terminates, nothing faulting; in every final state each core's result buffer `main_v70` holds
    the last boundary's contents `Gen.W8 m ρ c` at that buffer — the launch memory folded through
    the three host stretches, the first region, two more stretches, the second region and the
    last stretch — and each of the eight argument arrays holds its launch contents.  The final
    thread state has EVERY unscoped buffer at `Gen.W8`; the frame keeps the arguments, this keeps
    the result as well. -/
theorem run_value : θ_run defs (onTc (τ := τ) (main (F := F))) ⟨m, fun _ => 0, ρ⟩ (fun r => ∀ c : Dev nD,
      r.2.mem ((c.tc : Thread nD τ).loc main_v70) = Gen.W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.GcnRun

end
-- ==== Proof.KernelCarry.lean ====
import proofs.«166101_j23072564314311_2_alg».proof.Proof.Gen.KernelIdeal.Frame

/-!
# What each segment leaves alone

The contents of a core's buffers at the boundaries between the program's segments are a fold
from the launch memory: `W0` is the launch memory, `W1`, `W2`, `W3` follow the three stretches of
host operations before the first region, `W4` is the first region's exit, `W5`, `W6` follow the
two stretches between the regions, `W7` is the second region's exit and `W8` follows the last
stretch.

A stretch of host operations changes only the buffers its operations write; a region changes
only its output array (an input window's array comes out as it went in, and a buffer that is
none of the region's four arrays is not touched).  So a buffer's contents at a late boundary
are its contents at the last boundary before which something wrote it.  The theorems here say
this for the buffers the value of the program is made of:

* `main_v1` and `main_v3` (the two rows of the integer array `main_arg1`, each reshaped to a
  vector), the column `main_v14` (the first three stretches' last result) and the arguments
  `main_arg2`, `main_arg3`, `main_arg7` are written by nothing from the first region on: at
  the second region's exit they hold what they held at the first region's entry (`carry7_*`);
* the same across the first region alone (`carry4_*`), and for `main_v14` up to the second
  region's entry (`carry6_v14`);
* an argument array nothing writes holds its launch contents at the first region's entry
  (`carry3_*`) and, for `main_arg6`, the array of the second region's second window, at the
  second region's entry (`carry6_arg6`);
* each region's output array holds, at the region's exit, its write-backs folded over the
  whole grid (`out4_v15`, `out7_v33`).

`main_v14` is the third window of BOTH regions, an input of each; `main_arg6` is the second
window of the second region.
-/

set_option maxRecDepth 16384

noncomputable section

namespace Cert.KernelIdeal.GcnCarry

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-- `stretch_keeps ops x`: the buffer `x` holds after the stretch `ops` what it held before it,
    because `x` is the result buffer of none of its operations: the list is opened, each
    operation's set of written buffers is a singleton, and `x` differs from each as a reference. -/
local macro "stretch_keeps " ops:ident x:term:max : tactic => `(tactic|
  exact StableHlo.after_of_forall_not_mem (b := Proc.devRef .tc $x) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## From the launch to the first region's entry: the arguments -/

theorem carry3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2 main_arg0
    _ = W1 m ρ c (Proc.devRef .tc main_arg0) := by stretch_keeps hostOps0_1 main_arg0
    _ = W0 m ρ c (Proc.devRef .tc main_arg0) := by stretch_keeps hostOps0 main_arg0
    _ = m ((c : Thread nD τ).loc main_arg0) := rfl

theorem carry3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by stretch_keeps hostOps0_2 main_arg1
    _ = W1 m ρ c (Proc.devRef .tc main_arg1) := by stretch_keeps hostOps0_1 main_arg1
    _ = W0 m ρ c (Proc.devRef .tc main_arg1) := by stretch_keeps hostOps0 main_arg1
    _ = m ((c : Thread nD τ).loc main_arg1) := rfl

theorem carry3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps hostOps0_2 main_arg2
    _ = W1 m ρ c (Proc.devRef .tc main_arg2) := by stretch_keeps hostOps0_1 main_arg2
    _ = W0 m ρ c (Proc.devRef .tc main_arg2) := by stretch_keeps hostOps0 main_arg2
    _ = m ((c : Thread nD τ).loc main_arg2) := rfl

theorem carry3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps hostOps0_2 main_arg3
    _ = W1 m ρ c (Proc.devRef .tc main_arg3) := by stretch_keeps hostOps0_1 main_arg3
    _ = W0 m ρ c (Proc.devRef .tc main_arg3) := by stretch_keeps hostOps0 main_arg3
    _ = m ((c : Thread nD τ).loc main_arg3) := rfl

theorem carry3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps hostOps0_2 main_arg4
    _ = W1 m ρ c (Proc.devRef .tc main_arg4) := by stretch_keeps hostOps0_1 main_arg4
    _ = W0 m ρ c (Proc.devRef .tc main_arg4) := by stretch_keeps hostOps0 main_arg4
    _ = m ((c : Thread nD τ).loc main_arg4) := rfl

theorem carry3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by stretch_keeps hostOps0_2 main_arg5
    _ = W1 m ρ c (Proc.devRef .tc main_arg5) := by stretch_keeps hostOps0_1 main_arg5
    _ = W0 m ρ c (Proc.devRef .tc main_arg5) := by stretch_keeps hostOps0 main_arg5
    _ = m ((c : Thread nD τ).loc main_arg5) := rfl

theorem carry3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by stretch_keeps hostOps0_2 main_arg7
    _ = W1 m ρ c (Proc.devRef .tc main_arg7) := by stretch_keeps hostOps0_1 main_arg7
    _ = W0 m ρ c (Proc.devRef .tc main_arg7) := by stretch_keeps hostOps0 main_arg7
    _ = m ((c : Thread nD τ).loc main_arg7) := rfl

/-! ## Across the first region -/

theorem carry4_v1 (c : Dev nD) : W4 m ρ c (Proc.devRef .tc main_v1) = W3 m ρ c (Proc.devRef .tc main_v1) :=
  W4_of_ne m ρ c main_v1 (by decide)

theorem carry4_v3 (c : Dev nD) : W4 m ρ c (Proc.devRef .tc main_v3) = W3 m ρ c (Proc.devRef .tc main_v3) :=
  W4_of_ne m ρ c main_v3 (by decide)

theorem carry4_arg5 (c : Dev nD) : W4 m ρ c (Proc.devRef .tc main_arg5) = W3 m ρ c (Proc.devRef .tc main_arg5) :=
  W4_of_ne m ρ c main_arg5 (by decide)

/-- `main_v14` is the first region's third window, an input: the region's exit contents of an
    input window's array are its entry contents. -/
theorem carry4_v14 (c : Dev nD) : W4 m ρ c (Proc.devRef .tc main_v14) = W3 m ρ c (Proc.devRef .tc main_v14) :=
  (W4_arr m ρ c 2).trans (((dat0 (V3 m ρ) c).arrAt_in 2 rfl _).trans (A_eq0 (V3 m ρ) c 2))

/-- The first region's output array at its exit: the write-backs of all grid points folded. -/
theorem out4_v15 (c : Dev nD) : W4 m ρ c (Proc.devRef .tc main_v15) = (dat0 (V3 m ρ) c).arrAt 3 cfg0.N :=
  W4_arr m ρ c 3

/-! ## From the first region's exit to the second region's entry -/

theorem carry6_v14 (c : Dev nD) : W6 m ρ c (Proc.devRef .tc main_v14) = W3 m ρ c (Proc.devRef .tc main_v14) :=
  calc W6 m ρ c (Proc.devRef .tc main_v14)
    _ = W5 m ρ c (Proc.devRef .tc main_v14) := by stretch_keeps hostOps1_1 main_v14
    _ = W4 m ρ c (Proc.devRef .tc main_v14) := by stretch_keeps hostOps1 main_v14
    _ = W3 m ρ c (Proc.devRef .tc main_v14) := carry4_v14 m ρ c

/-- The array of the second region's second window is an argument that nothing before that
    region writes. -/
theorem carry6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by stretch_keeps hostOps1_1 main_arg6
    _ = W4 m ρ c (Proc.devRef .tc main_arg6) := by stretch_keeps hostOps1 main_arg6
    _ = W3 m ρ c (Proc.devRef .tc main_arg6) := W4_of_ne m ρ c main_arg6 (by decide)
    _ = W2 m ρ c (Proc.devRef .tc main_arg6) := by stretch_keeps hostOps0_2 main_arg6
    _ = W1 m ρ c (Proc.devRef .tc main_arg6) := by stretch_keeps hostOps0_1 main_arg6
    _ = W0 m ρ c (Proc.devRef .tc main_arg6) := by stretch_keeps hostOps0 main_arg6
    _ = m ((c : Thread nD τ).loc main_arg6) := rfl

/-! ## From the first region's entry to the second region's exit -/

theorem carry7_v1 (c : Dev nD) : W7 m ρ c (Proc.devRef .tc main_v1) = W3 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by stretch_keeps hostOps1_1 main_v1
    _ = W4 m ρ c (Proc.devRef .tc main_v1) := by stretch_keeps hostOps1 main_v1
    _ = W3 m ρ c (Proc.devRef .tc main_v1) := carry4_v1 m ρ c

theorem carry7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by stretch_keeps hostOps1_1 main_v3
    _ = W4 m ρ c (Proc.devRef .tc main_v3) := by stretch_keeps hostOps1 main_v3
    _ = W3 m ρ c (Proc.devRef .tc main_v3) := carry4_v3 m ρ c

/-- `main_v14` is the third window of the second region too, again an input. -/
theorem carry7_v14 (c : Dev nD) : W7 m ρ c (Proc.devRef .tc main_v14) = W3 m ρ c (Proc.devRef .tc main_v14) :=
  calc W7 m ρ c (Proc.devRef .tc main_v14)
    _ = W6 m ρ c (Proc.devRef .tc main_v14) := (W7_arr m ρ c 2).trans (((dat1 (V6 m ρ) c).arrAt_in 2 rfl _).trans (A_eq1 (V6 m ρ) c 2))
    _ = W5 m ρ c (Proc.devRef .tc main_v14) := by stretch_keeps hostOps1_1 main_v14
    _ = W4 m ρ c (Proc.devRef .tc main_v14) := by stretch_keeps hostOps1 main_v14
    _ = W3 m ρ c (Proc.devRef .tc main_v14) := carry4_v14 m ρ c

theorem carry7_arg2 (c : Dev nD) : W7 m ρ c (Proc.devRef .tc main_arg2) = W3 m ρ c (Proc.devRef .tc main_arg2) :=
  calc W7 m ρ c (Proc.devRef .tc main_arg2)
    _ = W6 m ρ c (Proc.devRef .tc main_arg2) := W7_of_ne m ρ c main_arg2 (by decide)
    _ = W5 m ρ c (Proc.devRef .tc main_arg2) := by stretch_keeps hostOps1_1 main_arg2
    _ = W4 m ρ c (Proc.devRef .tc main_arg2) := by stretch_keeps hostOps1 main_arg2
    _ = W3 m ρ c (Proc.devRef .tc main_arg2) := W4_of_ne m ρ c main_arg2 (by decide)

theorem carry7_arg3 (c : Dev nD) : W7 m ρ c (Proc.devRef .tc main_arg3) = W3 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := by stretch_keeps hostOps1_1 main_arg3
    _ = W4 m ρ c (Proc.devRef .tc main_arg3) := by stretch_keeps hostOps1 main_arg3
    _ = W3 m ρ c (Proc.devRef .tc main_arg3) := W4_of_ne m ρ c main_arg3 (by decide)

theorem carry7_arg7 (c : Dev nD) : W7 m ρ c (Proc.devRef .tc main_arg7) = W3 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := by stretch_keeps hostOps1_1 main_arg7
    _ = W4 m ρ c (Proc.devRef .tc main_arg7) := by stretch_keeps hostOps1 main_arg7
    _ = W3 m ρ c (Proc.devRef .tc main_arg7) := W4_of_ne m ρ c main_arg7 (by decide)

/-- The second region's output array at its exit: the write-backs of all grid points folded. -/
theorem out7_v33 (c : Dev nD) : W7 m ρ c (Proc.devRef .tc main_v33) = (dat1 (V6 m ρ) c).arrAt 3 cfg1.N :=
  W7_arr m ρ c 3

end Cert.KernelIdeal.GcnCarry

end
-- ==== Proof.LibStretch.lean ====
/-
  Three small tools for reading what a line of array operations leaves in a buffer (`StableHlo.after ops V b`), general in
  the program's signature and in the float values.

  * `after_append`: what two lists of operations run one after the other leave is what the second leaves of what the first
    left. It lets a long line be read in consecutive parts, each over an ARBITRARY valuation `V` — which matters: a part's
    lemma stated over a valuation that is itself an earlier fold lets a definitional check open that fold and evaluate it.
  * `ofBuf_toBuf`: contents carried to a typed reference's own buffer type and back are the contents (the transport is
    along an equation of buffer types; substitute it). Functions jax outlined are printed over typed references, so their
    operations' results come wrapped in such pairs.
  * `results_inside`: a reading of the whole line in one simplification pass cannot rewrite under the dependent pairs
    ⟨shape, contents⟩ of a concatenation's operand list; this tactic finishes those positions by rewriting with the
    operations' result lemmas.
-/
import Idealize.ShloMosaic.Lib.StableHlo.Run

noncomputable section

namespace Cert.LibStretch

open Idealize.ShloMosaic Idealize.ShloMosaic.StableHlo

variable {τ : Topo} {sig : RefSig} {Val : EltTy → Type}

/-- What two lists of operations run one after the other leave is what the second leaves of what the first left. -/
theorem after_append : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-- Contents carried to a typed reference's own buffer type and back are the contents. -/
theorem ofBuf_toBuf {T : BufTy} (x : TRef sig T) (v : T.Contents Val) : x.ofBuf (Val := Val) (x.toBuf v) = v := by
  obtain ⟨r, h, h2, h3⟩ := x
  subst h
  rfl

/-- The remnants of a one-pass reading: contents read inside the operand list of a concatenation. -/
macro "results_inside" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.LibStretch

end
-- ==== Proof.KernelStages.lean ====
import proofs.«166101_j23072564314311_2_alg».proof.Proof.Gen.KernelIdeal.Frame
import proofs.«166101_j23072564314311_2_alg».proof.Proof.LibStretch
import Idealize.ShloMosaic.PureOps.Ideal.Laws

/-!
# The stretches of array operations, as named functions of arrays

Between the launch and the first region, between the two regions, and after the second region the
program runs lines of whole-array operations.  Here each line's result is written once as a function
of the arrays it reads, over the extended reals, each function the composition of the operations in
the order the program applies them:

* before the first region: the two rows of the 2×1600000 integer array as vectors of words
  (`rowWords`, `colWords`); the count of occurrences of each of 50000 values among the second row's
  words, plus one (`degrees`: ones added into a zero vector at the positions the words name, then one
  more everywhere); its reciprocal square root where the count is positive and zero elsewhere
  (`normalisers`); that vector as a 50000×1 column (`normCol`);
* between the regions: words below zero moved up by 50000 (`wrapWords`); the rows of the first
  region's result gathered at the first row's words, added into a zero matrix at the rows the second
  row's words name, the result added to itself ungathered, every row scaled by the column, a row
  vector added to every row (`aggregate50`); the maximum with zero (`relu50`);
* after the second region: the same aggregation at width 10 (`aggregate10`); the two 2×100000 integer
  arrays side by side, each row's words moved up as before, the rows of the aggregate gathered at
  them, multiplied entry by entry and summed along each row (`decode`).

The theorems `W3_v1`, `W3_v3`, `W3_v14`, `W6_v32`, `W8_v70` say that the buffer contents at the
boundaries between the program's segments are these functions of the contents at an earlier boundary.
Every line is first read over an ARBITRARY assignment `V` of contents to buffers and only then
instantiated at a boundary's contents, so that no check opens an earlier fold.
-/

set_option maxRecDepth 16384

noncomputable section

namespace Cert.KernelIdeal.GcnStages

open Cert.KernelIdeal Cert.KernelIdeal.Gen Cert.LibStretch
open Idealize.ShloMosaic Idealize.ShloMosaic.TcCoe Idealize.ShloMosaic.Tactic

/-! ## The functions -/

/-- Row 0 of the 2×1600000 integer array, as a vector of 1600000 words. -/
def rowWords (a1 : (⟨S2x1600000, .i32⟩ : BufTy).Contents (Elt Ideal)) : IVec S1600000 32 :=
  shapeCast S1600000 (extractStridedSlice S1x1600000 ![0, 0] a1 slices_S2x1600000_S1x1600000_0_0) shapeCasts_S1x1600000_S1600000

/-- Row 1 of the 2×1600000 integer array, as a vector of 1600000 words. -/
def colWords (a1 : (⟨S2x1600000, .i32⟩ : BufTy).Contents (Elt Ideal)) : IVec S1600000 32 :=
  shapeCast S1600000 (extractStridedSlice S1x1600000 ![1, 0] a1 slices_S2x1600000_S1x1600000_1_0) shapeCasts_S1x1600000_S1600000

/-- For each of the 50000 values, one plus the number of positions of `col` holding it: a one added into a zero
    vector at every position's word, then one added to every entry. -/
def degrees (col : IVec S1600000 32) : FVec Ideal S50000 .f32 :=
  addf
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 col)
      (broadcastInDim S1600000 ![] bcast_S_S1600000 (constant (F := Ideal) S_ .f32 0x3F800000#32)))
    (broadcastInDim S50000 ![] bcast_S_S50000 (constant (F := Ideal) S_ .f32 0x3F800000#32))

/-- The reciprocal square root of an entry that is above zero, and zero for any other entry. -/
def normalisers (deg : FVec Ideal S50000 .f32) : FVec Ideal S50000 .f32 :=
  select (cmpf .ogt deg (broadcastInDim S50000 ![] bcast_S_S50000 (constant (F := Ideal) S_ .f32 0x00000000#32)))
    (Host.rsqrt deg)
    (broadcastInDim S50000 ![] bcast_S_S50000 (id (constant (F := Ideal) S_ .f32 0x00000000#32)))

/-- A vector of 50000 entries as a 50000×1 column. -/
def normCol (d : FVec Ideal S50000 .f32) : FVec Ideal S50000x1 .f32 :=
  broadcastInDim S50000x1 ![0] bcast_S50000_S50000x1_0 d

/-- A word below zero moved up by 50000, any other word kept: on 1600000 words. -/
def wrapWords (w : IVec S1600000 32) : IVec S1600000 32 :=
  select (cmpi .slt w (broadcastInDim S1600000 ![] bcast_S_S1600000 (constantI S_ 32 0#32)))
    (addi w (broadcastInDim S1600000 ![] bcast_S_S1600000 (constantI S_ 32 50000#32))) w

/-- One aggregation at width 50: the rows of `r` at the (moved-up) words of `row`, added into a zero matrix at the
    rows the words of `col` name; plus `r`; every row `i` scaled by `dcol i`; plus `b` on every row. -/
def aggregate50 (r : FVec Ideal S50000x50 .f32) (row col : IVec S1600000 32) (dcol : FVec Ideal S50000x1 .f32)
    (b : FVec Ideal S50 .f32) : FVec Ideal S50000x50 .f32 :=
  addf
    (mulf (broadcastInDim S50000x50 ![0, 1] bcast_S50000x1_S50000x50_0_1 dcol)
      (addf
        (Host.scatterAdd scatter_S50000x50_S1600000x1_S1600000x50_1_0_0_1
          (broadcastInDim S50000x50 ![] bcast_S_S50000x50 (constant (F := Ideal) S_ .f32 0x00000000#32))
          (broadcastInDim S1600000x1 ![0] bcast_S1600000_S1600000x1_0 col)
          (Host.gather gather_S50000x50_S1600000x1_S1600000x50_1_0_n_n_0_1_150 r
            (broadcastInDim S1600000x1 ![0] bcast_S1600000_S1600000x1_0 (wrapWords row))))
        r))
    (broadcastInDim S50000x50 ![0, 1] bcast_S1x50_S50000x50_0_1 (broadcastInDim S1x50 ![1] bcast_S50_S1x50_1 b))

/-- The maximum of every entry with zero. -/
def relu50 (h : FVec Ideal S50000x50 .f32) : FVec Ideal S50000x50 .f32 :=
  maximumf h (broadcastInDim S50000x50 ![] bcast_S_S50000x50 (constant (F := Ideal) S_ .f32 0x00000000#32))

/-- The same aggregation at width 10. -/
def aggregate10 (r : FVec Ideal S50000x10 .f32) (row col : IVec S1600000 32) (dcol : FVec Ideal S50000x1 .f32)
    (b : FVec Ideal S10 .f32) : FVec Ideal S50000x10 .f32 :=
  addf
    (mulf (broadcastInDim S50000x10 ![0, 1] bcast_S50000x1_S50000x10_0_1 dcol)
      (addf
        (Host.scatterAdd scatter_S50000x10_S1600000x1_S1600000x10_1_0_0_1
          (broadcastInDim S50000x10 ![] bcast_S_S50000x10 (constant (F := Ideal) S_ .f32 0x00000000#32))
          (broadcastInDim S1600000x1 ![0] bcast_S1600000_S1600000x1_0 col)
          (Host.gather gather_S50000x10_S1600000x1_S1600000x10_1_0_n_n_0_1_110 r
            (broadcastInDim S1600000x1 ![0] bcast_S1600000_S1600000x1_0 (wrapWords row))))
        r))
    (broadcastInDim S50000x10 ![0, 1] bcast_S1x10_S50000x10_0_1 (broadcastInDim S1x10 ![1] bcast_S10_S1x10_1 b))

/-- A word below zero moved up by 50000, any other word kept: on 200000 words. -/
def wrapPairWords (w : IVec S200000 32) : IVec S200000 32 :=
  select (cmpi .slt w (broadcastInDim S200000 ![] bcast_S_S200000 (constantI S_ 32 0#32)))
    (addi w (broadcastInDim S200000 ![] bcast_S_S200000 (constantI S_ 32 50000#32))) w

/-- The two 2×100000 integer arrays side by side: 2×200000. -/
def pairWords (a2 a3 : (⟨S2x100000, .i32⟩ : BufTy).Contents (Elt Ideal)) : (⟨S2x200000, .i32⟩ : BufTy).Contents (Elt Ideal) :=
  concatenate S2x200000 1 [⟨S2x100000, a2⟩, ⟨S2x100000, a3⟩] concatenates_S2x100000_S2x100000_S2x200000_d1

/-- For each of the 200000 columns of the two integer arrays side by side: the row of `z` at the (moved-up) word of
    row 0 times, entry by entry, the row of `z` at the (moved-up) word of row 1, summed over the ten entries from zero. -/
def decode (z : FVec Ideal S50000x10 .f32) (a2 a3 : (⟨S2x100000, .i32⟩ : BufTy).Contents (Elt Ideal)) :
    FVec Ideal S200000 .f32 :=
  Host.reduceAdd
    (mulf
      (Host.gather gather_S50000x10_S200000x1_S200000x10_1_0_n_n_0_1_110 z
        (broadcastInDim S200000x1 ![0] bcast_S200000_S200000x1_0
          (wrapPairWords (shapeCast S200000
            (extractStridedSlice S1x200000 ![0, 0] (pairWords a2 a3) slices_S2x200000_S1x200000_0_0)
            shapeCasts_S1x200000_S200000))))
      (Host.gather gather_S50000x10_S200000x1_S200000x10_1_0_n_n_0_1_110 z
        (broadcastInDim S200000x1 ![0] bcast_S200000_S200000x1_0
          (wrapPairWords (shapeCast S200000
            (extractStridedSlice S1x200000 ![1, 0] (pairWords a2 a3) slices_S2x200000_S1x200000_1_0)
            shapeCasts_S1x200000_S200000)))))
    (constant (F := Ideal) S_ .f32 0x00000000#32) reducesTo_S200000x10_S200000_d1 h_S_

/-! ## Each line read over any contents `V` -/

section Stretches

variable (V : Valuation τ sig (Elt Ideal))

/-! ### The three lines before the first region -/

theorem s0_v1 : StableHlo.after (hostOps0 (F := Ideal)) V (Proc.devRef .tc main_v1) = rowWords (V (Proc.devRef .tc main_arg1)) := by
  after_results
  rfl

theorem s0_v3 : StableHlo.after (hostOps0 (F := Ideal)) V (Proc.devRef .tc main_v3) = colWords (V (Proc.devRef .tc main_arg1)) := by
  after_results
  rfl

theorem s0_v11 : StableHlo.after (hostOps0 (F := Ideal)) V (Proc.devRef .tc main_v11)
    = cmpf .ogt (degrees (colWords (V (Proc.devRef .tc main_arg1))))
        (broadcastInDim S50000 ![] bcast_S_S50000 (constant (F := Ideal) S_ .f32 0x00000000#32)) := by
  after_results
  rfl

theorem s0_v12 : StableHlo.after (hostOps0 (F := Ideal)) V (Proc.devRef .tc main_v12)
    = Host.rsqrt (degrees (colWords (V (Proc.devRef .tc main_arg1)))) := by
  after_results
  rfl

theorem s0_cst3 : StableHlo.after (hostOps0 (F := Ideal)) V (Proc.devRef .tc main_cst_3)
    = constant (F := Ideal) S_ .f32 0x00000000#32 := by
  after_results

theorem s01_v13 : StableHlo.after (hostOps0_1 (F := Ideal)) V (Proc.devRef .tc main_v13)
    = select (V (Proc.devRef .tc main_v11)) (V (Proc.devRef .tc main_v12))
        (broadcastInDim S50000 ![] bcast_S_S50000 (id (V (Proc.devRef .tc main_cst_3)))) := by
  after_results
  rfl

theorem s02_v14 : StableHlo.after (hostOps0_2 (F := Ideal)) V (Proc.devRef .tc main_v14)
    = normCol (V (Proc.devRef .tc main_v13)) := by
  after_results
  rfl

/-! ### The two lines between the regions -/

theorem s1_v31 : StableHlo.after (hostOps1 (F := Ideal)) V (Proc.devRef .tc main_v31)
    = aggregate50 (V (Proc.devRef .tc main_v15)) (V (Proc.devRef .tc main_v1)) (V (Proc.devRef .tc main_v3))
        (V (Proc.devRef .tc main_v14)) (V (Proc.devRef .tc main_arg5)) := by
  after_results_simp
  rfl

theorem s11_v32 : StableHlo.after (hostOps1_1 (F := Ideal)) V (Proc.devRef .tc main_v32)
    = relu50 (V (Proc.devRef .tc main_v31)) := by
  after_results
  rfl

/-! ### The last line, read in two parts: its first nineteen operations make the width-10 aggregate; the rest,
    from the concatenation on, read it and the two integer arrays -/

/-- The last stretch's first nineteen operations. -/
abbrev layerOps : List (HloOp τ sig (Elt Ideal)) := (hostOps2 (F := Ideal)).take 19
/-- The rest of the last stretch: from the concatenation on. -/
abbrev scoreOps : List (HloOp τ sig (Elt Ideal)) := (hostOps2 (F := Ideal)).drop 19

theorem after_hostOps2 : StableHlo.after (hostOps2 (F := Ideal)) V = StableHlo.after scoreOps (StableHlo.after layerOps V) :=
  (congrArg (fun l => StableHlo.after l V) (List.take_append_drop 19 (hostOps2 (F := Ideal))).symm).trans
    (after_append layerOps scoreOps V)

theorem s2a_v49 : StableHlo.after layerOps V (Proc.devRef .tc main_v49)
    = aggregate10 (V (Proc.devRef .tc main_v33)) (V (Proc.devRef .tc main_v1)) (V (Proc.devRef .tc main_v3))
        (V (Proc.devRef .tc main_v14)) (V (Proc.devRef .tc main_arg7)) := by
  simp only [layerOps, hostOps2, List.take_succ_cons, List.take_zero]
  after_results_simp
  rfl

theorem s2a_arg2 : StableHlo.after layerOps V (Proc.devRef .tc main_arg2) = V (Proc.devRef .tc main_arg2) := by
  simp only [layerOps, hostOps2, List.take_succ_cons, List.take_zero]
  after_results_simp

theorem s2a_arg3 : StableHlo.after layerOps V (Proc.devRef .tc main_arg3) = V (Proc.devRef .tc main_arg3) := by
  simp only [layerOps, hostOps2, List.take_succ_cons, List.take_zero]
  after_results_simp

theorem s2b_v70 : StableHlo.after scoreOps V (Proc.devRef .tc main_v70)
    = decode (V (Proc.devRef .tc main_v49)) (V (Proc.devRef .tc main_arg2)) (V (Proc.devRef .tc main_arg3)) := by
  simp only [scoreOps, hostOps2, List.drop_succ_cons, List.drop_zero]
  after_results_simp
  rfl

theorem s2_v70 : StableHlo.after (hostOps2 (F := Ideal)) V (Proc.devRef .tc main_v70)
    = decode (aggregate10 (V (Proc.devRef .tc main_v33)) (V (Proc.devRef .tc main_v1)) (V (Proc.devRef .tc main_v3))
        (V (Proc.devRef .tc main_v14)) (V (Proc.devRef .tc main_arg7))) (V (Proc.devRef .tc main_arg2)) (V (Proc.devRef .tc main_arg3)) := by
  refine (congrFun (after_hostOps2 V) _).trans ((s2b_v70 (StableHlo.after layerOps V)).trans ?_)
  rw [s2a_v49 V, s2a_arg2 V, s2a_arg3 V]

end Stretches

/-! ## At the boundaries between the segments -/

variable (m : (ℓ : Loc nD τ sig) → Buf (Elt Ideal) ℓ) (ρ : Dev nD → PrngReg) (c : Dev nD)

/-- `stretch_keeps ops x`: the buffer `x` holds after the line `ops` what it held before it, being the result
    buffer of none of its operations. -/
local macro "stretch_keeps " ops:ident x:term:max : tactic => `(tactic|
  exact StableHlo.after_of_forall_not_mem (b := Proc.devRef .tc $x) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ### At the first region's entry: the two rows of words and the column -/

theorem W3_v1 : W3 m ρ c (Proc.devRef .tc main_v1) = rowWords (m ((c : Thread nD τ).loc main_arg1)) :=
  calc W3 m ρ c (Proc.devRef .tc main_v1)
    _ = W2 m ρ c (Proc.devRef .tc main_v1) := by stretch_keeps hostOps0_2 main_v1
    _ = W1 m ρ c (Proc.devRef .tc main_v1) := by stretch_keeps hostOps0_1 main_v1
    _ = rowWords (W0 m ρ c (Proc.devRef .tc main_arg1)) := s0_v1 (W0 m ρ c)
    _ = rowWords (m ((c : Thread nD τ).loc main_arg1)) := rfl

theorem W3_v3 : W3 m ρ c (Proc.devRef .tc main_v3) = colWords (m ((c : Thread nD τ).loc main_arg1)) :=
  calc W3 m ρ c (Proc.devRef .tc main_v3)
    _ = W2 m ρ c (Proc.devRef .tc main_v3) := by stretch_keeps hostOps0_2 main_v3
    _ = W1 m ρ c (Proc.devRef .tc main_v3) := by stretch_keeps hostOps0_1 main_v3
    _ = colWords (W0 m ρ c (Proc.devRef .tc main_arg1)) := s0_v3 (W0 m ρ c)
    _ = colWords (m ((c : Thread nD τ).loc main_arg1)) := rfl

theorem W3_v14 : W3 m ρ c (Proc.devRef .tc main_v14)
    = normCol (normalisers (degrees (colWords (m ((c : Thread nD τ).loc main_arg1))))) := by
  have e11 : W1 m ρ c (Proc.devRef .tc main_v11) = _ := s0_v11 (W0 m ρ c)
  have e12 : W1 m ρ c (Proc.devRef .tc main_v12) = _ := s0_v12 (W0 m ρ c)
  have e3 : W1 m ρ c (Proc.devRef .tc main_cst_3) = _ := s0_cst3 (W0 m ρ c)
  have e13 : W2 m ρ c (Proc.devRef .tc main_v13)
      = normalisers (degrees (colWords (m ((c : Thread nD τ).loc main_arg1)))) := by
    refine (s01_v13 (W1 m ρ c)).trans ?_
    rw [e11, e12, e3]
    rfl
  exact (s02_v14 (W2 m ρ c)).trans (congrArg normCol e13)

/-! ### At the second region's entry: the first region's result aggregated, the maximum with zero -/

theorem W6_v32 : W6 m ρ c (Proc.devRef .tc main_v32)
    = relu50 (aggregate50 (W4 m ρ c (Proc.devRef .tc main_v15)) (W4 m ρ c (Proc.devRef .tc main_v1))
        (W4 m ρ c (Proc.devRef .tc main_v3)) (W4 m ρ c (Proc.devRef .tc main_v14)) (W4 m ρ c (Proc.devRef .tc main_arg5))) :=
  (s11_v32 (W5 m ρ c)).trans (congrArg relu50 (s1_v31 (W4 m ρ c)))

/-! ### At the return: the second region's result aggregated and the pairs scored -/

theorem W8_v70 : W8 m ρ c (Proc.devRef .tc main_v70)
    = decode (aggregate10 (W7 m ρ c (Proc.devRef .tc main_v33)) (W7 m ρ c (Proc.devRef .tc main_v1))
        (W7 m ρ c (Proc.devRef .tc main_v3)) (W7 m ρ c (Proc.devRef .tc main_v14)) (W7 m ρ c (Proc.devRef .tc main_arg7)))
        (W7 m ρ c (Proc.devRef .tc main_arg2)) (W7 m ρ c (Proc.devRef .tc main_arg3)) :=
  s2_v70 (W7 m ρ c)

end Cert.KernelIdeal.GcnStages

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«166101_j23072564314311_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«166101_j23072564314311_2_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.LibColumnBroadcast.lean ====
/-
  A column `[a, 1]` spread over `b` lanes by the kernel's broadcast, read at an entry: at `(p, c)` it is the column's
  entry `(p, 0)`. The companion of the library's row form (one row `[1, b]` spread down `a` rows).
-/
import Idealize.ShloMosaic.Lib.Pipeline.Value
import Idealize.ShloMosaic.Lib.ValueIdx

noncomputable section

namespace Cert.LibColumnBroadcast

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.RegionRows0.lean ====
/-
  What the first kernel region leaves in its output array at the exact-real values, whatever the buffer contents it
  finds on entry.

  The region walks ten grid points; point t works on rows [5000 t, 5000 t + 5000) of the row-blocked arrays. Its body
  multiplies the [5000, 512] block of the left array by the whole [512, 50] right array (into a zero accumulator; the
  roundings to the short float format are the identity on exact reals) and scales row p of the product by the one
  entry of the [5000, 1] column block in that row. So the output array ends holding, at (p, q), the sum over k of
  left (p, k) * right (k, q), times column (p, 0): row p of the output depends on row p of the left array, on the whole
  right array and on entry p of the column. The ten row blocks tile the 50000 rows, the block that covers row r being
  block r / 5000.
-/
import proofs.«166101_j23072564314311_2_alg».proof.Proof.Gen.KernelIdeal.Frame
import proofs.«166101_j23072564314311_2_alg».proof.Proof.LibPlainRecord
import proofs.«166101_j23072564314311_2_alg».proof.Proof.LibColumnBroadcast
import Idealize.ShloMosaic.Lib.Pipeline.Value
import Idealize.ShloMosaic.Lib.ValueIdx

noncomputable section

namespace Cert.KernelIdeal.GcnRegion

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as a constant function. -/
theorem zero_offsets : (![0, 0] : Fin 2 → Nat) = fun _ => 0 := funext fun a => by fin_cases a <;> rfl

/-! ## The body's arithmetic at an entry -/

/-- The dimension record of the first region's product says what a plain matrix product says. -/
theorem plain0 : LibMatRows.RowsTimesMat dot_S5000x512_S512x50_S5000x50_1_0_0_1_n_n :=
  LibPlainRecord.rowsTimesMat_of_lists _ rfl rfl rfl rfl rfl rfl

/-- Entry (p, q) of what the body computes from its three blocks: row p of the left block times column q of the right
    block, scaled by entry p of the column block. -/
theorem pay0_apply (x0 : Vec Ideal S5000x512 .f32) (x1 : Vec Ideal S512x50 .f32) (x2 : Vec Ideal S5000x1 .f32)
    (p : Fin 5000) (q : Fin 50) :
    k0_pay1 x0 x1 x2 (ix2 p q) = (∑ k : Fin 512, x0 (ix2 p k) * x1 (ix2 k q)) * x2 (ix2 p (0 : Fin 1)) := by
  unfold k0_pay1
  rw [mulf_apply, LibMatRows.matmul_rows plain0, LibColumnBroadcast.broadcastTo_a1_ab_apply, shapeCast_self]
  rfl

/-! ## The whole output array as one function of the three input arrays -/

/-- Entry (r, q) of the scaled product of a [50000, 512] array with a [512, 50] array: row r times column q, scaled by
    entry r of a [50000, 1] column. -/
def rows0 (a0 : S50000x512.Idx → EReal) (a4 : S512x50.Idx → EReal) (a14 : S50000x1.Idx → EReal) : S50000x50.Idx → EReal :=
  fun i => (∑ k : Fin 512, a0 (ix2 (i 0) k) * a4 (ix2 k (i 1))) * a14 (ix2 (i 0) (0 : Fin 1))

/-- The whole-array function at an entry. -/
theorem rows0_apply (a0 : S50000x512.Idx → EReal) (a4 : S512x50.Idx → EReal) (a14 : S50000x1.Idx → EReal)
    (r : Fin 50000) (q : Fin 50) :
    rows0 a0 a4 a14 (ix2 r q) = (∑ k : Fin 512, a0 (ix2 r k) * a4 (ix2 k q)) * a14 (ix2 r (0 : Fin 1)) := rfl

/-- The body's result at (p, q) from blocks that are rows r.. of the arrays is the whole-array function at (r, q). -/
theorem pay0_block (x0 : Vec Ideal S5000x512 .f32) (x1 : Vec Ideal S512x50 .f32) (x2 : Vec Ideal S5000x1 .f32)
    (a0 : S50000x512.Idx → EReal) (a4 : S512x50.Idx → EReal) (a14 : S50000x1.Idx → EReal)
    (p : Fin 5000) (q : Fin 50) (r : Fin 50000)
    (h0 : ∀ k : Fin 512, x0 (ix2 p k) = a0 (ix2 r k))
    (h1 : ∀ k : Fin 512, x1 (ix2 k q) = a4 (ix2 k q))
    (h2 : x2 (ix2 p (0 : Fin 1)) = a14 (ix2 r (0 : Fin 1))) :
    k0_pay1 x0 x1 x2 (ix2 p q) = rows0 a0 a4 a14 (ix2 r q) := by
  rw [pay0_apply, h2]
  show _ = (∑ k : Fin 512, a0 (ix2 r k) * a4 (ix2 k q)) * a14 (ix2 r (0 : Fin 1))
  congr 1
  exact Finset.sum_congr rfl fun k _ => by rw [h0 k, h1 k]

section
variable (V : (c : Dev nD) → (b : Ref sig .tc) → Buf (Elt Ideal) ((c : Thread nD τ).loc b))

/-! ## Where each window's block sits in its array -/

/-- The block indices at grid point t: the three row-blocked windows are at row block t, the right array's one block
    is the whole array. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the left block at point t is row 5000 t + p of the left array. -/
theorem blk0_0_apply (c : Dev nD) (t : Fin cfg0.N) (p : Fin 5000) (k : Fin 512) (r : Fin 50000)
    (hr : r.val = t.val * 5000 + p.val) :
    (iblk0 V c 0 t : Vec Ideal S5000x512 .f32) (ix2 p k) = (V c main_arg0 : S50000x512.Idx → EReal) (ix2 r k) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The right block at every point is the right array. -/
theorem blk0_1_apply (c : Dev nD) (t : Fin cfg0.N) (k : Fin 512) (q : Fin 50) :
    (iblk0 V c 1 t : Vec Ideal S512x50 .f32) (ix2 k q) = (V c main_arg4 : S512x50.Idx → EReal) (ix2 k q) := by
  obtain ⟨-, -, e2, e3, -⟩ := index_facts0 t
  unfold iblk0
  rw [View.read_apply]
  show V c main_arg4 _ = V c main_arg4 _
  congr 1
  funext a
  apply Fin.ext
  match a with
  | ⟨0, _⟩ => show win0_1.index t (0 : Fin 2) * 512 + 1 * k.val = k.val; rw [e2]; omega
  | ⟨1, _⟩ => show win0_1.index t (1 : Fin 2) * 50 + 1 * q.val = q.val; rw [e3]; omega

/-- Entry p of the column block at point t is entry 5000 t + p of the column. -/
theorem blk0_2_apply (c : Dev nD) (t : Fin cfg0.N) (p : Fin 5000) (r : Fin 50000)
    (hr : r.val = t.val * 5000 + p.val) :
    (iblk0 V c 2 t : Vec Ideal S5000x1 .f32) (ix2 p (0 : Fin 1)) = (V c main_v14 : S50000x1.Idx → EReal) (ix2 r (0 : Fin 1)) := by
  obtain ⟨-, -, -, -, e4, e5, -⟩ := index_facts0 t
  unfold iblk0
  rw [View.read_apply]
  show V c main_v14 _ = V c main_v14 _
  congr 1
  funext a
  apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-! ## What a grid point writes back, and the array after the last point -/

/-- Point t writes back rows [5000 t, 5000 t + 5000) of the whole-array function. -/
theorem flushed0 (c : Dev nD) (t : Fin cfg0.N) :
    (dat0 V c).flushed 3 t
      = ((cfg0.win 3).blk t).view.read (Elt Ideal) (rows0 (V c main_arg0) (V c main_arg4) (V c main_v14)) := by
  show (cfg0.win 3).cut (grid0.coords t) ((dat0 V c).after 3 t) = _
  rw [after0_3]
  unfold out0_3
  rw [View.canon_unit_zero zero_offsets]
  simp only [View.ld_unit_zero (S := S5000x512) zero_offsets, View.ld_unit_zero (S := S512x50) zero_offsets,
    View.ld_unit_zero (S := S5000x1) zero_offsets]
  obtain ⟨-, -, -, -, -, -, e6, e7⟩ := index_facts0 t
  funext j
  have hj0 : (j 0).val < 5000 := (j 0).isLt
  have hN : t.val < 10 := t.isLt.trans_eq N_0
  have hi : ((cfg0.win 3).blk t).view.emb j
      = ix2 (⟨t.val * 5000 + (j 0).val, by omega⟩ : Fin 50000) (j 1) := by
    funext a
    apply Fin.ext
    match a with
    | ⟨0, _⟩ => show win0_3.index t (0 : Fin 2) * 5000 + 1 * (j 0).val = t.val * 5000 + (j 0).val; rw [e6]; omega
    | ⟨1, _⟩ => show win0_3.index t (1 : Fin 2) * 50 + 1 * (j 1).val = (j 1).val; rw [e7]; omega
  show k0_pay1 (iblk0 V c 0 t) (iblk0 V c 1 t) (iblk0 V c 2 t) j
      = rows0 (V c main_arg0) (V c main_arg4) (V c main_v14) (((cfg0.win 3).blk t).view.emb j)
  rw [hi]
  refine (congrArg (k0_pay1 (iblk0 V c 0 t) (iblk0 V c 1 t) (iblk0 V c 2 t)) (eq_ix2 j)).trans ?_
  exact pay0_block (iblk0 V c 0 t) (iblk0 V c 1 t) (iblk0 V c 2 t) (V c main_arg0) (V c main_arg4) (V c main_v14)
    (j 0) (j 1) ⟨t.val * 5000 + (j 0).val, by omega⟩
    (fun k => blk0_0_apply V c t (j 0) k _ rfl) (fun k => blk0_1_apply V c t k (j 1)) (blk0_2_apply V c t (j 0) _ rfl)

/-- An index of the output array is in point t's block iff each coordinate is in the block's range on its axis. -/
theorem mem_blk0 (t : Fin cfg0.N) (i : S50000x50.Idx) :
    i ∈ ((cfg0.win 3).blk t).view.set ↔ ∀ a : Fin 2, win0_3.index t a * S5000x50.size a ≤ (i a).val
      ∧ (i a).val < win0_3.index t a * S5000x50.size a + S5000x50.size a := by
  show i ∈ ((View.whole main_v15).slice (win0_3.rect t)).set ↔ _
  rw [View.set_slice_whole, Rect.mem_set_unit]
  exact Iff.rfl

/-- Every row of the output array is in some point's block: row r in block r / 5000. -/
theorem cover0 (i : S50000x50.Idx) :
    ∃ t : Fin cfg0.N, (cfg0.win 3).flush t = true ∧ i ∈ ((cfg0.win 3).blk t).view.set := by
  have hi0 : (i 0).val < 50000 := (i 0).isLt
  have hi1 : (i 1).val < 50 := (i 1).isLt
  have ht : (i 0).val / 5000 < cfg0.N := by rw [show cfg0.N = 10 from N_0]; omega
  obtain ⟨-, -, -, -, -, -, e6, e7⟩ := index_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 50 ≤ (i 1).val
      ∧ (i 1).val < win0_3.index ⟨(i 0).val / 5000, ht⟩ (1 : Fin 2) * 50 + 50
    rw [e7]; omega

/-- After the region, its output array is the scaled product of the arrays found on entry. -/
theorem region0_array (c : Dev nD) :
    (dat0 (F := Ideal) V c).arrAt 3 cfg0.N = rows0 (V c main_arg0) (V c main_arg4) (V c main_v14) :=
  (dat0 V c).arrAt_eq_of_cover 3 (rows0 (V c main_arg0) (V c main_arg4) (V c main_v14))
    (fun t _ => flushed0 V c t) cover0

/-- The same, entry by entry, with the three arrays named by the caller. -/
theorem region0_rows_of (c : Dev nD) (a0 : S50000x512.Idx → EReal) (a4 : S512x50.Idx → EReal) (a14 : S50000x1.Idx → EReal)
    (h0 : V c main_arg0 = a0) (h4 : V c main_arg4 = a4) (h14 : V c main_v14 = a14) (p : Fin 50000) (q : Fin 50) :
    (dat0 (F := Ideal) V c).arrAt 3 cfg0.N (ix2 p q)
      = (∑ k : Fin 512, a0 (ix2 p k) * a4 (ix2 k q)) * a14 (ix2 p (0 : Fin 1)) := by
  rw [region0_array, h0, h4, h14]
  rfl

/-- The same, entry by entry, at the arrays found on entry. -/
theorem region0_rows (c : Dev nD) (p : Fin 50000) (q : Fin 50) :
    (dat0 (F := Ideal) V c).arrAt 3 cfg0.N (ix2 p q)
      = (∑ k : Fin 512, (show S50000x512.Idx → EReal from V c main_arg0) (ix2 p k)
            * (show S512x50.Idx → EReal from V c main_arg4) (ix2 k q))
        * (show S50000x1.Idx → EReal from V c main_v14) (ix2 p (0 : Fin 1)) :=
  region0_rows_of V c _ _ _ rfl rfl rfl p q

end

end Cert.KernelIdeal.GcnRegion

end
-- ==== Proof.RegionRows1.lean ====
/-
  What the second kernel region leaves in its output array at the exact-real values, whatever the buffer contents it
  finds on entry.

  The region has the first region's shape with narrower arrays: ten grid points, point t on rows
  [5000 t, 5000 t + 5000). Its body multiplies the [5000, 50] block of the left array by the whole [50, 10] right array
  (into a zero accumulator; a reshape of the block to its own shape and the roundings to the short float format are the
  identity on exact reals) and scales row p of the product by the one entry of the [5000, 1] column block in that row.
  So the output array ends holding, at (p, q), the sum over k of left (p, k) * right (k, q), times column (p, 0). The
  ten row blocks tile the 50000 rows, the block that covers row r being block r / 5000.
-/
import proofs.«166101_j23072564314311_2_alg».proof.Proof.Gen.KernelIdeal.Frame
import proofs.«166101_j23072564314311_2_alg».proof.Proof.LibPlainRecord
import proofs.«166101_j23072564314311_2_alg».proof.Proof.LibColumnBroadcast
import Idealize.ShloMosaic.Lib.Pipeline.Value
import Idealize.ShloMosaic.Lib.ValueIdx

noncomputable section

namespace Cert.KernelIdeal.GcnRegion

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as a constant function. -/
theorem zero_offsets1 : (![0, 0] : Fin 2 → Nat) = fun _ => 0 := funext fun a => by fin_cases a <;> rfl

/-! ## The body's arithmetic at an entry -/

/-- The dimension record of the second region's product says what a plain matrix product says. -/
theorem plain1 : LibMatRows.RowsTimesMat dot_S5000x50_S50x10_S5000x10_1_0_0_1_n_n :=
  LibPlainRecord.rowsTimesMat_of_lists _ rfl rfl rfl rfl rfl rfl

/-- Entry (p, q) of what the body computes from its three blocks: row p of the left block times column q of the right
    block, scaled by entry p of the column block. -/
theorem pay1_apply (x0 : Vec Ideal S5000x50 .f32) (x1 : Vec Ideal S50x10 .f32) (x2 : Vec Ideal S5000x1 .f32)
    (p : Fin 5000) (q : Fin 10) :
    k1_pay1 x0 x1 x2 (ix2 p q) = (∑ k : Fin 50, x0 (ix2 p k) * x1 (ix2 k q)) * x2 (ix2 p (0 : Fin 1)) := by
  unfold k1_pay1
  rw [mulf_apply, LibMatRows.matmul_rows plain1, LibColumnBroadcast.broadcastTo_a1_ab_apply, shapeCast_self, shapeCast_self]
  rfl

/-! ## The whole output array as one function of the three input arrays -/

/-- Entry (r, q) of the scaled product of a [50000, 50] array with a [50, 10] array: row r times column q, scaled by
    entry r of a [50000, 1] column. -/
def rows1 (a32 : S50000x50.Idx → EReal) (a6 : S50x10.Idx → EReal) (a14 : S50000x1.Idx → EReal) : S50000x10.Idx → EReal :=
  fun i => (∑ k : Fin 50, a32 (ix2 (i 0) k) * a6 (ix2 k (i 1))) * a14 (ix2 (i 0) (0 : Fin 1))

/-- The whole-array function at an entry. -/
theorem rows1_apply (a32 : S50000x50.Idx → EReal) (a6 : S50x10.Idx → EReal) (a14 : S50000x1.Idx → EReal)
    (r : Fin 50000) (q : Fin 10) :
    rows1 a32 a6 a14 (ix2 r q) = (∑ k : Fin 50, a32 (ix2 r k) * a6 (ix2 k q)) * a14 (ix2 r (0 : Fin 1)) := rfl

/-- The body's result at (p, q) from blocks that are rows r.. of the arrays is the whole-array function at (r, q). -/
theorem pay1_block (x0 : Vec Ideal S5000x50 .f32) (x1 : Vec Ideal S50x10 .f32) (x2 : Vec Ideal S5000x1 .f32)
    (a32 : S50000x50.Idx → EReal) (a6 : S50x10.Idx → EReal) (a14 : S50000x1.Idx → EReal)
    (p : Fin 5000) (q : Fin 10) (r : Fin 50000)
    (h0 : ∀ k : Fin 50, x0 (ix2 p k) = a32 (ix2 r k))
    (h1 : ∀ k : Fin 50, x1 (ix2 k q) = a6 (ix2 k q))
    (h2 : x2 (ix2 p (0 : Fin 1)) = a14 (ix2 r (0 : Fin 1))) :
    k1_pay1 x0 x1 x2 (ix2 p q) = rows1 a32 a6 a14 (ix2 r q) := by
  rw [pay1_apply, h2]
  show _ = (∑ k : Fin 50, a32 (ix2 r k) * a6 (ix2 k q)) * a14 (ix2 r (0 : Fin 1))
  congr 1
  exact Finset.sum_congr rfl fun k _ => by rw [h0 k, h1 k]

section
variable (V : (c : Dev nD) → (b : Ref sig .tc) → Buf (Elt Ideal) ((c : Thread nD τ).loc b))

/-! ## Where each window's block sits in its array -/

/-- The block indices at grid point t: the three row-blocked windows are at row block t, the right array's one block
    is the whole array. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of the left block at point t is row 5000 t + p of the left array. -/
theorem blk1_0_apply (c : Dev nD) (t : Fin cfg1.N) (p : Fin 5000) (k : Fin 50) (r : Fin 50000)
    (hr : r.val = t.val * 5000 + p.val) :
    (iblk1 V c 0 t : Vec Ideal S5000x50 .f32) (ix2 p k) = (V c main_v32 : S50000x50.Idx → EReal) (ix2 r k) := by
  obtain ⟨e0, e1, -⟩ := index_facts1 t
  unfold iblk1
  rw [View.read_apply]
  show V c main_v32 _ = V c main_v32 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 50 + 1 * k.val = k.val; rw [e1]; omega

/-- The right block at every point is the right array. -/
theorem blk1_1_apply (c : Dev nD) (t : Fin cfg1.N) (k : Fin 50) (q : Fin 10) :
    (iblk1 V c 1 t : Vec Ideal S50x10 .f32) (ix2 k q) = (V c main_arg6 : S50x10.Idx → EReal) (ix2 k q) := by
  obtain ⟨-, -, e2, e3, -⟩ := index_facts1 t
  unfold iblk1
  rw [View.read_apply]
  show V c main_arg6 _ = V c main_arg6 _
  congr 1
  funext a
  apply Fin.ext
  match a with
  | ⟨0, _⟩ => show win1_1.index t (0 : Fin 2) * 50 + 1 * k.val = k.val; rw [e2]; omega
  | ⟨1, _⟩ => show win1_1.index t (1 : Fin 2) * 10 + 1 * q.val = q.val; rw [e3]; omega

/-- Entry p of the column block at point t is entry 5000 t + p of the column. -/
theorem blk1_2_apply (c : Dev nD) (t : Fin cfg1.N) (p : Fin 5000) (r : Fin 50000)
    (hr : r.val = t.val * 5000 + p.val) :
    (iblk1 V c 2 t : Vec Ideal S5000x1 .f32) (ix2 p (0 : Fin 1)) = (V c main_v14 : S50000x1.Idx → EReal) (ix2 r (0 : Fin 1)) := by
  obtain ⟨-, -, -, -, e4, e5, -⟩ := index_facts1 t
  unfold iblk1
  rw [View.read_apply]
  show V c main_v14 _ = V c main_v14 _
  congr 1
  funext a
  apply Fin.ext
  match a with
  | ⟨0, _⟩ => show win1_2.index t (0 : Fin 2) * 5000 + 1 * p.val = r.val; rw [e4, hr]; omega
  | ⟨1, _⟩ => show win1_2.index t (1 : Fin 2) * 1 + 1 * 0 = 0; rw [e5]

/-! ## What a grid point writes back, and the array after the last point -/

/-- Point t writes back rows [5000 t, 5000 t + 5000) of the whole-array function. -/
theorem flushed1 (c : Dev nD) (t : Fin cfg1.N) :
    (dat1 V c).flushed 3 t
      = ((cfg1.win 3).blk t).view.read (Elt Ideal) (rows1 (V c main_v32) (V c main_arg6) (V c main_v14)) := by
  show (cfg1.win 3).cut (grid1.coords t) ((dat1 V c).after 3 t) = _
  rw [after1_3]
  unfold out1_3
  rw [View.canon_unit_zero zero_offsets1]
  simp only [View.ld_unit_zero (S := S5000x50) zero_offsets1, View.ld_unit_zero (S := S50x10) zero_offsets1,
    View.ld_unit_zero (S := S5000x1) zero_offsets1]
  obtain ⟨-, -, -, -, -, -, e6, e7⟩ := index_facts1 t
  funext j
  have hj0 : (j 0).val < 5000 := (j 0).isLt
  have hN : t.val < 10 := t.isLt.trans_eq N_1
  have hi : ((cfg1.win 3).blk t).view.emb j
      = ix2 (⟨t.val * 5000 + (j 0).val, by omega⟩ : Fin 50000) (j 1) := by
    funext a
    apply Fin.ext
    match a with
    | ⟨0, _⟩ => show win1_3.index t (0 : Fin 2) * 5000 + 1 * (j 0).val = t.val * 5000 + (j 0).val; rw [e6]; omega
    | ⟨1, _⟩ => show win1_3.index t (1 : Fin 2) * 10 + 1 * (j 1).val = (j 1).val; rw [e7]; omega
  show k1_pay1 (iblk1 V c 0 t) (iblk1 V c 1 t) (iblk1 V c 2 t) j
      = rows1 (V c main_v32) (V c main_arg6) (V c main_v14) (((cfg1.win 3).blk t).view.emb j)
  rw [hi]
  refine (congrArg (k1_pay1 (iblk1 V c 0 t) (iblk1 V c 1 t) (iblk1 V c 2 t)) (eq_ix2 j)).trans ?_
  exact pay1_block (iblk1 V c 0 t) (iblk1 V c 1 t) (iblk1 V c 2 t) (V c main_v32) (V c main_arg6) (V c main_v14)
    (j 0) (j 1) ⟨t.val * 5000 + (j 0).val, by omega⟩
    (fun k => blk1_0_apply V c t (j 0) k _ rfl) (fun k => blk1_1_apply V c t k (j 1)) (blk1_2_apply V c t (j 0) _ rfl)

/-- An index of the output array is in point t's block iff each coordinate is in the block's range on its axis. -/
theorem mem_blk1 (t : Fin cfg1.N) (i : S50000x10.Idx) :
    i ∈ ((cfg1.win 3).blk t).view.set ↔ ∀ a : Fin 2, win1_3.index t a * S5000x10.size a ≤ (i a).val
      ∧ (i a).val < win1_3.index t a * S5000x10.size a + S5000x10.size a := by
  show i ∈ ((View.whole main_v33).slice (win1_3.rect t)).set ↔ _
  rw [View.set_slice_whole, Rect.mem_set_unit]
  exact Iff.rfl

/-- Every row of the output array is in some point's block: row r in block r / 5000. -/
theorem cover1 (i : S50000x10.Idx) :
    ∃ t : Fin cfg1.N, (cfg1.win 3).flush t = true ∧ i ∈ ((cfg1.win 3).blk t).view.set := by
  have hi0 : (i 0).val < 50000 := (i 0).isLt
  have hi1 : (i 1).val < 10 := (i 1).isLt
  have ht : (i 0).val / 5000 < cfg1.N := by rw [show cfg1.N = 10 from N_1]; omega
  obtain ⟨-, -, -, -, -, -, e6, e7⟩ := index_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 10 ≤ (i 1).val
      ∧ (i 1).val < win1_3.index ⟨(i 0).val / 5000, ht⟩ (1 : Fin 2) * 10 + 10
    rw [e7]; omega

/-- After the region, its output array is the scaled product of the arrays found on entry. -/
theorem region1_array (c : Dev nD) :
    (dat1 (F := Ideal) V c).arrAt 3 cfg1.N = rows1 (V c main_v32) (V c main_arg6) (V c main_v14) :=
  (dat1 V c).arrAt_eq_of_cover 3 (rows1 (V c main_v32) (V c main_arg6) (V c main_v14))
    (fun t _ => flushed1 V c t) cover1

/-- The same, entry by entry, with the three arrays named by the caller. -/
theorem region1_rows_of (c : Dev nD) (a32 : S50000x50.Idx → EReal) (a6 : S50x10.Idx → EReal) (a14 : S50000x1.Idx → EReal)
    (h32 : V c main_v32 = a32) (h6 : V c main_arg6 = a6) (h14 : V c main_v14 = a14) (p : Fin 50000) (q : Fin 10) :
    (dat1 (F := Ideal) V c).arrAt 3 cfg1.N (ix2 p q)
      = (∑ k : Fin 50, a32 (ix2 p k) * a6 (ix2 k q)) * a14 (ix2 p (0 : Fin 1)) := by
  rw [region1_array, h32, h6, h14]
  rfl

/-- The same, entry by entry, at the arrays found on entry. -/
theorem region1_rows (c : Dev nD) (p : Fin 50000) (q : Fin 10) :
    (dat1 (F := Ideal) V c).arrAt 3 cfg1.N (ix2 p q)
      = (∑ k : Fin 50, (show S50000x50.Idx → EReal from V c main_v32) (ix2 p k)
            * (show S50x10.Idx → EReal from V c main_arg6) (ix2 k q))
        * (show S50000x1.Idx → EReal from V c main_v14) (ix2 p (0 : Fin 1)) :=
  region1_rows_of V c _ _ _ rfl rfl rfl p q

end

end Cert.KernelIdeal.GcnRegion

end
-- ==== Proof.RegionRows.lean ====
/-
  What each of the two kernel regions leaves in its output array at the exact-real values: the scaled matrix product of
  the arrays the region finds on entry (first region: [50000, 512] by [512, 50]; second region: [50000, 50] by [50, 10];
  both scaled row by row by the same [50000, 1] column).
-/
import proofs.«166101_j23072564314311_2_alg».proof.Proof.RegionRows0
import proofs.«166101_j23072564314311_2_alg».proof.Proof.RegionRows1
-- ==== Proof.LibGcnAlgebra.lean ====
/-
  The extended-real algebra of a degree-normalised graph convolution.

  A degree is a count of edges plus one, hence a real number at least one; its reciprocal square root is
  a positive real; guards against a vanishing degree are inert. Over real-valued features, weights and
  normalisers the aggregation of projected rows equals the projection of aggregated rows: the extended
  reals do not distribute at infinities, so the identity is proved over the reals and carried across
  the coercion.
-/
import Idealize.ShloMosaic.PureOps.Ideal
import Idealize.ShloMosaic.PureOps.Ideal.Laws
import Idealize.ShloMosaic.Lib.ValueIdx

noncomputable section

open scoped BigOperators

namespace Cert.GcnAlgebra

open Idealize.ShloMosaic

/-- The coercion of the reals into the extended reals carries a finite sum to the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A sum of ones over a finite set is the set's cardinality, a real number. -/
theorem count_real {E : Type} (s : Finset E) : (∑ _e ∈ s, (1 : EReal)) = ((s.card : ℝ) : EReal) := by
  rw [← EReal.coe_one, ← coe_sum]
  simp

/-- One plus a count is at least one. -/
theorem one_le_count {E : Type} (s : Finset E) : (1 : EReal) ≤ (0 + (∑ _e ∈ s, (1 : EReal))) + 1 := by
  have hc : (0 : ℝ) ≤ (s.card : ℝ) := Nat.cast_nonneg _
  rw [count_real, zero_add, ← EReal.coe_one, ← EReal.coe_add, EReal.coe_le_coe_iff]
  linarith

/-- One plus a count is at least one, with the sum bracketed the other way. -/
theorem one_le_count' {E : Type} (s : Finset E) : (1 : EReal) ≤ 0 + ((∑ _e ∈ s, (1 : EReal)) + 1) := by
  rw [← add_assoc]
  exact one_le_count s

/-- The reciprocal square root of one plus a count is a positive real number. -/
theorem rsqrt_count {E : Type} (s : Finset E) :
    ∃ a : ℝ, 0 < a ∧ Ideal.rsqrt ((0 + ∑ _e ∈ s, (1 : EReal)) + 1) = (a : EReal) := by
  have hc : (0 : ℝ) ≤ (s.card : ℝ) := Nat.cast_nonneg _
  have hpos : (0 : ℝ) < (s.card : ℝ) + 1 := by linarith
  refine ⟨(Real.sqrt ((s.card : ℝ) + 1))⁻¹, inv_pos.2 (Real.sqrt_pos.2 hpos), ?_⟩
  rw [count_real, zero_add, ← EReal.coe_one, ← EReal.coe_add, Ideal.rsqrt_coe,
    if_neg (not_lt.2 hpos.le), if_neg hpos.ne']

/-- A maximum with something at most one leaves a value at least one unchanged. -/
theorem guard_max (d tiny : EReal) (hd : 1 ≤ d) (ht : tiny ≤ 1) : max d tiny = d :=
  max_eq_left (ht.trans hd)

/-- A value at least one is positive. -/
theorem guard_pos (d : EReal) (hd : 1 ≤ d) : (0 : EReal) < d :=
  lt_of_lt_of_le zero_lt_one hd

/-- Both guards of a reciprocal square root of a degree at least one are inert: the maximum with a tiny
    constant is the degree itself, and the degree is positive. -/
theorem guard_rsqrt (d tiny : EReal) (hd : 1 ≤ d) (ht : tiny ≤ 1) : max d tiny = d ∧ (0 : EReal) < d :=
  ⟨guard_max d tiny hd ht, guard_pos d hd⟩

/-- PROJECTION AND AGGREGATION COMMUTE. For real features `x`, weights `W` and normalisers `dis`, and a set `s`
    of edges all of whose targets `cg e` are the node `c`: normalising the aggregated row of `c` (the sum over
    the edges of the source rows scaled by the source's normaliser, plus the node's own scaled row), then
    projecting by `W`, equals aggregating the projected rows, each scaled by the product of the two endpoint
    normalisers, plus the node's own projected row scaled by its normaliser squared. A bias `b j`, an arbitrary
    extended real, is added on both sides. -/
theorem project_aggregate {E N K J : Type} [Fintype K]
    (x : N → K → ℝ) (W : K → J → ℝ) (dis : N → ℝ) (b : J → EReal) (r cg : E → N) (s : Finset E) (c : N)
    (h : ∀ e ∈ s, cg e = c) (j : J) :
    (∑ k, ((dis c : EReal) * ((∑ e ∈ s, (x (r e) k : EReal) * (dis (r e) : EReal))
        + (x c k : EReal) * (dis c : EReal))) * (W k j : EReal)) + b j
      = ((∑ e ∈ s, (∑ k, (x (r e) k : EReal) * (W k j : EReal)) * ((dis (r e) : EReal) * (dis (cg e) : EReal)))
        + (∑ k, (x c k : EReal) * (W k j : EReal)) * ((dis c : EReal) * (dis c : EReal))) + b j := by
  have hreal : (∑ k, (dis c * ((∑ e ∈ s, x (r e) k * dis (r e)) + x c k * dis c)) * W k j)
      = (∑ e ∈ s, (∑ k, x (r e) k * W k j) * (dis (r e) * dis (cg e)))
        + (∑ k, x c k * W k j) * (dis c * dis c) := by
    have h1 : (∑ e ∈ s, (∑ k, x (r e) k * W k j) * (dis (r e) * dis (cg e)))
        = ∑ e ∈ s, (∑ k, x (r e) k * W k j) * (dis (r e) * dis c) :=
      Finset.sum_congr rfl fun e he => by rw [h e he]
    have hk : ∀ k, (dis c * ((∑ e ∈ s, x (r e) k * dis (r e)) + x c k * dis c)) * W k j
        = (∑ e ∈ s, x (r e) k * W k j * (dis (r e) * dis c)) + x c k * W k j * (dis c * dis c) := by
      intro k
      rw [mul_add, add_mul, Finset.mul_sum, Finset.sum_mul]
      congr 1
      · exact Finset.sum_congr rfl fun e _ => by ring
      · ring
    rw [h1, Finset.sum_congr rfl (fun k _ => hk k), Finset.sum_add_distrib, Finset.sum_comm]
    simp only [Finset.sum_mul]
  simp only [← EReal.coe_mul, ← EReal.coe_add, ← coe_sum]
  rw [hreal]

end Cert.GcnAlgebra

end
-- ==== Proof.LibCausalMask.lean ====
/-
  A causal mask on 32-bit position words.

  jnp builds the mask "position >= shift" by comparing two iotas, as signed 32-bit words. A natural below 2^31 read
  as a signed word is itself, so the comparison of two such words is the comparison of the naturals, and a `where` on
  that mask is an `if` on the naturals.
-/
import Idealize.ShloMosaic.Lib.Affine
import Idealize.ShloMosaic.Lib.IdealHost
import Idealize.ShloMosaic.Lib.ValueIdx

noncomputable section

namespace Cert.LibCausalMask

open Idealize.ShloMosaic

/-- A natural below 2^31, as a 32-bit word read signed, is itself. -/
theorem toInt_ofNat_small (n : ℕ) (h : n < 2 ^ 31) : (BitVec.ofNat 32 n).toInt = (n : ℤ) := by
  rw [BitVec.toInt_eq_toNat_of_lt (by rw [BitVec.toNat_ofNat]; omega), BitVec.toNat_ofNat]
  omega

/-- A one-bit word that is not one is zero. -/
theorem bit_ne_one : ∀ b : BitVec 1, b ≠ 1#1 → b = 0#1 := by decide

/-- Signed `a >= b` on the words of two naturals below 2^31 is `b <= a` on the naturals. -/
theorem cmpi_sge_small (a b : ℕ) (ha : a < 2 ^ 31) (hb : b < 2 ^ 31) :
    IntOp.cmpi .sge (BitVec.ofNat 32 a) (BitVec.ofNat 32 b) = if b ≤ a then 1#1 else 0#1 := by
  split
  · rename_i h
    rw [IntOp.cmpi_sge, toInt_ofNat_small a ha, toInt_ofNat_small b hb]; exact_mod_cast h
  · rename_i h
    apply bit_ne_one
    rw [Ne, IntOp.cmpi_sge, toInt_ofNat_small a ha, toInt_ofNat_small b hb]
    exact_mod_cast h

/-- Signed `a < b` on the words of two naturals below 2^31 is `a < b` on the naturals. -/
theorem cmpi_slt_small (a b : ℕ) (ha : a < 2 ^ 31) (hb : b < 2 ^ 31) :
    IntOp.cmpi .slt (BitVec.ofNat 32 a) (BitVec.ofNat 32 b) = if a < b then 1#1 else 0#1 := by
  split
  · rename_i h
    rw [IntOp.cmpi_slt, toInt_ofNat_small a ha, toInt_ofNat_small b hb]; exact_mod_cast h
  · rename_i h
    apply bit_ne_one
    rw [Ne, IntOp.cmpi_slt, toInt_ofNat_small a ha, toInt_ofNat_small b hb]
    exact_mod_cast h

/-- A `where` on a mask bit that is an `if` of a decidable fact is the `if` of the two values. -/
theorem select_ite {α : Type} (p : Prop) [Decidable p] (x y : α) :
    Scalar.select (if p then 1#1 else 0#1) x y = if p then x else y := by
  unfold Scalar.select
  split <;> simp

end Cert.LibCausalMask

end
-- ==== Proof.GcnSpec.lean ====
/-
  A two-layer graph convolution with symmetric degree normalisation, as one function of its inputs.

  Every node has a degree: one (its self loop) plus the number of edges whose target word, read as a signed
  integer, is the node. A node's normaliser is the reciprocal square root of its degree. A layer sends a table
  `xw` of projected rows to, at node `j`,
      normaliser j * ( sum over the edges into j of xw (source) * normaliser (source)  +  xw j * normaliser j ) + bias,
  the source of an edge being its source word wrapped (a negative word is moved up by the number of nodes), read
  signed and clamped into the node range. The same layer can be written over the edge list JOINED with one
  self-loop edge per node, every edge carrying the product of its two endpoints' normalisers:
      sum over the joined edges into j of xw (source) * (normaliser (source) * normaliser (target)) + bias.
  The two agree because the self-loop edge of j is the only joined loop edge into j, an edge into j has target j,
  and a normaliser is a non-negative real number, which distributes over sums of extended reals.
-/
import Idealize.ShloMosaic.PureOps.Ideal
import Idealize.ShloMosaic.PureOps.Ideal.Laws
import Idealize.ShloMosaic.Lib.ValueIdx
import proofs.«166101_j23072564314311_2_alg».proof.Proof.LibGcnAlgebra
import proofs.«166101_j23072564314311_2_alg».proof.Proof.LibCausalMask

noncomputable section

open scoped BigOperators

namespace Cert.GcnSpec

open Idealize.ShloMosaic

/-! ## Index words -/

/-- An index word for an axis of 50000 entries, wrapped: a word that reads negative is moved up by 50000. -/
def wrapWord (w : BitVec 32) : BitVec 32 := Scalar.select (IntOp.cmpi .slt w 0#32) (IntOp.addi w 50000#32) w

/-- The node a gather reads for an index word: the wrapped word read signed and clamped into the node range. -/
def node (w : BitVec 32) : Fin 50000 := ⟨min (wrapWord w).toInt.toNat (50000 - 1), by omega⟩

/-- A word that reads signed as the node `j` is not wrapped and is read as `j`. -/
theorem node_of_toInt (w : BitVec 32) (j : Fin 50000) (h : w.toInt = (j.val : Int)) : node w = j := by
  have hbit : IntOp.cmpi .slt w 0#32 = 0#1 := by
    apply Cert.LibCausalMask.bit_ne_one
    rw [Ne, IntOp.cmpi_slt, h]
    simp
  have hw : wrapWord w = w := by
    unfold wrapWord
    rw [hbit]
    exact ValueIdx.select_zero _ _
  apply Fin.ext
  show min (wrapWord w).toInt.toNat (50000 - 1) = j.val
  rw [hw, h]
  have := j.isLt
  omega

/-- The word of a node's own number is read as that node. -/
theorem node_ofNat (i : Fin 50000) : node (BitVec.ofNat 32 i.val) = i :=
  node_of_toInt _ i (Cert.LibCausalMask.toInt_ofNat_small i.val (by have := i.isLt; omega))

/-! ## Degrees and normalisers -/

variable {E : Nat}

/-- The edges into node `j`: those whose target word, read signed, is `j`. -/
def into (col : Fin E → BitVec 32) (j : Fin 50000) : Finset (Fin E) :=
  Finset.univ.filter (fun e => (col e).toInt = (j.val : Int))

/-- The degree of node `j`: the number of edges into it, plus one for its self loop. -/
def degree (col : Fin E → BitVec 32) (j : Fin 50000) : EReal := (0 + ∑ _e ∈ into col j, (1 : EReal)) + 1

/-- The guarded reciprocal square root both programs apply to a degree: zero where the degree is not positive. -/
def guarded (d : EReal) : EReal :=
  Scalar.select (FloatOps.cmpf (F := Ideal) .ogt d (Ideal.ofBits .f32 0x00000000#32)) (Ideal.rsqrt d)
    (Ideal.ofBits .f32 0x00000000#32)

/-- A node's normaliser. -/
def norm (col : Fin E → BitVec 32) (j : Fin 50000) : EReal := guarded (degree col j)

/-- A normaliser is a non-negative real number: either the reciprocal square root of a real at least one, or zero. -/
theorem norm_real (col : Fin E → BitVec 32) (j : Fin 50000) : ∃ a : ℝ, 0 ≤ a ∧ norm col j = (a : EReal) := by
  obtain ⟨a, ha, hr⟩ := Cert.GcnAlgebra.rsqrt_count (into col j)
  unfold norm guarded degree Scalar.select
  split
  · exact ⟨a, ha.le, hr⟩
  · exact ⟨0, le_rfl, by rw [Ideal.ofBits_zero_f32, EReal.coe_zero]⟩

/-! ## The joined edge list -/

/-- A sum over the joined edges into `j` is the sum over the given edges into `j` plus the term of `j`'s self-loop
    edge: of the loop edges, whose target words are the nodes' own numbers, exactly `j`'s goes into `j`. -/
theorem sum_into_joined {M : Type} [AddCommMonoid M] (col : Fin E → BitVec 32) (ccol : Fin (E + 50000) → BitVec 32)
    (hc0 : ∀ e : Fin E, ccol (Fin.castAdd 50000 e) = col e)
    (hc1 : ∀ i : Fin 50000, ccol (Fin.natAdd E i) = BitVec.ofNat 32 i.val)
    (j : Fin 50000) (f : Fin (E + 50000) → M) :
    ∑ e ∈ into ccol j, f e = (∑ e ∈ into col j, f (Fin.castAdd 50000 e)) + f (Fin.natAdd E j) := by
  unfold into
  rw [Finset.sum_filter, Fin.sum_univ_add, Finset.sum_filter]
  refine congrArg₂ (· + ·) ?_ ?_
  · exact Finset.sum_congr rfl fun e _ => by rw [hc0]
  · have hiff : ∀ i : Fin 50000, ((ccol (Fin.natAdd E i)).toInt = (j.val : Int)) ↔ i = j := by
      intro i
      rw [hc1, Cert.LibCausalMask.toInt_ofNat_small i.val (by have := i.isLt; omega)]
      constructor
      · intro h; exact Fin.ext (by exact_mod_cast h)
      · intro h; rw [h]
    simp only [hiff]
    rw [Finset.sum_ite_eq' Finset.univ j]
    simp

/-- The degree counted over the joined edge list (no separate self-loop term) is the degree. -/
theorem degree_joined (col : Fin E → BitVec 32) (ccol : Fin (E + 50000) → BitVec 32)
    (hc0 : ∀ e : Fin E, ccol (Fin.castAdd 50000 e) = col e)
    (hc1 : ∀ i : Fin 50000, ccol (Fin.natAdd E i) = BitVec.ofNat 32 i.val) (j : Fin 50000) :
    (0 + ∑ _e ∈ into ccol j, (1 : EReal)) = degree col j := by
  rw [sum_into_joined col ccol hc0 hc1 j (fun _ => (1 : EReal))]
  unfold degree
  rw [add_assoc]

/-! ## A layer, in both arrangements -/

/-- A non-negative real factor moves inside a finite sum of extended reals. -/
theorem real_mul_sum {ι : Type} (a : ℝ) (ha : 0 ≤ a) (s : Finset ι) (f : ι → EReal) :
    (a : EReal) * ∑ i ∈ s, f i = ∑ i ∈ s, (a : EReal) * f i := by
  classical
  refine Finset.induction_on s (by simp) ?_
  intro i t hi ih
  rw [Finset.sum_insert hi, Finset.sum_insert hi,
    EReal.left_distrib_of_nonneg_of_ne_top (EReal.coe_nonneg.2 ha) (EReal.coe_ne_top a), ih]

/-- A layer at node `j`, feature `q`, in the node-space arrangement: the aggregate of the source rows, each scaled by
    its source's normaliser, plus the node's own scaled row, all scaled by the node's normaliser, plus the bias. -/
def layer {C : Nat} (row col : Fin E → BitVec 32) (dn : Fin 50000 → EReal) (xw : Fin 50000 → Fin C → EReal)
    (b : Fin C → EReal) (j : Fin 50000) (q : Fin C) : EReal :=
  dn j * ((0 + ∑ e ∈ into col j, xw (node (row e)) q * dn (node (row e))) + xw j q * dn j) + b q

/-- THE TWO ARRANGEMENTS AGREE. Over the joined edge list, each edge weighted by the product of its endpoints'
    normalisers, the aggregate into `j` plus the bias is the node-space layer, whenever every normaliser is a
    non-negative real. -/
theorem joined_layer {C : Nat} (row col : Fin E → BitVec 32) (crow ccol : Fin (E + 50000) → BitVec 32)
    (hr0 : ∀ e : Fin E, crow (Fin.castAdd 50000 e) = row e)
    (hr1 : ∀ i : Fin 50000, crow (Fin.natAdd E i) = BitVec.ofNat 32 i.val)
    (hc0 : ∀ e : Fin E, ccol (Fin.castAdd 50000 e) = col e)
    (hc1 : ∀ i : Fin 50000, ccol (Fin.natAdd E i) = BitVec.ofNat 32 i.val)
    (dn : Fin 50000 → EReal) (hdn : ∀ p, ∃ a : ℝ, 0 ≤ a ∧ dn p = (a : EReal))
    (xw : Fin 50000 → Fin C → EReal) (b : Fin C → EReal) (j : Fin 50000) (q : Fin C) :
    (0 + ∑ e ∈ into ccol j, xw (node (crow e)) q * (dn (node (crow e)) * dn (node (ccol e)))) + b q
      = layer row col dn xw b j q := by
  obtain ⟨a, ha, hda⟩ := hdn j
  rw [sum_into_joined col ccol hc0 hc1 j]
  unfold layer
  congr 1
  simp only [hr0, hc0, hr1, hc1, node_ofNat]
  have hin : ∑ e ∈ into col j, xw (node (row e)) q * (dn (node (row e)) * dn (node (col e)))
      = ∑ e ∈ into col j, (a : EReal) * (xw (node (row e)) q * dn (node (row e))) := by
    refine Finset.sum_congr rfl fun e he => ?_
    have hj : node (col e) = j := node_of_toInt _ j (Finset.mem_filter.1 he).2
    rw [hj, hda, ← mul_assoc, mul_comm]
  rw [hin, hda, zero_add, zero_add,
    EReal.left_distrib_of_nonneg_of_ne_top (EReal.coe_nonneg.2 ha) (EReal.coe_ne_top a),
    real_mul_sum a ha]
  congr 1
  rw [← mul_assoc, mul_comm (a : EReal)]

/-! ## The network -/

/-- The hidden layer: the first graph convolution of the features `x` projected by `w1`, then the positive part. -/
def hidden (x : Fin 50000 → Fin 512 → EReal) (w1 : Fin 512 → Fin 50 → EReal) (b1 : Fin 50 → EReal)
    (row col : Fin E → BitVec 32) (p : Fin 50000) (k : Fin 50) : EReal :=
  max (layer row col (norm col) (fun p q => ∑ t : Fin 512, x p t * w1 t q) b1 p k) (Ideal.ofBits .f32 0x00000000#32)

/-- The embedding: the second graph convolution, of the hidden layer projected by `w2`. -/
def embedding (x : Fin 50000 → Fin 512 → EReal) (w1 : Fin 512 → Fin 50 → EReal) (b1 : Fin 50 → EReal)
    (w2 : Fin 50 → Fin 10 → EReal) (b2 : Fin 10 → EReal) (row col : Fin E → BitVec 32)
    (j : Fin 50000) (q : Fin 10) : EReal :=
  layer row col (norm col) (fun p q => ∑ k : Fin 50, hidden x w1 b1 row col p k * w2 k q) b2 j q

end Cert.GcnSpec

end
-- ==== Proof.LibScatterGather.lean ====
/-
  A scatter-add and a gather along the leading axis, read at one element.

  The accumulating scatter with one scatter index per update row (inserted window axis 0, the
  start index read signed and not clamped) adds to operand row `c` exactly the update rows whose
  index word, read as a signed integer, is `c`; the gather with one start index per result row
  (collapsed slice axis 0, the start index read signed and clamped into `[0, N - 1]`) reads the
  operand row at that clamped index. Both for a flat operand `[N]` and for a matrix operand
  `[N, C]` whose second axis is carried along unchanged.
-/
import Idealize.ShloMosaic.PureOps.Ideal
import Idealize.ShloMosaic.PureOps.Ideal.Laws
import Idealize.ShloMosaic.Lib.ValueIdx

noncomputable section

open scoped BigOperators

namespace Cert.ScatterGather

open Idealize.ShloMosaic Idealize.ShloMosaic.ValueIdx

/-- A scatter-add into a flat array `[N]` with one index per update: element `c` of the result is the
    operand's element `c` plus the sum of the updates `e` whose index word, read signed, equals `c`. -/
theorem scatterAdd1_apply {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (c : Fin N) :
    Ideal.hostScatterAdd d x idx upd (ix1 c)
      = x (ix1 c) + ∑ e ∈ Finset.univ.filter
          (fun e : Fin E => (idx (ix2 e ⟨0, Nat.one_pos⟩)).toInt = (c.val : Int)), upd (ix1 e) := by
  obtain ⟨uw, iw, sd, iv, wf⟩ := d
  dsimp only at huw hiw hsd hiv
  subst huw hiw hsd hiv
  unfold Ideal.hostScatterAdd
  congr 1
  have hsz : ((⟨1, ![N]⟩ : Shape).size 0 : Nat) = N := rfl
  have key : ∀ e : Fin E,
      (ScatterDims.resultIdx? (s := ⟨1, ![N]⟩) (si := ⟨2, ![E, 1]⟩) (u := ⟨1, ![E]⟩) ⟨[], [0], [0], 1, wf⟩
        (ix1 e) idx = some (ix1 c)) ↔ (idx (ix2 e ⟨0, Nat.one_pos⟩)).toInt = (c.val : Int) := by
    intro e
    have hst : ∀ a, ScatterDims.start (s := ⟨1, ![N]⟩) (si := ⟨2, ![E, 1]⟩) (u := ⟨1, ![E]⟩) ⟨[], [0], [0], 1, wf⟩
        (ix1 e) idx a = (idx (ix2 e ⟨0, Nat.one_pos⟩)).toInt := by
      intro a
      obtain rfl : a = 0 := Subsingleton.elim _ _
      unfold ScatterDims.start
      rw [dif_pos (List.mem_singleton.mpr rfl)]
      have hsi : ∀ p, ScatterDims.siIdx (s := ⟨1, ![N]⟩) (si := ⟨2, ![E, 1]⟩) (u := ⟨1, ![E]⟩) ⟨[], [0], [0], 1, wf⟩
          (ix1 e) ⟨List.idxOf (0 : Fin 1) [0], p⟩ = ix2 e ⟨0, Nat.one_pos⟩ := by
        intro p; funext b; refine Fin.ext ?_
        match b with
        | ⟨0, _⟩ => rfl
        | ⟨1, _⟩ => rfl
      rw [hsi]
    have hwin : ∀ a, ScatterDims.window (s := ⟨1, ![N]⟩) (si := ⟨2, ![E, 1]⟩) (u := ⟨1, ![E]⟩) ⟨[], [0], [0], 1, wf⟩
        (ix1 e) a = 0 := by
      intro a
      obtain rfl : a = 0 := Subsingleton.elim _ _
      unfold ScatterDims.window
      rw [dif_neg (by simp [Shape.kept])]
    have hc := c.isLt
    constructor
    · intro h
      unfold ScatterDims.resultIdx? at h
      split at h
      · rename_i hall
        have h0 := hall 0
        have hc0 : (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val :=
          congrArg Fin.val (congrFun (Option.some.inj h) 0)
        rw [hst, hwin] at h0 hc0
        rw [hsz] at h0
        omega
      · cases h
    · intro hv
      have hall : ∀ a, 0 ≤ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
          ∧ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
            < (((⟨1, ![N]⟩ : Shape).size a : Nat) : Int) := by
        intro a
        rw [hst, hwin]
        obtain rfl : a = 0 := Subsingleton.elim _ _
        rw [hsz]
        omega
      unfold ScatterDims.resultIdx?
      rw [dif_pos hall]
      congr 1
      funext a
      obtain rfl : a = 0 := Subsingleton.elim _ _
      refine Fin.ext ?_
      show (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val
      rw [hst, hwin]
      omega
  refine Finset.sum_nbij' (fun j => (j 0 : Fin E)) (fun e => ix1 e) ?_ ?_ ?_ ?_ ?_
  · intro j hj
    have h2 := (Finset.mem_filter.1 hj).2
    rw [eq_ix1 j] at h2
    exact Finset.mem_filter.2 ⟨Finset.mem_univ _, (key _).1 h2⟩
  · intro e he
    exact Finset.mem_filter.2 ⟨Finset.mem_univ _, (key e).2 (Finset.mem_filter.1 he).2⟩
  · intro j _
    exact (eq_ix1 j).symm
  · intro e _
    rfl
  · intro j _
    exact congrArg upd (eq_ix1 j)

/-- A scatter-add of rows into a matrix `[N, C]` with one row index per update row: element `(c, k)` of the
    result is the operand's element `(c, k)` plus the sum over the update rows `e` whose index word, read
    signed, equals `c` of their element `k`. -/
theorem scatterAdd2_apply {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (c : Fin N) (k : Fin C) :
    Ideal.hostScatterAdd d x idx upd (ix2 c k)
      = x (ix2 c k) + ∑ e ∈ Finset.univ.filter
          (fun e : Fin E => (idx (ix2 e ⟨0, Nat.one_pos⟩)).toInt = (c.val : Int)), upd (ix2 e k) := by
  obtain ⟨uw, iw, sd, iv, wf⟩ := d
  dsimp only at huw hiw hsd hiv
  subst huw hiw hsd hiv
  unfold Ideal.hostScatterAdd
  congr 1
  have hsz0 : ((⟨2, ![N, C]⟩ : Shape).size 0 : Nat) = N := rfl
  have hsz1 : ((⟨2, ![N, C]⟩ : Shape).size 1 : Nat) = C := rfl
  have key : ∀ (e : Fin E) (k' : Fin C),
      (ScatterDims.resultIdx? (⟨[1], [0], [0], 1, wf⟩ : ScatterDims ⟨2, ![N, C]⟩ ⟨2, ![E, 1]⟩ ⟨2, ![E, C]⟩) (ix2 e k') idx = some (ix2 c k))
        ↔ ((idx (ix2 e ⟨0, Nat.one_pos⟩)).toInt = (c.val : Int) ∧ k' = k) := by
    intro e k'
    have hst0 : ScatterDims.start (⟨[1], [0], [0], 1, wf⟩ : ScatterDims ⟨2, ![N, C]⟩ ⟨2, ![E, 1]⟩ ⟨2, ![E, C]⟩) (ix2 e k') idx 0 = (idx (ix2 e ⟨0, Nat.one_pos⟩)).toInt := by
      unfold ScatterDims.start
      rw [dif_pos (List.mem_singleton.mpr rfl)]
      have hsi : ∀ p, ScatterDims.siIdx (⟨[1], [0], [0], 1, wf⟩ : ScatterDims ⟨2, ![N, C]⟩ ⟨2, ![E, 1]⟩ ⟨2, ![E, C]⟩) (ix2 e k') ⟨List.idxOf (0 : Fin 2) [0], p⟩ = ix2 e ⟨0, Nat.one_pos⟩ := by
        intro p; funext b; refine Fin.ext ?_
        match b with
        | ⟨0, _⟩ => rfl
        | ⟨1, _⟩ => rfl
      rw [hsi]
    have hst1 : ScatterDims.start (⟨[1], [0], [0], 1, wf⟩ : ScatterDims ⟨2, ![N, C]⟩ ⟨2, ![E, 1]⟩ ⟨2, ![E, C]⟩) (ix2 e k') idx 1 = 0 := by
      unfold ScatterDims.start
      rw [dif_neg (fun h => absurd (congrArg Fin.val (List.mem_singleton.mp h)) Nat.one_ne_zero)]
    have hwin0 : ScatterDims.window (⟨[1], [0], [0], 1, wf⟩ : ScatterDims ⟨2, ![N, C]⟩ ⟨2, ![E, 1]⟩ ⟨2, ![E, C]⟩) (ix2 e k') 0 = 0 := by
      unfold ScatterDims.window
      rw [dif_neg (by simp [Shape.kept])]
    have hwin1 : ScatterDims.window (⟨[1], [0], [0], 1, wf⟩ : ScatterDims ⟨2, ![N, C]⟩ ⟨2, ![E, 1]⟩ ⟨2, ![E, C]⟩) (ix2 e k') 1 = k'.val := by
      unfold ScatterDims.window
      rw [dif_pos (by simp [Shape.kept])]
      rfl
    have hc := c.isLt
    have hk := k.isLt
    have hk' := k'.isLt
    constructor
    · intro h
      unfold ScatterDims.resultIdx? at h
      split at h
      · rename_i hall
        have h0 := hall 0
        have hc0 : (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val :=
          congrArg Fin.val (congrFun (Option.some.inj h) 0)
        have hc1 : (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k.val :=
          congrArg Fin.val (congrFun (Option.some.inj h) 1)
        rw [hst0, hwin0] at h0 hc0
        rw [hsz0] at h0
        rw [hst1, hwin1] at hc1
        exact ⟨by omega, Fin.ext (by omega)⟩
      · cases h
    · rintro ⟨hv, rfl⟩
      have hall : ∀ a, 0 ≤ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
          ∧ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
            < (((⟨2, ![N, C]⟩ : Shape).size a : Nat) : Int) := by
        intro a
        match a with
        | ⟨0, _⟩ =>
          show 0 ≤ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
            ∧ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
              < (((⟨2, ![N, C]⟩ : Shape).size 0 : Nat) : Int)
          rw [hst0, hwin0, hsz0]
          omega
        | ⟨1, _⟩ =>
          show 0 ≤ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
            ∧ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
              < (((⟨2, ![N, C]⟩ : Shape).size 1 : Nat) : Int)
          rw [hst1, hwin1, hsz1]
          omega
      unfold ScatterDims.resultIdx?
      rw [dif_pos hall]
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val
        rw [hst0, hwin0]
        omega
      | ⟨1, _⟩ =>
        show (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k'.val
        rw [hst1, hwin1]
        omega
  have hmem : ∀ j : (⟨2, ![E, C]⟩ : Shape).Idx,
      ScatterDims.resultIdx? (⟨[1], [0], [0], 1, wf⟩ : ScatterDims ⟨2, ![N, C]⟩ ⟨2, ![E, 1]⟩ ⟨2, ![E, C]⟩) j idx = some (ix2 c k)
        → (idx (ix2 (j 0 : Fin E) ⟨0, Nat.one_pos⟩)).toInt = (c.val : Int) ∧ ix2 (j 0 : Fin E) k = j := by
    intro j hj
    rw [eq_ix2 j] at hj
    have h2 := (key _ _).1 hj
    refine ⟨h2.1, ?_⟩
    have h3 : ix2 (j 0 : Fin E) k = ix2 (j 0 : Fin E) (j 1 : Fin C) :=
      congrArg (fun t : Fin C => ix2 (j 0 : Fin E) t) h2.2.symm
    exact h3.trans (eq_ix2 j).symm
  refine Finset.sum_nbij' (fun j => (j 0 : Fin E)) (fun e => ix2 e k) ?_ ?_ ?_ ?_ ?_
  · intro j hj
    exact Finset.mem_filter.2 ⟨Finset.mem_univ _, (hmem j (Finset.mem_filter.1 hj).2).1⟩
  · intro e he
    exact Finset.mem_filter.2 ⟨Finset.mem_univ _, (key e k).2 ⟨(Finset.mem_filter.1 he).2, rfl⟩⟩
  · intro j hj
    exact (hmem j (Finset.mem_filter.1 hj).2).2
  · intro e _
    rfl
  · intro j hj
    exact congrArg upd (hmem j (Finset.mem_filter.1 hj).2).2.symm

/-- A gather from a flat array `[N]` with one start index per result element: result element `e` is the
    operand at the index word of `e`, read signed and clamped into `[0, N - 1]`. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e)
      = x (ix1 ⟨min (idx (ix2 e ⟨0, Nat.one_pos⟩)).toInt.toNat (N - 1), by omega⟩) := by
  obtain ⟨od, cd, ob, sb, sm, iv, ss, wf⟩ := d
  dsimp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p, GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e ⟨0, Nat.one_pos⟩ := by
    intro p
    funext b; refine Fin.ext ?_
    match b with
    | ⟨0, _⟩ => rfl
    | ⟨1, _⟩ => rfl
  rw [hsi]
  rfl

/-- A gather of rows from a matrix `[N, C]` with one start index per result row: result element `(e, k)` is
    the operand's element `k` of the row at the index word of `e`, read signed and clamped into `[0, N - 1]`. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ p, GatherDims.siIdx (s := ⟨2, ![N, C]⟩) (si := ⟨2, ![E, 1]⟩) (t := ⟨2, ![E, C]⟩)
        ⟨[1], [0], [], [], [0], 1, ![1, C], wf⟩ (ix2 e k) ⟨List.idxOf (0 : Fin 2) [0], p⟩ = ix2 e ⟨0, Nat.one_pos⟩ := by
      intro p
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ScatterGather

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.KernelLayerAt.lean ====
/-
  The host-side operations of the kernel's program between its two regions, read at one entry at the exact-real
  values.

  The program counts each node's degree by adding a one into the node's slot for every edge whose target word names it,
  and one more for the node's own loop; it takes the guarded reciprocal square root of the degree; and after each
  region it aggregates the region's table over the edges: it gathers the table's row at every edge's source (the source
  word wrapped, read signed and clamped into the node range), adds the gathered rows into their edges' target rows
  starting from zero, adds the node's own row, scales by the node's normaliser and adds the bias. Read at node j and
  feature q this is
      normaliser j * ((0 + sum over the edges e into j of table (source e, q)) + table (j, q)) + bias q,
  and when the table is a projected row already scaled by its node's normaliser it is the specification's layer.
-/
import proofs.«166101_j23072564314311_2_alg».proof.Proof.Gen.KernelIdeal.Launch
import proofs.«166101_j23072564314311_2_alg».proof.Proof.GcnSpec
import proofs.«166101_j23072564314311_2_alg».proof.Proof.LibScatterGather
import proofs.«166101_j23072564314311_2_alg».proof.Proof.LibHostBroadcast
import Idealize.ShloMosaic.Lib.IdealHost
import Idealize.ShloMosaic.Lib.ValueIdx

noncomputable section

open scoped BigOperators

namespace Cert.KernelIdeal.GcnLayerAt

open Cert.KernelIdeal Cert.KernelIdeal.Gen Idealize.ShloMosaic Idealize.ShloMosaic.ValueIdx

/-- An equation between two sums of extended reals, each a starting value plus a finite sum, from equations between
    the starting values, the index sets and the terms. -/
theorem add_sum_congr {ι : Type} {s t : Finset ι} {f g : ι → EReal} {a b : EReal} (ha : a = b) (hs : s = t)
    (hf : ∀ i ∈ t, f i = g i) : a + ∑ i ∈ s, f i = b + ∑ i ∈ t, g i := by
  rw [ha, Finset.sum_congr hs hf]

/-- The host's accumulating scatter at the exact-real values is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- A float constant spread over a shape reads, everywhere, the constant's value. -/
theorem splat_at {t : Shape} (h : S_.BroadcastsInDim t (![] : Fin 0 → Fin t.rank)) (b : BitVec 32) (i : t.Idx) :
    broadcastInDim t ![] h (constant (F := Ideal) S_ .f32 b) i = Ideal.ofBits .f32 b := rfl

/-! ## Degrees -/

/-- The degree count at node j: zero, plus a one for every edge whose target word reads j, plus one. -/
theorem degree_at (col : IVec S1600000 32) (j : Fin 50000) :
    addf (Host.scatterAdd scatter_S50000_S1600000x1_S1600000_n_0_0_1
          (broadcastInDim S50000 ![] bcast_S_S50000 (constant (F := Ideal) S_ .f32 0x00000000#32))
          (broadcastInDim S1600000x1 ![0] bcast_S1600000_S1600000x1_0 col)
          (broadcastInDim S1600000 ![] bcast_S_S1600000 (constant (F := Ideal) S_ .f32 0x3F800000#32)))
        (broadcastInDim S50000 ![] bcast_S_S50000 (constant (F := Ideal) S_ .f32 0x3F800000#32)) (ix1 j)
      = GcnSpec.degree (fun e : Fin 1600000 => col (ix1 e)) j := by
  rw [addf_apply, splat_at, Ideal.ofBits_one_f32, scatterAdd_ideal,
    ScatterGather.scatterAdd1_apply scatter_S50000_S1600000x1_S1600000_n_0_0_1 rfl rfl rfl rfl]
  unfold GcnSpec.degree GcnSpec.into
  refine congrArg (· + (1 : EReal))
    (add_sum_congr ((splat_at _ _ _).trans Ideal.ofBits_zero_f32) (Finset.filter_congr fun e _ => ?_)
      fun e _ => (splat_at _ _ _).trans Ideal.ofBits_one_f32)
  rw [LibHostBroadcast.vec_to_col_apply]

/-! ## Normalisers -/

/-- The guarded reciprocal square root at node j (the zero of the other branch passed through an identity). -/
theorem guarded_at (deg : FVec Ideal S50000 .f32) (j : Fin 50000) :
    select (cmpf .ogt deg (broadcastInDim S50000 ![] bcast_S_S50000 (constant (F := Ideal) S_ .f32 0x00000000#32)))
        (Host.rsqrt deg)
        (broadcastInDim S50000 ![] bcast_S_S50000 (id (constant (F := Ideal) S_ .f32 0x00000000#32))) (ix1 j)
      = GcnSpec.guarded (deg (ix1 j)) := rfl

/-- The same with the zero of the other branch written directly. -/
theorem guarded_at' (deg : FVec Ideal S50000 .f32) (j : Fin 50000) :
    select (cmpf .ogt deg (broadcastInDim S50000 ![] bcast_S_S50000 (constant (F := Ideal) S_ .f32 0x00000000#32)))
        (Host.rsqrt deg)
        (broadcastInDim S50000 ![] bcast_S_S50000 (constant (F := Ideal) S_ .f32 0x00000000#32)) (ix1 j)
      = GcnSpec.guarded (deg (ix1 j)) := rfl

/-- The normalisers as a column: entry (j, 0) is the normaliser of node j. -/
theorem column_at {α : Type} (d : S50000.Idx → α) (j : Fin 50000) :
    broadcastInDim S50000x1 ![0] bcast_S50000_S50000x1_0 d (ix2 j (0 : Fin 1)) = d (ix1 j) :=
  LibHostBroadcast.vec_to_col_apply d _ j 0

/-! ## The aggregation over the edges, for a table of any width -/

section Width
variable {C : ℕ}

/-- The wrapped source word of edge e. -/
theorem wrapped_at (hw : S_.BroadcastsInDim S1600000 (![] : Fin 0 → Fin S1600000.rank)) (row : IVec S1600000 32)
    (e : Fin 1600000) :
    select (cmpi .slt row (broadcastInDim S1600000 ![] hw (constantI S_ 32 0#32)))
        (addi row (broadcastInDim S1600000 ![] hw (constantI S_ 32 50000#32))) row (ix1 e)
      = GcnSpec.wrapWord (row (ix1 e)) := rfl

/-- The node a gather reads for edge e: the edge's wrapped source word, read signed and clamped into the node range. -/
theorem source_at (hc : S1600000.BroadcastsInDim S1600000x1 (![0] : Fin 1 → Fin S1600000x1.rank))
    (hw : S_.BroadcastsInDim S1600000 (![] : Fin 0 → Fin S1600000.rank)) (row : IVec S1600000 32) (e : Fin 1600000)
    (h : min ((broadcastInDim S1600000x1 ![0] hc
          (select (cmpi .slt row (broadcastInDim S1600000 ![] hw (constantI S_ 32 0#32)))
            (addi row (broadcastInDim S1600000 ![] hw (constantI S_ 32 50000#32))) row))
        (ix2 e ⟨0, Nat.one_pos⟩)).toInt.toNat (50000 - 1) < 50000) :
    (⟨min ((broadcastInDim S1600000x1 ![0] hc
          (select (cmpi .slt row (broadcastInDim S1600000 ![] hw (constantI S_ 32 0#32)))
            (addi row (broadcastInDim S1600000 ![] hw (constantI S_ 32 50000#32))) row))
        (ix2 e ⟨0, Nat.one_pos⟩)).toInt.toNat (50000 - 1), h⟩ : Fin 50000) = GcnSpec.node (row (ix1 e)) := by
  apply Fin.ext
  show min ((broadcastInDim S1600000x1 ![0] hc
          (select (cmpi .slt row (broadcastInDim S1600000 ![] hw (constantI S_ 32 0#32)))
            (addi row (broadcastInDim S1600000 ![] hw (constantI S_ 32 50000#32))) row))
        (ix2 e ⟨0, Nat.one_pos⟩)).toInt.toNat (50000 - 1)
      = min (GcnSpec.wrapWord (row (ix1 e))).toInt.toNat (50000 - 1)
  rw [LibHostBroadcast.vec_to_col_apply, wrapped_at]

/-- The gathered source rows added into their target rows, at (j, q): zero plus, over the edges into j, the table's
    entry q at the edge's source node. -/
theorem aggregate_at
    (sd : ScatterDims ⟨2, ![50000, C]⟩ ⟨2, ![1600000, 1]⟩ ⟨2, ![1600000, C]⟩)
    (huw : sd.updateWindowDims = [1]) (hiw : sd.insertedWindowDims = [0])
    (hsd : sd.scatterDimsToOperandDims = [0]) (hiv : sd.indexVectorDim = 1)
    (gd : GatherDims ⟨2, ![50000, C]⟩ ⟨2, ![1600000, 1]⟩ ⟨2, ![1600000, C]⟩)
    (hod : gd.offsetDims = [1]) (hcd : gd.collapsedSliceDims = [0]) (hob : gd.operandBatchingDims = [])
    (hsb : gd.startIndicesBatchingDims = []) (hsm : gd.startIndexMap = [0]) (hgiv : gd.indexVectorDim = 1)
    (hss : gd.sliceSizes = ![1, C])
    (hz : S_.BroadcastsInDim ⟨2, ![50000, C]⟩ (![] : Fin 0 → Fin 2))
    (hc : S1600000.BroadcastsInDim S1600000x1 (![0] : Fin 1 → Fin S1600000x1.rank))
    (hw : S_.BroadcastsInDim S1600000 (![] : Fin 0 → Fin S1600000.rank))
    (r : FVec Ideal ⟨2, ![50000, C]⟩ .f32) (row col : IVec S1600000 32) (j : Fin 50000) (q : Fin C) :
    Host.scatterAdd sd
        (broadcastInDim ⟨2, ![50000, C]⟩ ![] hz (constant (F := Ideal) S_ .f32 0x00000000#32))
        (broadcastInDim S1600000x1 ![0] hc col)
        (Host.gather gd r (broadcastInDim S1600000x1 ![0] hc
          (select (cmpi .slt row (broadcastInDim S1600000 ![] hw (constantI S_ 32 0#32)))
            (addi row (broadcastInDim S1600000 ![] hw (constantI S_ 32 50000#32))) row))) (ix2 j q)
      = 0 + ∑ e ∈ GcnSpec.into (fun e : Fin 1600000 => col (ix1 e)) j, r (ix2 (GcnSpec.node (row (ix1 e))) q) := by
  rw [scatterAdd_ideal, ScatterGather.scatterAdd2_apply sd huw hiw hsd hiv]
  unfold GcnSpec.into
  refine add_sum_congr ((splat_at _ _ _).trans Ideal.ofBits_zero_f32) (Finset.filter_congr fun e _ => ?_) fun e _ => ?_
  · rw [LibHostBroadcast.vec_to_col_apply]
  · rw [ScatterGather.gather2_apply (by omega) gd hod hcd hob hsb hsm hgiv hss, source_at]

/-- The whole layer at (j, q): the normaliser of j times (the aggregate plus the node's own row), plus the bias. -/
theorem layer_at_width
    (sd : ScatterDims ⟨2, ![50000, C]⟩ ⟨2, ![1600000, 1]⟩ ⟨2, ![1600000, C]⟩)
    (huw : sd.updateWindowDims = [1]) (hiw : sd.insertedWindowDims = [0])
    (hsd : sd.scatterDimsToOperandDims = [0]) (hiv : sd.indexVectorDim = 1)
    (gd : GatherDims ⟨2, ![50000, C]⟩ ⟨2, ![1600000, 1]⟩ ⟨2, ![1600000, C]⟩)
    (hod : gd.offsetDims = [1]) (hcd : gd.collapsedSliceDims = [0]) (hob : gd.operandBatchingDims = [])
    (hsb : gd.startIndicesBatchingDims = []) (hsm : gd.startIndexMap = [0]) (hgiv : gd.indexVectorDim = 1)
    (hss : gd.sliceSizes = ![1, C])
    (hz : S_.BroadcastsInDim ⟨2, ![50000, C]⟩ (![] : Fin 0 → Fin 2))
    (hc : S1600000.BroadcastsInDim S1600000x1 (![0] : Fin 1 → Fin S1600000x1.rank))
    (hw : S_.BroadcastsInDim S1600000 (![] : Fin 0 → Fin S1600000.rank))
    (hd : (⟨2, ![50000, 1]⟩ : Shape).BroadcastsInDim ⟨2, ![50000, C]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![50000, C]⟩ (![0, 1] : Fin 2 → Fin 2))
    (r : FVec Ideal ⟨2, ![50000, C]⟩ .f32) (row col : IVec S1600000 32) (dcol : FVec Ideal ⟨2, ![50000, 1]⟩ .f32)
    (b : FVec Ideal ⟨1, ![C]⟩ .f32) (j : Fin 50000) (q : Fin C) :
    addf (mulf (broadcastInDim ⟨2, ![50000, C]⟩ ![0, 1] hd dcol)
        (addf (Host.scatterAdd sd
            (broadcastInDim ⟨2, ![50000, C]⟩ ![] hz (constant (F := Ideal) S_ .f32 0x00000000#32))
            (broadcastInDim S1600000x1 ![0] hc col)
            (Host.gather gd r (broadcastInDim S1600000x1 ![0] hc
              (select (cmpi .slt row (broadcastInDim S1600000 ![] hw (constantI S_ 32 0#32)))
                (addi row (broadcastInDim S1600000 ![] hw (constantI S_ 32 50000#32))) row)))) r))
        (broadcastInDim ⟨2, ![50000, C]⟩ ![0, 1] hb2 (broadcastInDim ⟨2, ![1, C]⟩ ![1] hb1 b)) (ix2 j q)
      = dcol (ix2 j (0 : Fin 1))
          * ((0 + ∑ e ∈ GcnSpec.into (fun e : Fin 1600000 => col (ix1 e)) j, r (ix2 (GcnSpec.node (row (ix1 e))) q))
              + r (ix2 j q))
        + b (ix1 q) := by
  rw [addf_apply, mulf_apply, addf_apply,
    aggregate_at sd huw hiw hsd hiv gd hod hcd hob hsb hsm hgiv hss hz hc hw r row col j q,
    LibHostBroadcast.col_to_mat_apply, LibHostBroadcast.row_to_mat_apply, LibHostBroadcast.vec_to_row_apply]

/-- The layer in the specification's form, when the table is a projected row scaled by its node's normaliser. -/
theorem layer_spec_width
    (sd : ScatterDims ⟨2, ![50000, C]⟩ ⟨2, ![1600000, 1]⟩ ⟨2, ![1600000, C]⟩)
    (huw : sd.updateWindowDims = [1]) (hiw : sd.insertedWindowDims = [0])
    (hsd : sd.scatterDimsToOperandDims = [0]) (hiv : sd.indexVectorDim = 1)
    (gd : GatherDims ⟨2, ![50000, C]⟩ ⟨2, ![1600000, 1]⟩ ⟨2, ![1600000, C]⟩)
    (hod : gd.offsetDims = [1]) (hcd : gd.collapsedSliceDims = [0]) (hob : gd.operandBatchingDims = [])
    (hsb : gd.startIndicesBatchingDims = []) (hsm : gd.startIndexMap = [0]) (hgiv : gd.indexVectorDim = 1)
    (hss : gd.sliceSizes = ![1, C])
    (hz : S_.BroadcastsInDim ⟨2, ![50000, C]⟩ (![] : Fin 0 → Fin 2))
    (hc : S1600000.BroadcastsInDim S1600000x1 (![0] : Fin 1 → Fin S1600000x1.rank))
    (hw : S_.BroadcastsInDim S1600000 (![] : Fin 0 → Fin S1600000.rank))
    (hd : (⟨2, ![50000, 1]⟩ : Shape).BroadcastsInDim ⟨2, ![50000, C]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![50000, C]⟩ (![0, 1] : Fin 2 → Fin 2))
    (r : FVec Ideal ⟨2, ![50000, C]⟩ .f32) (row col : IVec S1600000 32) (dcol : FVec Ideal ⟨2, ![50000, 1]⟩ .f32)
    (b : FVec Ideal ⟨1, ![C]⟩ .f32) (xw : Fin 50000 → Fin C → EReal)
    (hr : ∀ (p : Fin 50000) (k : Fin C), r (ix2 p k) = xw p k * dcol (ix2 p (0 : Fin 1)))
    (j : Fin 50000) (q : Fin C) :
    addf (mulf (broadcastInDim ⟨2, ![50000, C]⟩ ![0, 1] hd dcol)
        (addf (Host.scatterAdd sd
            (broadcastInDim ⟨2, ![50000, C]⟩ ![] hz (constant (F := Ideal) S_ .f32 0x00000000#32))
            (broadcastInDim S1600000x1 ![0] hc col)
            (Host.gather gd r (broadcastInDim S1600000x1 ![0] hc
              (select (cmpi .slt row (broadcastInDim S1600000 ![] hw (constantI S_ 32 0#32)))
                (addi row (broadcastInDim S1600000 ![] hw (constantI S_ 32 50000#32))) row)))) r))
        (broadcastInDim ⟨2, ![50000, C]⟩ ![0, 1] hb2 (broadcastInDim ⟨2, ![1, C]⟩ ![1] hb1 b)) (ix2 j q)
      = GcnSpec.layer (fun e : Fin 1600000 => row (ix1 e)) (fun e : Fin 1600000 => col (ix1 e))
          (fun p : Fin 50000 => dcol (ix2 p (0 : Fin 1))) xw (fun k : Fin C => b (ix1 k)) j q := by
  rw [layer_at_width sd huw hiw hsd hiv gd hod hcd hob hsb hsm hgiv hss hz hc hw hd hb1 hb2 r row col dcol b j q]
  unfold GcnSpec.layer
  rw [hr j q, Finset.sum_congr rfl fun e _ => hr (GcnSpec.node (row (ix1 e))) q]

end Width

/-! ## The two layers of the program -/

/-- The first layer (width 50) at (j, q). -/
theorem layer50_at (r : FVec Ideal S50000x50 .f32) (row col : IVec S1600000 32) (dcol : FVec Ideal S50000x1 .f32)
    (b : FVec Ideal S50 .f32) (j : Fin 50000) (q : Fin 50) :
    addf (mulf (broadcastInDim S50000x50 ![0, 1] bcast_S50000x1_S50000x50_0_1 dcol)
        (addf (Host.scatterAdd scatter_S50000x50_S1600000x1_S1600000x50_1_0_0_1
            (broadcastInDim S50000x50 ![] bcast_S_S50000x50 (constant (F := Ideal) S_ .f32 0x00000000#32))
            (broadcastInDim S1600000x1 ![0] bcast_S1600000_S1600000x1_0 col)
            (Host.gather gather_S50000x50_S1600000x1_S1600000x50_1_0_n_n_0_1_150 r
              (broadcastInDim S1600000x1 ![0] bcast_S1600000_S1600000x1_0
                (select (cmpi .slt row (broadcastInDim S1600000 ![] bcast_S_S1600000 (constantI S_ 32 0#32)))
                  (addi row (broadcastInDim S1600000 ![] bcast_S_S1600000 (constantI S_ 32 50000#32))) row)))) r))
        (broadcastInDim S50000x50 ![0, 1] bcast_S1x50_S50000x50_0_1 (broadcastInDim S1x50 ![1] bcast_S50_S1x50_1 b))
        (ix2 j q)
      = dcol (ix2 j (0 : Fin 1))
          * ((0 + ∑ e ∈ GcnSpec.into (fun e : Fin 1600000 => col (ix1 e)) j, r (ix2 (GcnSpec.node (row (ix1 e))) q))
              + r (ix2 j q))
        + b (ix1 q) :=
  layer_at_width scatter_S50000x50_S1600000x1_S1600000x50_1_0_0_1 rfl rfl rfl rfl
    gather_S50000x50_S1600000x1_S1600000x50_1_0_n_n_0_1_150 rfl rfl rfl rfl rfl rfl rfl
    bcast_S_S50000x50 bcast_S1600000_S1600000x1_0 bcast_S_S1600000 bcast_S50000x1_S50000x50_0_1 bcast_S50_S1x50_1
    bcast_S1x50_S50000x50_0_1 r row col dcol b j q

/-- The first layer in the specification's form. -/
theorem layer50_spec (r : FVec Ideal S50000x50 .f32) (row col : IVec S1600000 32) (dcol : FVec Ideal S50000x1 .f32)
    (b : FVec Ideal S50 .f32) (xw : Fin 50000 → Fin 50 → EReal)
    (hr : ∀ (p : Fin 50000) (k : Fin 50), r (ix2 p k) = xw p k * dcol (ix2 p (0 : Fin 1)))
    (j : Fin 50000) (q : Fin 50) :
    addf (mulf (broadcastInDim S50000x50 ![0, 1] bcast_S50000x1_S50000x50_0_1 dcol)
        (addf (Host.scatterAdd scatter_S50000x50_S1600000x1_S1600000x50_1_0_0_1
            (broadcastInDim S50000x50 ![] bcast_S_S50000x50 (constant (F := Ideal) S_ .f32 0x00000000#32))
            (broadcastInDim S1600000x1 ![0] bcast_S1600000_S1600000x1_0 col)
            (Host.gather gather_S50000x50_S1600000x1_S1600000x50_1_0_n_n_0_1_150 r
              (broadcastInDim S1600000x1 ![0] bcast_S1600000_S1600000x1_0
                (select (cmpi .slt row (broadcastInDim S1600000 ![] bcast_S_S1600000 (constantI S_ 32 0#32)))
                  (addi row (broadcastInDim S1600000 ![] bcast_S_S1600000 (constantI S_ 32 50000#32))) row)))) r))
        (broadcastInDim S50000x50 ![0, 1] bcast_S1x50_S50000x50_0_1 (broadcastInDim S1x50 ![1] bcast_S50_S1x50_1 b))
        (ix2 j q)
      = GcnSpec.layer (fun e : Fin 1600000 => row (ix1 e)) (fun e : Fin 1600000 => col (ix1 e))
          (fun p : Fin 50000 => dcol (ix2 p (0 : Fin 1))) xw (fun k : Fin 50 => b (ix1 k)) j q :=
  layer_spec_width scatter_S50000x50_S1600000x1_S1600000x50_1_0_0_1 rfl rfl rfl rfl
    gather_S50000x50_S1600000x1_S1600000x50_1_0_n_n_0_1_150 rfl rfl rfl rfl rfl rfl rfl
    bcast_S_S50000x50 bcast_S1600000_S1600000x1_0 bcast_S_S1600000 bcast_S50000x1_S50000x50_0_1 bcast_S50_S1x50_1
    bcast_S1x50_S50000x50_0_1 r row col dcol b xw hr j q

/-- The second layer (width 10) at (j, q). -/
theorem layer10_at (r : FVec Ideal S50000x10 .f32) (row col : IVec S1600000 32) (dcol : FVec Ideal S50000x1 .f32)
    (b : FVec Ideal S10 .f32) (j : Fin 50000) (q : Fin 10) :
    addf (mulf (broadcastInDim S50000x10 ![0, 1] bcast_S50000x1_S50000x10_0_1 dcol)
        (addf (Host.scatterAdd scatter_S50000x10_S1600000x1_S1600000x10_1_0_0_1
            (broadcastInDim S50000x10 ![] bcast_S_S50000x10 (constant (F := Ideal) S_ .f32 0x00000000#32))
            (broadcastInDim S1600000x1 ![0] bcast_S1600000_S1600000x1_0 col)
            (Host.gather gather_S50000x10_S1600000x1_S1600000x10_1_0_n_n_0_1_110 r
              (broadcastInDim S1600000x1 ![0] bcast_S1600000_S1600000x1_0
                (select (cmpi .slt row (broadcastInDim S1600000 ![] bcast_S_S1600000 (constantI S_ 32 0#32)))
                  (addi row (broadcastInDim S1600000 ![] bcast_S_S1600000 (constantI S_ 32 50000#32))) row)))) r))
        (broadcastInDim S50000x10 ![0, 1] bcast_S1x10_S50000x10_0_1 (broadcastInDim S1x10 ![1] bcast_S10_S1x10_1 b))
        (ix2 j q)
      = dcol (ix2 j (0 : Fin 1))
          * ((0 + ∑ e ∈ GcnSpec.into (fun e : Fin 1600000 => col (ix1 e)) j, r (ix2 (GcnSpec.node (row (ix1 e))) q))
              + r (ix2 j q))
        + b (ix1 q) :=
  layer_at_width scatter_S50000x10_S1600000x1_S1600000x10_1_0_0_1 rfl rfl rfl rfl
    gather_S50000x10_S1600000x1_S1600000x10_1_0_n_n_0_1_110 rfl rfl rfl rfl rfl rfl rfl
    bcast_S_S50000x10 bcast_S1600000_S1600000x1_0 bcast_S_S1600000 bcast_S50000x1_S50000x10_0_1 bcast_S10_S1x10_1
    bcast_S1x10_S50000x10_0_1 r row col dcol b j q

/-- The second layer in the specification's form. -/
theorem layer10_spec (r : FVec Ideal S50000x10 .f32) (row col : IVec S1600000 32) (dcol : FVec Ideal S50000x1 .f32)
    (b : FVec Ideal S10 .f32) (xw : Fin 50000 → Fin 10 → EReal)
    (hr : ∀ (p : Fin 50000) (k : Fin 10), r (ix2 p k) = xw p k * dcol (ix2 p (0 : Fin 1)))
    (j : Fin 50000) (q : Fin 10) :
    addf (mulf (broadcastInDim S50000x10 ![0, 1] bcast_S50000x1_S50000x10_0_1 dcol)
        (addf (Host.scatterAdd scatter_S50000x10_S1600000x1_S1600000x10_1_0_0_1
            (broadcastInDim S50000x10 ![] bcast_S_S50000x10 (constant (F := Ideal) S_ .f32 0x00000000#32))
            (broadcastInDim S1600000x1 ![0] bcast_S1600000_S1600000x1_0 col)
            (Host.gather gather_S50000x10_S1600000x1_S1600000x10_1_0_n_n_0_1_110 r
              (broadcastInDim S1600000x1 ![0] bcast_S1600000_S1600000x1_0
                (select (cmpi .slt row (broadcastInDim S1600000 ![] bcast_S_S1600000 (constantI S_ 32 0#32)))
                  (addi row (broadcastInDim S1600000 ![] bcast_S_S1600000 (constantI S_ 32 50000#32))) row)))) r))
        (broadcastInDim S50000x10 ![0, 1] bcast_S1x10_S50000x10_0_1 (broadcastInDim S1x10 ![1] bcast_S10_S1x10_1 b))
        (ix2 j q)
      = GcnSpec.layer (fun e : Fin 1600000 => row (ix1 e)) (fun e : Fin 1600000 => col (ix1 e))
          (fun p : Fin 50000 => dcol (ix2 p (0 : Fin 1))) xw (fun k : Fin 10 => b (ix1 k)) j q :=
  layer_spec_width scatter_S50000x10_S1600000x1_S1600000x10_1_0_0_1 rfl rfl rfl rfl
    gather_S50000x10_S1600000x1_S1600000x10_1_0_n_n_0_1_110 rfl rfl rfl rfl rfl rfl rfl
    bcast_S_S50000x10 bcast_S1600000_S1600000x1_0 bcast_S_S1600000 bcast_S50000x1_S50000x10_0_1 bcast_S10_S1x10_1
    bcast_S1x10_S50000x10_0_1 r row col dcol b xw hr j q

/-! ## The positive part -/

/-- The positive part at an entry: the maximum with zero. -/
theorem relu_at (h : FVec Ideal S50000x50 .f32) (p : Fin 50000) (k : Fin 50) :
    maximumf h (broadcastInDim S50000x50 ![] bcast_S_S50000x50 (constant (F := Ideal) S_ .f32 0x00000000#32)) (ix2 p k)
      = max (h (ix2 p k)) (Ideal.ofBits .f32 0x00000000#32) := rfl

end Cert.KernelIdeal.GcnLayerAt

end
-- ==== Proof.KernelWords.lean ====
import proofs.«166101_j23072564314311_2_alg».proof.Proof.Gen.KernelIdeal.Launch
import Idealize.ShloMosaic.Lib.Pipeline.Value
import Idealize.ShloMosaic.Lib.ValueIdx

/-!
# The edge list's words

The edge array has two rows of 1600000 index words: row 0 the sources, row 1 the targets. The program takes a
row by slicing it out as a [1, 1600000] array and reshaping that to a vector; entry `e` of the vector is the
array's entry `(row, e)`.
-/

noncomputable section

namespace Cert.KernelIdeal.GcnWords

open Cert.KernelIdeal Idealize.ShloMosaic Idealize.ShloMosaic.ValueIdx

/-- Entry `e` of the source words (row 0 sliced out, then reshaped to a vector) is the array's entry `(0, e)`. -/
theorem source_word {α : Type} (a1 : S2x1600000.Idx → α) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  rw [shapeCast_apply _ hc (ix1 e) (ix2 (0 : Fin 1) e)
    (by rewrite [Shape.rowMajor_val_two, Shape.rowMajor_val_one]; show 0 * 1600000 + e.val = e.val; omega)]
  exact extractStridedSlice_apply ![0, 0] a1 hs (ix2 (0 : Fin 1) e) (ix2 (0 : Fin 2) e)
    (fun a => match a with
      | ⟨0, _⟩ => by show (0 : Nat) = 0 + 0; rfl
      | ⟨1, _⟩ => by show e.val = 0 + e.val; omega)

/-- Entry `e` of the target words (row 1 sliced out, then reshaped to a vector) is the array's entry `(1, e)`. -/
theorem target_word {α : Type} (a1 : S2x1600000.Idx → α) (hs : S2x1600000.Slices ![1, 0] S1x1600000)
    (hc : S1x1600000.ShapeCasts S1600000) (e : Fin 1600000) :
    shapeCast S1600000 (extractStridedSlice S1x1600000 ![1, 0] a1 hs) hc (ix1 e) = a1 (ix2 (1 : Fin 2) e) := by
  rw [shapeCast_apply _ hc (ix1 e) (ix2 (0 : Fin 1) e)
    (by rewrite [Shape.rowMajor_val_two, Shape.rowMajor_val_one]; show 0 * 1600000 + e.val = e.val; omega)]
  exact extractStridedSlice_apply ![1, 0] a1 hs (ix2 (0 : Fin 1) e) (ix2 (1 : Fin 2) e)
    (fun a => match a with
      | ⟨0, _⟩ => by show (1 : Nat) = 1 + 0; rfl
      | ⟨1, _⟩ => by show e.val = 0 + e.val; omega)

end Cert.KernelIdeal.GcnWords

end
-- ==== Proof.KernelEmbedding.lean ====
import proofs.«166101_j23072564314311_2_alg».proof.Proof.KernelStages
import proofs.«166101_j23072564314311_2_alg».proof.Proof.KernelCarry
import proofs.«166101_j23072564314311_2_alg».proof.Proof.RegionRows
import proofs.«166101_j23072564314311_2_alg».proof.Proof.KernelLayerAt
import proofs.«166101_j23072564314311_2_alg».proof.Proof.GcnSpec
import proofs.«166101_j23072564314311_2_alg».proof.Proof.KernelWords

/-!
# The kernel program's embedding is the specification's

The specification (`GcnSpec`) is a two-layer graph convolution with symmetric degree normalisation: a node's
normaliser is the guarded reciprocal square root of one plus the number of edges into it; a layer sends a table of
projected rows to, at node `j`, the normaliser of `j` times (the sum over the edges into `j` of the source's row scaled
by the source's normaliser, plus `j`'s own scaled row), plus a bias; the hidden layer is the positive part of the first
layer of the projected features, the embedding the second layer of the projected hidden layer.

The kernel program computes the same thing in pieces.  Its lines of array operations build the normaliser column
from the edge array and aggregate a table over the edges; each of its two regions multiplies a row-blocked array by a
weight matrix and scales every row by the normaliser column — which is the table "projected row scaled by its node's
normaliser" that the aggregation takes.  So, reading backwards from the second region's exit:

* the normaliser column at the first region's entry is the specification's normaliser (`normaliser_at`);
* the first region's output is the projected features scaled by the column; aggregated and cut at zero it is the
  specification's hidden layer, which is what the second region finds in its first array (`hidden_at`);
* the second region's output is the projected hidden layer scaled by the column; aggregated it is the specification's
  embedding (`kernel_embedding`).

Every fact about one entry is first stated over VARIABLES for the arrays (`normCol_at`, `hidden_of`, `layer10_of`) and
only then instantiated at the buffer contents at the program's segment boundaries, which stay unopened: they are
moved between boundaries by the "nothing in between writes it" equations only.
-/

set_option maxRecDepth 16384

noncomputable section

open scoped BigOperators

namespace Cert.KernelIdeal.GcnValue

open Cert.KernelIdeal Cert.KernelIdeal.Gen Idealize.ShloMosaic Idealize.ShloMosaic.TcCoe Idealize.ShloMosaic.ValueIdx
open Cert.KernelIdeal.GcnStages Cert.KernelIdeal.GcnCarry Cert.KernelIdeal.GcnRegion Cert.KernelIdeal.GcnWords
open Cert.KernelIdeal.GcnLayerAt

/-! ## Over variables for the arrays -/

/-- The normaliser column built from the edge array's second row, at node `p`: the guarded reciprocal square root
    of one plus the number of edges whose target word reads `p`. -/
theorem normCol_at (a1 : S2x1600000.Idx → BitVec 32) (p : Fin 50000) :
    normCol (normalisers (degrees (colWords a1))) (ix2 p (0 : Fin 1))
      = GcnSpec.norm (fun e : Fin 1600000 => a1 (ix2 (1 : Fin 2) e)) p :=
  (column_at _ p).trans ((guarded_at _ p).trans (congrArg GcnSpec.guarded ((degree_at _ p).trans
    (congrArg (fun f => GcnSpec.degree f p) (funext fun e => target_word a1 _ _ e)))))

/-- The rows of words as functions of the edge number. -/
theorem rowWords_fun (a1 : S2x1600000.Idx → BitVec 32) :
    (fun e : Fin 1600000 => rowWords a1 (ix1 e)) = fun e => a1 (ix2 (0 : Fin 2) e) :=
  funext fun e => source_word a1 _ _ e
theorem colWords_fun (a1 : S2x1600000.Idx → BitVec 32) :
    (fun e : Fin 1600000 => colWords a1 (ix1 e)) = fun e => a1 (ix2 (1 : Fin 2) e) :=
  funext fun e => target_word a1 _ _ e

/-- The positive part of the width-50 aggregation is the specification's hidden layer, once the aggregated table is the
    projected features scaled by the normaliser column, the two rows of words are the edge array's, the column is the
    normalisers and the row vector is the bias. -/
theorem hidden_of (R : FVec Ideal S50000x50 .f32) (ROW COL : IVec S1600000 32) (DCOL : FVec Ideal S50000x1 .f32)
    (B : FVec Ideal S50 .f32) (a1 : S2x1600000.Idx → BitVec 32)
    (x : Fin 50000 → Fin 512 → EReal) (w1 : Fin 512 → Fin 50 → EReal) (b1 : Fin 50 → EReal)
    (hROW : ROW = rowWords a1) (hCOL : COL = colWords a1)
    (hD : ∀ p : Fin 50000, DCOL (ix2 p (0 : Fin 1)) = GcnSpec.norm (fun e : Fin 1600000 => a1 (ix2 (1 : Fin 2) e)) p)
    (hB : ∀ k : Fin 50, B (ix1 k) = b1 k)
    (hR : ∀ (p : Fin 50000) (k : Fin 50), R (ix2 p k) = (∑ t : Fin 512, x p t * w1 t k) * DCOL (ix2 p (0 : Fin 1)))
    (p : Fin 50000) (k : Fin 50) :
    relu50 (aggregate50 R ROW COL DCOL B) (ix2 p k)
      = GcnSpec.hidden x w1 b1 (fun e : Fin 1600000 => a1 (ix2 (0 : Fin 2) e))
          (fun e : Fin 1600000 => a1 (ix2 (1 : Fin 2) e)) p k := by
  subst hROW hCOL
  refine (relu_at _ p k).trans ?_
  unfold GcnSpec.hidden
  refine congrArg (fun v => max v (Ideal.ofBits .f32 0x00000000#32)) ?_
  refine (layer50_spec R _ _ DCOL B (fun p q => ∑ t : Fin 512, x p t * w1 t q) hR p k).trans ?_
  rw [rowWords_fun a1, colWords_fun a1,
    show (fun p : Fin 50000 => DCOL (ix2 p (0 : Fin 1))) = GcnSpec.norm (fun e : Fin 1600000 => a1 (ix2 (1 : Fin 2) e)) from funext hD,
    show (fun k : Fin 50 => B (ix1 k)) = b1 from funext hB]

/-- The width-10 aggregation is the specification's layer, under the same hypotheses at width 10. -/
theorem layer10_of (R : FVec Ideal S50000x10 .f32) (ROW COL : IVec S1600000 32) (DCOL : FVec Ideal S50000x1 .f32)
    (B : FVec Ideal S10 .f32) (a1 : S2x1600000.Idx → BitVec 32)
    (xw : Fin 50000 → Fin 10 → EReal) (b2 : Fin 10 → EReal)
    (hROW : ROW = rowWords a1) (hCOL : COL = colWords a1)
    (hD : ∀ p : Fin 50000, DCOL (ix2 p (0 : Fin 1)) = GcnSpec.norm (fun e : Fin 1600000 => a1 (ix2 (1 : Fin 2) e)) p)
    (hB : ∀ k : Fin 10, B (ix1 k) = b2 k)
    (hR : ∀ (p : Fin 50000) (k : Fin 10), R (ix2 p k) = xw p k * DCOL (ix2 p (0 : Fin 1)))
    (j : Fin 50000) (q : Fin 10) :
    aggregate10 R ROW COL DCOL B (ix2 j q)
      = GcnSpec.layer (fun e : Fin 1600000 => a1 (ix2 (0 : Fin 2) e)) (fun e : Fin 1600000 => a1 (ix2 (1 : Fin 2) e))
          (GcnSpec.norm (fun e : Fin 1600000 => a1 (ix2 (1 : Fin 2) e))) xw b2 j q := by
  subst hROW hCOL
  refine (layer10_spec R _ _ DCOL B xw hR j q).trans ?_
  rw [rowWords_fun a1, colWords_fun a1,
    show (fun p : Fin 50000 => DCOL (ix2 p (0 : Fin 1))) = GcnSpec.norm (fun e : Fin 1600000 => a1 (ix2 (1 : Fin 2) e)) from funext hD,
    show (fun k : Fin 10 => B (ix1 k)) = b2 from funext hB]

/-! ## At the buffer contents of the run -/

variable (m : (ℓ : Loc nD τ sig) → Buf (Elt Ideal) ℓ) (ρ : Dev nD → PrngReg) (c : Dev nD)

/-- The normaliser column at the first region's entry, at node `p`, is the specification's normaliser of `p` over the
    launch edge array's target words. -/
theorem normaliser_at (p : Fin 50000) :
    (W3 m ρ c (Proc.devRef .tc main_v14) : S50000x1.Idx → EReal) (ix2 p (0 : Fin 1))
      = GcnSpec.norm (fun e : Fin 1600000 =>
          (m ((c : Thread nD τ).loc main_arg1) : S2x1600000.Idx → BitVec 32) (ix2 (1 : Fin 2) e)) p :=
  (congrFun (W3_v14 m ρ c) (ix2 p (0 : Fin 1))).trans (normCol_at _ p)

/-- What the second region finds in its first array is the specification's hidden layer of the launch arrays: the
    first region's output is the projected features scaled by the normaliser column (the region's three entry arrays
    being the launch features, the launch weights and that column), and the two lines between the regions aggregate
    it and cut it at zero. -/
theorem hidden_at (p : Fin 50000) (k : Fin 50) :
    (W6 m ρ c (Proc.devRef .tc main_v32) : S50000x50.Idx → EReal) (ix2 p k)
      = GcnSpec.hidden
          (fun p t => (m ((c : Thread nD τ).loc main_arg0) : S50000x512.Idx → EReal) (ix2 p t))
          (fun t k => (m ((c : Thread nD τ).loc main_arg4) : S512x50.Idx → EReal) (ix2 t k))
          (fun k => (m ((c : Thread nD τ).loc main_arg5) : S50.Idx → EReal) (ix1 k))
          (fun e : Fin 1600000 => (m ((c : Thread nD τ).loc main_arg1) : S2x1600000.Idx → BitVec 32) (ix2 (0 : Fin 2) e))
          (fun e : Fin 1600000 => (m ((c : Thread nD τ).loc main_arg1) : S2x1600000.Idx → BitVec 32) (ix2 (1 : Fin 2) e))
          p k := by
  refine (congrFun (W6_v32 m ρ c) (ix2 p k)).trans ?_
  refine hidden_of _ _ _ _ _ (m ((c : Thread nD τ).loc main_arg1)) _ _ _ ?hROW ?hCOL ?hD ?hB ?hR p k
  case hROW => exact (carry4_v1 m ρ c).trans (W3_v1 m ρ c)
  case hCOL => exact (carry4_v3 m ρ c).trans (W3_v3 m ρ c)
  case hD => intro p; exact (congrFun (carry4_v14 m ρ c) (ix2 p (0 : Fin 1))).trans (normaliser_at m ρ c p)
  case hB => intro k; exact congrFun ((carry4_arg5 m ρ c).trans (carry3_arg5 m ρ c)) (ix1 k)
  case hR =>
    intro p k
    refine (congrFun (out4_v15 m ρ c) (ix2 p k)).trans ?_
    exact region0_rows_of (V3 m ρ) c _ _ _ (carry3_arg0 m ρ c) (carry3_arg4 m ρ c) (carry4_v14 m ρ c).symm p k

/-- THE KERNEL'S EMBEDDING IS THE SPECIFICATION'S: the width-10 aggregation of the second region's output — the hidden
    layer projected by the second weight matrix and scaled by the normaliser column — over the edge words, the column
    and the second bias as they stand at the second region's exit, all of them the launch arrays' functions. -/
theorem kernel_embedding (j : Fin 50000) (q : Fin 10) :
    aggregate10 (W7 m ρ c (Proc.devRef .tc main_v33)) (W7 m ρ c (Proc.devRef .tc main_v1))
        (W7 m ρ c (Proc.devRef .tc main_v3)) (W7 m ρ c (Proc.devRef .tc main_v14))
        (W7 m ρ c (Proc.devRef .tc main_arg7)) (ix2 j q)
      = GcnSpec.embedding
          (fun p t => (m ((c : Thread nD τ).loc main_arg0) : S50000x512.Idx → EReal) (ix2 p t))
          (fun t k => (m ((c : Thread nD τ).loc main_arg4) : S512x50.Idx → EReal) (ix2 t k))
          (fun k => (m ((c : Thread nD τ).loc main_arg5) : S50.Idx → EReal) (ix1 k))
          (fun k q => (m ((c : Thread nD τ).loc main_arg6) : S50x10.Idx → EReal) (ix2 k q))
          (fun q => (m ((c : Thread nD τ).loc main_arg7) : S10.Idx → EReal) (ix1 q))
          (fun e : Fin 1600000 => (m ((c : Thread nD τ).loc main_arg1) : S2x1600000.Idx → BitVec 32) (ix2 (0 : Fin 2) e))
          (fun e : Fin 1600000 => (m ((c : Thread nD τ).loc main_arg1) : S2x1600000.Idx → BitVec 32) (ix2 (1 : Fin 2) e))
          j q := by
  unfold GcnSpec.embedding
  refine layer10_of _ _ _ _ _ (m ((c : Thread nD τ).loc main_arg1)) _ _ ?hROW ?hCOL ?hD ?hB ?hR j q
  case hROW => exact (carry7_v1 m ρ c).trans (W3_v1 m ρ c)
  case hCOL => exact (carry7_v3 m ρ c).trans (W3_v3 m ρ c)
  case hD => intro p; exact (congrFun (carry7_v14 m ρ c) (ix2 p (0 : Fin 1))).trans (normaliser_at m ρ c p)
  case hB => intro k; exact congrFun ((carry7_arg7 m ρ c).trans (carry3_arg7 m ρ c)) (ix1 k)
  case hR =>
    intro p k
    refine (congrFun (out7_v33 m ρ c) (ix2 p k)).trans ?_
    refine (region1_rows_of (V6 m ρ) c _ _ _ rfl (carry6_arg6 m ρ c)
      ((carry6_v14 m ρ c).trans (carry7_v14 m ρ c).symm) p k).trans ?_
    exact congrArg (· * _) (Finset.sum_congr rfl fun k' _ => congrArg (· * _) (hidden_at m ρ c p k'))

end Cert.KernelIdeal.GcnValue

end
-- ==== Proof.RefDecode.lean ====
import proofs.«166101_j23072564314311_2_alg».proof.Proof.RefReadPatched
import proofs.«166101_j23072564314311_2_alg».proof.Proof.KernelStages

/-!
# The reference's last stage is the kernel program's

After its second layer the reference program does what the kernel program's last line of array
operations does after ITS second layer: the two 2×100000 integer arrays are put side by side, each of
the two rows of the result is read as a vector of 200000 words, a word below zero is moved up by
50000, the rows of the 50000×10 layer output are gathered at the words, the two gathered matrices are
multiplied entry by entry and every row of the product is summed from zero.

The reference's operations are written over its own copies of the shapes and of the operations'
records; the copies are the same literals, so once the layer output is a variable the two terms are
the same term.  `ref_decode` says so: the reference's result is `decode` of its own layer output
`val_main_v94` and the two integer arrays.
-/

noncomputable section

namespace Cert.ReferenceIdeal.GcnDecode

open Cert.ReferenceIdeal Idealize.ShloMosaic

variable (x0 : (⟨S50000x512, .f32⟩ : BufTy).Contents (Elt Ideal)) (x1 : (⟨S2x1600000, .i32⟩ : BufTy).Contents (Elt Ideal))
  (x2 x3 : (⟨S2x100000, .i32⟩ : BufTy).Contents (Elt Ideal)) (x4 : (⟨S512x50, .f32⟩ : BufTy).Contents (Elt Ideal))
  (x5 : (⟨S50, .f32⟩ : BufTy).Contents (Elt Ideal)) (x6 : (⟨S50x10, .f32⟩ : BufTy).Contents (Elt Ideal))
  (x7 : (⟨S10, .f32⟩ : BufTy).Contents (Elt Ideal))

/-- The reference's result is the pair scoring `decode` applied to the reference's own second-layer output and the two
    integer arrays: the layer output is made a variable first, so that the comparison of the two terms opens nothing
    but the last stage's operations. -/
theorem ref_decode : ReadP.val_main_v115 (F := Ideal) x0 x1 x2 x3 x4 x5 x6 x7
    = Cert.KernelIdeal.GcnStages.decode (ReadP.val_main_v94 (F := Ideal) x0 x1 x4 x5 x6 x7) x2 x3 := by
  unfold ReadP.val_main_v115 ReadP.val_main_v114 ReadP.val_main_v104 ReadP.val_main_v113
  generalize ReadP.val_main_v94 (F := Ideal) x0 x1 x4 x5 x6 x7 = z
  unfold ReadP.val_main_v103 ReadP.val_main_v112 ReadP.val_main_v102 ReadP.val_main_v111 ReadP.val_main_v101 ReadP.val_main_v110
    ReadP.val_main_v99 ReadP.val_main_v108 ReadP.val_main_v98 ReadP.val_main_v100 ReadP.val_main_v107 ReadP.val_main_v109
    ReadP.val_main_v97 ReadP.val_main_v106 ReadP.val_main_v96 ReadP.val_main_v105 ReadP.val_main_v95
    ReadP.val_main_c_20 ReadP.val_main_c_21 ReadP.val_main_c_22 ReadP.val_main_c_23 ReadP.val_main_cst_24
  unfold Cert.KernelIdeal.GcnStages.decode Cert.KernelIdeal.GcnStages.wrapPairWords Cert.KernelIdeal.GcnStages.pairWords
  rfl

end Cert.ReferenceIdeal.GcnDecode

end
-- ==== Proof.RefLayerOps.lean ====
/-
  The operations of one graph-convolution layer of the reference, read at an index, over variable arrays.

  The reference keeps the edges as one list of 1650000 words: the 1600000 given words followed by the
  50000 nodes' own numbers. A gather's start index is the edge's word wrapped (a negative word moved up by
  50000) and carried on a trailing unit axis; a scatter's index is the word itself on the same unit axis.
  Read at an index, a wrapped gather reads its table at the word's node, and an accumulating scatter adds
  the updates of the edges whose word, read signed, is the target node. A layer's scatter of the gathered
  rows, each scaled by the product of two gathered normalisers, is therefore the sum over the joined edges
  into a node that the specification's joined arrangement states.
-/
import Idealize.ShloMosaic.Lib.Pipeline.Value
import Idealize.ShloMosaic.Lib.ValueIdx
import Idealize.ShloMosaic.Lib.IdealHost
import proofs.«166101_j23072564314311_2_alg».proof.Proof.GcnSpec
import proofs.«166101_j23072564314311_2_alg».proof.Proof.LibScatterGather

noncomputable section

open scoped BigOperators

namespace Cert.ReferenceIdeal.GcnRef

open Idealize.ShloMosaic Idealize.ShloMosaic.ValueIdx Cert.GcnSpec

/-! ## The unit axis and the wrapped word -/

/-- A vector of edge words carried on a trailing unit axis reads, at edge e, the word of e. -/
theorem unit_axis_apply {α : Type}
    (hb : (⟨1, ![1650000]⟩ : Shape).BroadcastsInDim ⟨2, ![1650000, 1]⟩ ![0])
    (w : (⟨1, ![1650000]⟩ : Shape).Idx → α) (e : Fin 1650000) :
    broadcastInDim (⟨2, ![1650000, 1]⟩ : Shape) ![0] hb w (ix2 e ⟨0, Nat.one_pos⟩) = w (ix1 e) :=
  broadcastInDim_apply ![0] hb w (ix2 e ⟨0, Nat.one_pos⟩) (ix1 e) (fun a => match a with | ⟨0, _⟩ => rfl)

/-- The select of word + 50000 where the word compares below zero, else the word, is the wrapped word. -/
theorem wrapped_apply (w z f : IVec ⟨1, ![1650000]⟩ 32) (i : (⟨1, ![1650000]⟩ : Shape).Idx)
    (hz : z i = 0#32) (hf : f i = 50000#32) :
    select (cmpi .slt w z) (addi w f) w i = wrapWord (w i) := by
  show Scalar.select (IntOp.cmpi .slt (w i) (z i)) (IntOp.addi (w i) (f i)) (w i) = _
  rw [hz, hf]
  rfl

/-! ## Gathers through a wrapped word -/

/-- A gather from a vector over the nodes, its start indices the wrapped edge words: at edge e it reads the
    vector at the node of e's word. -/
theorem gather1_wrapped {α : Type}
    (d : GatherDims ⟨1, ![50000]⟩ ⟨2, ![1650000, 1]⟩ ⟨1, ![1650000]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (hb : (⟨1, ![1650000]⟩ : Shape).BroadcastsInDim ⟨2, ![1650000, 1]⟩ ![0])
    (x : (⟨1, ![50000]⟩ : Shape).Idx → α) (w z f : IVec ⟨1, ![1650000]⟩ 32)
    (hz : ∀ i, z i = 0#32) (hf : ∀ i, f i = 50000#32) (e : Fin 1650000) :
    Host.gather d x (broadcastInDim (⟨2, ![1650000, 1]⟩ : Shape) ![0] hb (select (cmpi .slt w z) (addi w f) w)) (ix1 e)
      = x (ix1 (node (w (ix1 e)))) := by
  have h : broadcastInDim (⟨2, ![1650000, 1]⟩ : Shape) ![0] hb (select (cmpi .slt w z) (addi w f) w) (ix2 e ⟨0, Nat.one_pos⟩)
      = wrapWord (w (ix1 e)) :=
    (unit_axis_apply hb _ e).trans (wrapped_apply w z f (ix1 e) (hz _) (hf _))
  refine (Cert.ScatterGather.gather1_apply (by omega) d hod hcd hob hsb hsm hiv hss x _ e).trans ?_
  refine congrArg x (congrArg ix1 (Fin.ext ?_))
  show min (_ : BitVec 32).toInt.toNat (50000 - 1) = min (wrapWord (w (ix1 e))).toInt.toNat (50000 - 1)
  rw [h]

/-- A gather of rows from a table over the nodes, its start indices the wrapped edge words: at edge e and
    feature k it reads the table's row of the node of e's word, at k. -/
theorem gather2_wrapped {α : Type} {C : Nat}
    (d : GatherDims ⟨2, ![50000, C]⟩ ⟨2, ![1650000, 1]⟩ ⟨2, ![1650000, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (hb : (⟨1, ![1650000]⟩ : Shape).BroadcastsInDim ⟨2, ![1650000, 1]⟩ ![0])
    (x : (⟨2, ![50000, C]⟩ : Shape).Idx → α) (w z f : IVec ⟨1, ![1650000]⟩ 32)
    (hz : ∀ i, z i = 0#32) (hf : ∀ i, f i = 50000#32) (e : Fin 1650000) (k : Fin C) :
    Host.gather d x (broadcastInDim (⟨2, ![1650000, 1]⟩ : Shape) ![0] hb (select (cmpi .slt w z) (addi w f) w)) (ix2 e k)
      = x (ix2 (node (w (ix1 e))) k) := by
  have h : broadcastInDim (⟨2, ![1650000, 1]⟩ : Shape) ![0] hb (select (cmpi .slt w z) (addi w f) w) (ix2 e ⟨0, Nat.one_pos⟩)
      = wrapWord (w (ix1 e)) :=
    (unit_axis_apply hb _ e).trans (wrapped_apply w z f (ix1 e) (hz _) (hf _))
  refine (Cert.ScatterGather.gather2_apply (by omega) d hod hcd hob hsb hsm hiv hss x _ e k).trans ?_
  refine congrArg x (congrArg (fun p : Fin 50000 => ix2 p k) (Fin.ext ?_))
  show min (_ : BitVec 32).toInt.toNat (50000 - 1) = min (wrapWord (w (ix1 e))).toInt.toNat (50000 - 1)
  rw [h]

/-! ## Scatters along the edge words -/

/-- An accumulating scatter into a vector over the nodes, its indices the edge words: at node j, the operand
    plus the updates of the edges into j. -/
theorem scatter1_joined
    (d : ScatterDims ⟨1, ![50000]⟩ ⟨2, ![1650000, 1]⟩ ⟨1, ![1650000]⟩)
    (huw : d.updateWindowDims = []) (hiw : d.insertedWindowDims = [0])
    (hsd : d.scatterDimsToOperandDims = [0]) (hiv : d.indexVectorDim = 1)
    (hb : (⟨1, ![1650000]⟩ : Shape).BroadcastsInDim ⟨2, ![1650000, 1]⟩ ![0])
    (x : FVec Ideal ⟨1, ![50000]⟩ .f32) (w : IVec ⟨1, ![1650000]⟩ 32)
    (upd : FVec Ideal ⟨1, ![1650000]⟩ .f32) (j : Fin 50000) :
    Host.scatterAdd (F := Ideal) d x (broadcastInDim (⟨2, ![1650000, 1]⟩ : Shape) ![0] hb w) upd (ix1 j)
      = x (ix1 j) + ∑ e ∈ into (fun e : Fin 1650000 => w (ix1 e)) j, upd (ix1 e) := by
  unfold Host.scatterAdd
  rw [Ideal.hostScatterAdd_def, Cert.ScatterGather.scatterAdd1_apply d huw hiw hsd hiv]
  unfold into
  simp only [unit_axis_apply hb w]

/-- An accumulating scatter of rows into a table over the nodes, its indices the edge words: at node j and
    feature k, the operand plus the updates, at k, of the edges into j. -/
theorem scatter2_joined {C : Nat}
    (d : ScatterDims ⟨2, ![50000, C]⟩ ⟨2, ![1650000, 1]⟩ ⟨2, ![1650000, C]⟩)
    (huw : d.updateWindowDims = [1]) (hiw : d.insertedWindowDims = [0])
    (hsd : d.scatterDimsToOperandDims = [0]) (hiv : d.indexVectorDim = 1)
    (hb : (⟨1, ![1650000]⟩ : Shape).BroadcastsInDim ⟨2, ![1650000, 1]⟩ ![0])
    (x : FVec Ideal ⟨2, ![50000, C]⟩ .f32) (w : IVec ⟨1, ![1650000]⟩ 32)
    (upd : FVec Ideal ⟨2, ![1650000, C]⟩ .f32) (j : Fin 50000) (k : Fin C) :
    Host.scatterAdd (F := Ideal) d x (broadcastInDim (⟨2, ![1650000, 1]⟩ : Shape) ![0] hb w) upd (ix2 j k)
      = x (ix2 j k) + ∑ e ∈ into (fun e : Fin 1650000 => w (ix1 e)) j, upd (ix2 e k) := by
  unfold Host.scatterAdd
  rw [Ideal.hostScatterAdd_def, Cert.ScatterGather.scatterAdd2_apply d huw hiw hsd hiv]
  unfold into
  simp only [unit_axis_apply hb w]

/-! ## The degree vector and the normaliser -/

/-- The scatter of ones into zeros along the target words counts, at node j, the joined edges into j. -/
theorem degree_read
    (d : ScatterDims ⟨1, ![50000]⟩ ⟨2, ![1650000, 1]⟩ ⟨1, ![1650000]⟩)
    (huw : d.updateWindowDims = []) (hiw : d.insertedWindowDims = [0])
    (hsd : d.scatterDimsToOperandDims = [0]) (hiv : d.indexVectorDim = 1)
    (hb : (⟨1, ![1650000]⟩ : Shape).BroadcastsInDim ⟨2, ![1650000, 1]⟩ ![0])
    (zero : FVec Ideal ⟨1, ![50000]⟩ .f32) (one : FVec Ideal ⟨1, ![1650000]⟩ .f32)
    (hzero : ∀ i, zero i = Ideal.ofBits .f32 0x00000000#32) (hone : ∀ i, one i = Ideal.ofBits .f32 0x3F800000#32)
    (w : IVec ⟨1, ![1650000]⟩ 32) (j : Fin 50000) :
    Host.scatterAdd (F := Ideal) d zero (broadcastInDim (⟨2, ![1650000, 1]⟩ : Shape) ![0] hb w) one (ix1 j)
      = 0 + ∑ _e ∈ into (fun e : Fin 1650000 => w (ix1 e)) j, (1 : EReal) := by
  rw [scatter1_joined d huw hiw hsd hiv hb, hzero, Ideal.ofBits_zero_f32]
  simp only [hone, Ideal.ofBits_one_f32]

/-- The select of the reciprocal square root where the degree compares above zero, else zero, is the guarded
    reciprocal square root of the degree. -/
theorem guarded_read (deg z0 z1 : FVec Ideal ⟨1, ![50000]⟩ .f32) (i : (⟨1, ![50000]⟩ : Shape).Idx)
    (h0 : z0 i = Ideal.ofBits .f32 0x00000000#32) (h1 : z1 i = Ideal.ofBits .f32 0x00000000#32) :
    select (cmpf .ogt deg z0) (Host.rsqrt deg) z1 i = guarded (deg i) := by
  show Scalar.select (FloatOps.cmpf .ogt (deg i) (z0 i)) (FloatOps.hostUnary .rsqrt (deg i)) (z1 i) = _
  rw [h0, h1]
  rfl

/-! ## A layer's scatter -/

/-- A per-edge factor carried on a unit axis and then along the features reads, at edge e and any feature,
    the factor of e. -/
theorem along_features_apply {α : Type} {C : Nat}
    (hb : (⟨1, ![1650000]⟩ : Shape).BroadcastsInDim ⟨2, ![1650000, 1]⟩ ![0])
    (hb2 : (⟨2, ![1650000, 1]⟩ : Shape).BroadcastsInDim ⟨2, ![1650000, C]⟩ ![0, 1])
    (v : (⟨1, ![1650000]⟩ : Shape).Idx → α) (e : Fin 1650000) (k : Fin C) :
    broadcastInDim (⟨2, ![1650000, C]⟩ : Shape) ![0, 1] hb2
        (broadcastInDim (⟨2, ![1650000, 1]⟩ : Shape) ![0] hb v) (ix2 e k) = v (ix1 e) :=
  (broadcastInDim_apply ![0, 1] hb2 _ (ix2 e k) (ix2 e ⟨0, Nat.one_pos⟩)
    (fun a => match a with | ⟨0, _⟩ => rfl | ⟨1, _⟩ => rfl)).trans (unit_axis_apply hb v e)

/-- THE LAYER'S SCATTER. Into zeros, along the target words, of the table's rows gathered at the wrapped source
    words, each row scaled by the product of the normalisers gathered at the wrapped source and target words:
    at node j and feature q, the sum over the joined edges into j of the source's row at q times the two
    normalisers. -/
theorem layer_read {C : Nat}
    (dS : ScatterDims ⟨2, ![50000, C]⟩ ⟨2, ![1650000, 1]⟩ ⟨2, ![1650000, C]⟩)
    (huw : dS.updateWindowDims = [1]) (hiw : dS.insertedWindowDims = [0])
    (hsd : dS.scatterDimsToOperandDims = [0]) (hiv : dS.indexVectorDim = 1)
    (dT : GatherDims ⟨2, ![50000, C]⟩ ⟨2, ![1650000, 1]⟩ ⟨2, ![1650000, C]⟩)
    (tod : dT.offsetDims = [1]) (tcd : dT.collapsedSliceDims = [0]) (tob : dT.operandBatchingDims = [])
    (tsb : dT.startIndicesBatchingDims = []) (tsm : dT.startIndexMap = [0]) (tiv : dT.indexVectorDim = 1)
    (tss : dT.sliceSizes = ![1, C])
    (dV : GatherDims ⟨1, ![50000]⟩ ⟨2, ![1650000, 1]⟩ ⟨1, ![1650000]⟩)
    (vod : dV.offsetDims = []) (vcd : dV.collapsedSliceDims = [0]) (vob : dV.operandBatchingDims = [])
    (vsb : dV.startIndicesBatchingDims = []) (vsm : dV.startIndexMap = [0]) (viv : dV.indexVectorDim = 1)
    (vss : dV.sliceSizes = ![1])
    (hb : (⟨1, ![1650000]⟩ : Shape).BroadcastsInDim ⟨2, ![1650000, 1]⟩ ![0])
    (hb2 : (⟨2, ![1650000, 1]⟩ : Shape).BroadcastsInDim ⟨2, ![1650000, C]⟩ ![0, 1])
    (zero : FVec Ideal ⟨2, ![50000, C]⟩ .f32) (hzero : ∀ i, zero i = Ideal.ofBits .f32 0x00000000#32)
    (wr wc z1 f1 z2 f2 z3 f3 : IVec ⟨1, ![1650000]⟩ 32)
    (hz1 : ∀ i, z1 i = 0#32) (hf1 : ∀ i, f1 i = 50000#32)
    (hz2 : ∀ i, z2 i = 0#32) (hf2 : ∀ i, f2 i = 50000#32)
    (hz3 : ∀ i, z3 i = 0#32) (hf3 : ∀ i, f3 i = 50000#32)
    (dnv : FVec Ideal ⟨1, ![50000]⟩ .f32) (xwv : FVec Ideal ⟨2, ![50000, C]⟩ .f32) (j : Fin 50000) (q : Fin C) :
    Host.scatterAdd (F := Ideal) dS zero (broadcastInDim (⟨2, ![1650000, 1]⟩ : Shape) ![0] hb wc)
        (mulf (Host.gather dT xwv
            (broadcastInDim (⟨2, ![1650000, 1]⟩ : Shape) ![0] hb (select (cmpi .slt wr z3) (addi wr f3) wr)))
          (broadcastInDim (⟨2, ![1650000, C]⟩ : Shape) ![0, 1] hb2
            (broadcastInDim (⟨2, ![1650000, 1]⟩ : Shape) ![0] hb
              (mulf (Host.gather dV dnv
                  (broadcastInDim (⟨2, ![1650000, 1]⟩ : Shape) ![0] hb (select (cmpi .slt wr z1) (addi wr f1) wr)))
                (Host.gather dV dnv
                  (broadcastInDim (⟨2, ![1650000, 1]⟩ : Shape) ![0] hb (select (cmpi .slt wc z2) (addi wc f2) wc)))))))
        (ix2 j q)
      = 0 + ∑ e ∈ into (fun e : Fin 1650000 => wc (ix1 e)) j,
          xwv (ix2 (node (wr (ix1 e))) q) * (dnv (ix1 (node (wr (ix1 e)))) * dnv (ix1 (node (wc (ix1 e))))) := by
  rw [scatter2_joined dS huw hiw hsd hiv hb, hzero, Ideal.ofBits_zero_f32]
  refine congrArg (fun t : EReal => 0 + t) (Finset.sum_congr rfl fun e _ => ?_)
  rw [mulf_apply, gather2_wrapped dT tod tcd tob tsb tsm tiv tss hb xwv wr z3 f3 hz3 hf3,
    along_features_apply hb hb2, mulf_apply,
    gather1_wrapped dV vod vcd vob vsb vsm viv vss hb dnv wr z1 f1 hz1 hf1,
    gather1_wrapped dV vod vcd vob vsb vsm viv vss hb dnv wc z2 f2 hz2 hf2]

/-! ## From the reads to the specification's layer -/

/-- A program whose joined words are the given words followed by the nodes' numbers, whose degree vector counts
    the joined edges into a node, whose normaliser is the guarded reciprocal square root of the degree, and whose
    result is the joined arrangement plus the bias, computes the specification's layer. -/
theorem layer_of_reads {C : Nat} (row col : Fin 1600000 → BitVec 32) (crow ccol : Fin 1650000 → BitVec 32)
    (hr0 : ∀ e : Fin 1600000, crow (Fin.castAdd 50000 e) = row e)
    (hr1 : ∀ i : Fin 50000, crow (Fin.natAdd 1600000 i) = BitVec.ofNat 32 i.val)
    (hc0 : ∀ e : Fin 1600000, ccol (Fin.castAdd 50000 e) = col e)
    (hc1 : ∀ i : Fin 50000, ccol (Fin.natAdd 1600000 i) = BitVec.ofNat 32 i.val)
    (deg dn : Fin 50000 → EReal)
    (hdeg : ∀ p, deg p = 0 + ∑ _e ∈ into ccol p, (1 : EReal))
    (hdn : ∀ p, dn p = guarded (deg p))
    (xw : Fin 50000 → Fin C → EReal) (b : Fin C → EReal) (j : Fin 50000) (q : Fin C) :
    (0 + ∑ e ∈ into ccol j, xw (node (crow e)) q * (dn (node (crow e)) * dn (node (ccol e)))) + b q
      = layer row col (norm col) xw b j q := by
  have hn : dn = norm col := funext fun p =>
    (hdn p).trans (congrArg guarded ((hdeg p).trans (degree_joined col ccol hc0 hc1 p)))
  rw [hn]
  exact joined_layer row col crow ccol hr0 hr1 hc0 hc1 (norm col) (norm_real col) xw b j q

/-! ## The joined words -/

/-- The joined list at one of the first 1600000 positions reads the given words. -/
theorem joined_left {α : Type}
    (h : Shape.Concatenates [(⟨1, ![1600000]⟩ : Shape), ⟨1, ![50000]⟩] ⟨1, ![1650000]⟩ 0)
    (a : (⟨1, ![1600000]⟩ : Shape).Idx → α) (b : (⟨1, ![50000]⟩ : Shape).Idx → α) (e : Fin 1600000) :
    concatenate (⟨1, ![1650000]⟩ : Shape) 0 [⟨⟨1, ![1600000]⟩, a⟩, ⟨⟨1, ![50000]⟩, b⟩] h (ix1 (Fin.castAdd 50000 e))
      = a (ix1 e) :=
  concatenate_pair_apply_left 0 a b h _ rfl (ix1 e) (fun c => match c with | ⟨0, _⟩ => rfl)

/-- The joined list at one of the last 50000 positions reads the second piece. -/
theorem joined_right {α : Type}
    (h : Shape.Concatenates [(⟨1, ![1600000]⟩ : Shape), ⟨1, ![50000]⟩] ⟨1, ![1650000]⟩ 0)
    (a : (⟨1, ![1600000]⟩ : Shape).Idx → α) (b : (⟨1, ![50000]⟩ : Shape).Idx → α) (i : Fin 50000) :
    concatenate (⟨1, ![1650000]⟩ : Shape) 0 [⟨⟨1, ![1600000]⟩, a⟩, ⟨⟨1, ![50000]⟩, b⟩] h (ix1 (Fin.natAdd 1600000 i))
      = b (ix1 i) :=
  concatenate_pair_apply_right 0 a b h _ rfl rfl (ix1 i)
    (fun c hc => absurd (Subsingleton.elim _ _) hc)
    (by show i.val + 1600000 = 1600000 + i.val; omega)

end Cert.ReferenceIdeal.GcnRef

end
-- ==== Proof.RefLayers.lean ====
/-
  The reference program's two graph-convolution layers, read index by index at the ideal instance.

  The reference joins the 1600000 source words (row 0 of the edge array) and the 1600000 target words (row 1)
  each with the 50000 nodes' own numbers, counts the joined edges into every node by scattering ones along the
  joined target words, takes the guarded reciprocal square root of the counts as the nodes' normalisers, and,
  for a table of projected rows, scatters along the joined target words the rows gathered at the joined source
  words, each scaled by the product of its two endpoints' normalisers, then adds the bias. Read at an index
  that is the joined arrangement of the specification's layer, hence the layer. The first layer's table is
  the features times the first weights, and its result goes through the positive part; the second layer's
  table is that hidden layer times the second weights. The second layer recomputes the joined words, the
  counts and the normalisers by operations that are, term for term, the first layer's.
-/
import proofs.«166101_j23072564314311_2_alg».proof.Proof.RefReadPatched
import proofs.«166101_j23072564314311_2_alg».proof.Proof.RefLayerOps

noncomputable section

open scoped BigOperators

namespace Cert.ReferenceIdeal.GcnRef

open Cert.ReferenceIdeal Cert.ReferenceIdeal.Gen Cert.ReferenceIdeal.ReadP Idealize.ShloMosaic
  Idealize.ShloMosaic.ValueIdx Cert.GcnSpec

variable (x0 : (⟨S50000x512, .f32⟩ : BufTy).Contents (Elt Ideal)) (x1 : (⟨S2x1600000, .i32⟩ : BufTy).Contents (Elt Ideal))
  (x4 : (⟨S512x50, .f32⟩ : BufTy).Contents (Elt Ideal)) (x5 : (⟨S50, .f32⟩ : BufTy).Contents (Elt Ideal))
  (x6 : (⟨S50x10, .f32⟩ : BufTy).Contents (Elt Ideal)) (x7 : (⟨S10, .f32⟩ : BufTy).Contents (Elt Ideal))

/-! ## The joined words -/

/-- The source words are row 0 of the edge array. -/
theorem source_word (e : Fin 1600000) : val_main_v2 (F := Ideal) x1 (ix1 e) = x1 (ix2 (0 : Fin 2) e) := by
  rw [val_main_v2_apply, val_main_v1_apply]
  refine congrArg x1 (funext fun a => Fin.ext ?_)
  match a with
  | ⟨0, _⟩ => rfl
  | ⟨1, _⟩ => exact Nat.mod_eq_of_lt e.isLt

/-- The target words are row 1 of the edge array. -/
theorem target_word (e : Fin 1600000) : val_main_v4 (F := Ideal) x1 (ix1 e) = x1 (ix2 (1 : Fin 2) e) := by
  rw [val_main_v4_apply, val_main_v3_apply]
  refine congrArg x1 (funext fun a => Fin.ext ?_)
  match a with
  | ⟨0, _⟩ => rfl
  | ⟨1, _⟩ => exact Nat.mod_eq_of_lt e.isLt

/-- The joined source words: first the source words ... -/
theorem joined_source_left (e : Fin 1600000) :
    val_main_v6 (F := Ideal) x1 (ix1 (Fin.castAdd 50000 e)) = x1 (ix2 (0 : Fin 2) e) := by
  unfold val_main_v6
  exact (joined_left _ (val_main_v2 (F := Ideal) x1) (val_main_v5 (F := Ideal)) e).trans (source_word x1 e)

/-- ... then every node's own number. -/
theorem joined_source_right (i : Fin 50000) :
    val_main_v6 (F := Ideal) x1 (ix1 (Fin.natAdd 1600000 i)) = BitVec.ofNat 32 i.val := by
  unfold val_main_v6
  exact joined_right _ (val_main_v2 (F := Ideal) x1) (val_main_v5 (F := Ideal)) i

/-- The joined target words: first the target words ... -/
theorem joined_target_left (e : Fin 1600000) :
    val_main_v7 (F := Ideal) x1 (ix1 (Fin.castAdd 50000 e)) = x1 (ix2 (1 : Fin 2) e) := by
  unfold val_main_v7
  exact (joined_left _ (val_main_v4 (F := Ideal) x1) (val_main_v5 (F := Ideal)) e).trans (target_word x1 e)

/-- ... then every node's own number. -/
theorem joined_target_right (i : Fin 50000) :
    val_main_v7 (F := Ideal) x1 (ix1 (Fin.natAdd 1600000 i)) = BitVec.ofNat 32 i.val := by
  unfold val_main_v7
  exact joined_right _ (val_main_v4 (F := Ideal) x1) (val_main_v5 (F := Ideal)) i

/-! ## Degrees and normalisers -/

/-- The count vector at node p counts the joined edges into p. -/
theorem count_read (p : Fin 50000) :
    val_main_v11 (F := Ideal) x1 (ix1 p)
      = 0 + ∑ _e ∈ into (fun e : Fin 1650000 => val_main_v7 (F := Ideal) x1 (ix1 e)) p, (1 : EReal) := by
  unfold val_main_v11 val_main_v10
  exact degree_read scatter_S50000_S1650000x1_S1650000_n_0_0_1 rfl rfl rfl rfl _
    (val_main_v9 (F := Ideal)) (val_main_v8 (F := Ideal))
    (fun i => (val_main_v9_apply i).trans (val_main_cst_0_apply _))
    (fun i => (val_main_v8_apply i).trans (val_main_cst_apply _))
    (val_main_v7 (F := Ideal) x1) p

/-- The normaliser vector at node p is the guarded reciprocal square root of the count. -/
theorem normaliser_read (p : Fin 50000) :
    val_main_v15 (F := Ideal) x1 (ix1 p) = guarded (val_main_v11 (F := Ideal) x1 (ix1 p)) := by
  unfold val_main_v15 val_main_v13 val_main_v14
  exact guarded_read (val_main_v11 (F := Ideal) x1) (val_main_v12 (F := Ideal)) (val_main_call0_v1 (F := Ideal)) (ix1 p)
    ((val_main_v12_apply _).trans (val_main_cst_1_apply _))
    ((val_main_call0_v1_apply _).trans ((val_main_call0_v0_apply _).trans (val_main_cst_2_apply _)))

/-- The second layer's joined words and normalisers are the first layer's, term for term. -/
theorem second_source : val_main_v54 (F := Ideal) x1 = val_main_v6 (F := Ideal) x1 := rfl
theorem second_target : val_main_v55 (F := Ideal) x1 = val_main_v7 (F := Ideal) x1 := rfl
theorem second_normaliser : val_main_v63 (F := Ideal) x1 = val_main_v15 (F := Ideal) x1 := rfl

/-! ## The first layer -/

/-- The first layer's table: the features times the first weights. -/
theorem table1_read (p : Fin 50000) (q : Fin 50) :
    val_main_v0 (F := Ideal) x0 x4 (ix2 p q) = ∑ t : Fin 512, x0 (ix2 p t) * x4 (ix2 t q) := by
  rw [val_main_v0_apply]
  refine Finset.sum_congr rfl fun t _ => ?_
  have hl : lidx_main_v0 (ix2 p q) t = ix2 p t :=
    funext fun a => Fin.ext (by match a with | ⟨0, _⟩ => rfl | ⟨1, _⟩ => rfl)
  have hr : ridx_main_v0 (ix2 p q) t = ix2 t q :=
    funext fun a => Fin.ext (by match a with | ⟨0, _⟩ => rfl | ⟨1, _⟩ => rfl)
  rw [hl, hr]

/-- The first layer's scatter at node j, feature q: the joined arrangement's sum. -/
theorem aggregate1_read (j : Fin 50000) (q : Fin 50) :
    val_main_v43 (F := Ideal) x0 x1 x4 (ix2 j q)
      = 0 + ∑ e ∈ into (fun e : Fin 1650000 => val_main_v7 (F := Ideal) x1 (ix1 e)) j,
          val_main_v0 (F := Ideal) x0 x4 (ix2 (node (val_main_v6 (F := Ideal) x1 (ix1 e))) q)
            * (val_main_v15 (F := Ideal) x1 (ix1 (node (val_main_v6 (F := Ideal) x1 (ix1 e))))
              * val_main_v15 (F := Ideal) x1 (ix1 (node (val_main_v7 (F := Ideal) x1 (ix1 e))))) := by
  unfold val_main_v43 val_main_v42 val_main_v40 val_main_v39 val_main_v38 val_main_v37 val_main_v36 val_main_v35
    val_main_v34 val_main_v32 val_main_v30 val_main_v29 val_main_v28 val_main_v27 val_main_v26 val_main_v24
    val_main_v22 val_main_v21 val_main_v20 val_main_v19 val_main_v17
  exact layer_read (C := 50) scatter_S50000x50_S1650000x1_S1650000x50_1_0_0_1 rfl rfl rfl rfl
    gather_S50000x50_S1650000x1_S1650000x50_1_0_n_n_0_1_150 rfl rfl rfl rfl rfl rfl rfl
    gather_S50000_S1650000x1_S1650000_n_0_n_n_0_1_1 rfl rfl rfl rfl rfl rfl rfl
    Facts₀.bcast_S1650000_S1650000x1_0 Facts₀.bcast_S1650000x1_S1650000x50_0_1
    (val_main_v41 (F := Ideal)) (fun i => (val_main_v41_apply i).trans (val_main_cst_8_apply _))
    (val_main_v6 (F := Ideal) x1) (val_main_v7 (F := Ideal) x1)
    (val_main_v16 (F := Ideal)) (val_main_v18 (F := Ideal)) (val_main_v23 (F := Ideal)) (val_main_v25 (F := Ideal))
    (val_main_v31 (F := Ideal)) (val_main_v33 (F := Ideal))
    (fun i => (val_main_v16_apply i).trans (val_main_c_apply _)) (fun i => (val_main_v18_apply i).trans (val_main_c_3_apply _))
    (fun i => (val_main_v23_apply i).trans (val_main_c_4_apply _)) (fun i => (val_main_v25_apply i).trans (val_main_c_5_apply _))
    (fun i => (val_main_v31_apply i).trans (val_main_c_6_apply _)) (fun i => (val_main_v33_apply i).trans (val_main_c_7_apply _))
    (val_main_v15 (F := Ideal) x1) (val_main_v0 (F := Ideal) x0 x4) j q

/-- The first bias, carried along the nodes, reads the bias at the feature. -/
theorem bias1_read (j : Fin 50000) (q : Fin 50) : val_main_v45 (F := Ideal) x5 (ix2 j q) = x5 (ix1 q) := by
  rw [val_main_v45_apply, val_main_v44_apply]
  exact congrArg x5 (funext fun a => Fin.ext (by match a with | ⟨0, _⟩ => rfl))

/-- The first layer before the positive part is the specification's layer of the projected features. -/
theorem layer1_read (j : Fin 50000) (q : Fin 50) :
    val_main_v46 (F := Ideal) x0 x1 x4 x5 (ix2 j q)
      = GcnSpec.layer (fun e : Fin 1600000 => x1 (ix2 (0 : Fin 2) e)) (fun e : Fin 1600000 => x1 (ix2 (1 : Fin 2) e))
          (GcnSpec.norm (fun e : Fin 1600000 => x1 (ix2 (1 : Fin 2) e)))
          (fun p q => ∑ t : Fin 512, x0 (ix2 p t) * x4 (ix2 t q)) (fun q => x5 (ix1 q)) j q := by
  rw [val_main_v46_apply]
  show val_main_v43 (F := Ideal) x0 x1 x4 (ix2 j q) + val_main_v45 (F := Ideal) x5 (ix2 j q) = _
  rw [aggregate1_read, bias1_read]
  have hx : (fun (p : Fin 50000) (q : Fin 50) => val_main_v0 (F := Ideal) x0 x4 (ix2 p q))
      = fun p q => ∑ t : Fin 512, x0 (ix2 p t) * x4 (ix2 t q) :=
    funext fun p => funext fun q => table1_read x0 x4 p q
  exact (layer_of_reads (fun e : Fin 1600000 => x1 (ix2 (0 : Fin 2) e)) (fun e : Fin 1600000 => x1 (ix2 (1 : Fin 2) e))
    (fun e : Fin 1650000 => val_main_v6 (F := Ideal) x1 (ix1 e)) (fun e : Fin 1650000 => val_main_v7 (F := Ideal) x1 (ix1 e))
    (joined_source_left x1) (joined_source_right x1) (joined_target_left x1) (joined_target_right x1)
    (fun p => val_main_v11 (F := Ideal) x1 (ix1 p)) (fun p => val_main_v15 (F := Ideal) x1 (ix1 p))
    (count_read x1) (normaliser_read x1)
    (fun p q => val_main_v0 (F := Ideal) x0 x4 (ix2 p q)) (fun q => x5 (ix1 q)) j q).trans
    (congrArg (fun xw : Fin 50000 → Fin 50 → EReal =>
      GcnSpec.layer (fun e : Fin 1600000 => x1 (ix2 (0 : Fin 2) e)) (fun e : Fin 1600000 => x1 (ix2 (1 : Fin 2) e))
        (GcnSpec.norm (fun e : Fin 1600000 => x1 (ix2 (1 : Fin 2) e))) xw (fun q => x5 (ix1 q)) j q) hx)

/-- THE HIDDEN LAYER: the reference's first layer after the positive part is the specification's hidden layer. -/
theorem ref_hidden (p : Fin 50000) (k : Fin 50) :
    val_main_v47 (F := Ideal) x0 x1 x4 x5 (ix2 p k)
      = GcnSpec.hidden (fun p t => x0 (ix2 p t)) (fun t k => x4 (ix2 t k)) (fun k => x5 (ix1 k))
          (fun e : Fin 1600000 => x1 (ix2 (0 : Fin 2) e)) (fun e : Fin 1600000 => x1 (ix2 (1 : Fin 2) e)) p k := by
  rw [val_main_v47_apply]
  unfold GcnSpec.hidden
  exact congrArg₂ max (layer1_read x0 x1 x4 x5 p k)
    ((val_main_call1_v0_apply _).trans (val_main_call1_cst_apply _))

/-! ## The second layer -/

/-- The second layer's table: the hidden layer times the second weights. -/
theorem table2_read (p : Fin 50000) (q : Fin 10) :
    val_main_v48 (F := Ideal) x0 x1 x4 x5 x6 (ix2 p q)
      = ∑ k : Fin 50, GcnSpec.hidden (fun p t => x0 (ix2 p t)) (fun t k => x4 (ix2 t k)) (fun k => x5 (ix1 k))
          (fun e : Fin 1600000 => x1 (ix2 (0 : Fin 2) e)) (fun e : Fin 1600000 => x1 (ix2 (1 : Fin 2) e)) p k
            * x6 (ix2 k q) := by
  rw [val_main_v48_apply]
  refine Finset.sum_congr rfl fun k _ => ?_
  have hl : lidx_main_v48 (ix2 p q) k = ix2 p k :=
    funext fun a => Fin.ext (by match a with | ⟨0, _⟩ => rfl | ⟨1, _⟩ => rfl)
  have hr : ridx_main_v48 (ix2 p q) k = ix2 k q :=
    funext fun a => Fin.ext (by match a with | ⟨0, _⟩ => rfl | ⟨1, _⟩ => rfl)
  rw [hl, hr, ref_hidden]

/-- The second layer's scatter at node j, feature q: the joined arrangement's sum, over the first layer's joined
    words and normalisers. -/
theorem aggregate2_read (j : Fin 50000) (q : Fin 10) :
    val_main_v91 (F := Ideal) x0 x1 x4 x5 x6 (ix2 j q)
      = 0 + ∑ e ∈ into (fun e : Fin 1650000 => val_main_v7 (F := Ideal) x1 (ix1 e)) j,
          val_main_v48 (F := Ideal) x0 x1 x4 x5 x6 (ix2 (node (val_main_v6 (F := Ideal) x1 (ix1 e))) q)
            * (val_main_v15 (F := Ideal) x1 (ix1 (node (val_main_v6 (F := Ideal) x1 (ix1 e))))
              * val_main_v15 (F := Ideal) x1 (ix1 (node (val_main_v7 (F := Ideal) x1 (ix1 e))))) := by
  unfold val_main_v91 val_main_v90 val_main_v88 val_main_v87 val_main_v86 val_main_v85 val_main_v84 val_main_v83
    val_main_v82 val_main_v80 val_main_v78 val_main_v77 val_main_v76 val_main_v75 val_main_v74 val_main_v72
    val_main_v70 val_main_v69 val_main_v68 val_main_v67 val_main_v65
  rw [second_source, second_target, second_normaliser]
  exact layer_read (C := 10) scatter_S50000x10_S1650000x1_S1650000x10_1_0_0_1 rfl rfl rfl rfl
    gather_S50000x10_S1650000x1_S1650000x10_1_0_n_n_0_1_110 rfl rfl rfl rfl rfl rfl rfl
    gather_S50000_S1650000x1_S1650000_n_0_n_n_0_1_1 rfl rfl rfl rfl rfl rfl rfl
    Facts₀.bcast_S1650000_S1650000x1_0 Facts₀.bcast_S1650000x1_S1650000x10_0_1
    (val_main_v89 (F := Ideal)) (fun i => (val_main_v89_apply i).trans (val_main_cst_19_apply _))
    (val_main_v6 (F := Ideal) x1) (val_main_v7 (F := Ideal) x1)
    (val_main_v64 (F := Ideal)) (val_main_v66 (F := Ideal)) (val_main_v71 (F := Ideal)) (val_main_v73 (F := Ideal))
    (val_main_v79 (F := Ideal)) (val_main_v81 (F := Ideal))
    (fun i => (val_main_v64_apply i).trans (val_main_c_13_apply _)) (fun i => (val_main_v66_apply i).trans (val_main_c_14_apply _))
    (fun i => (val_main_v71_apply i).trans (val_main_c_15_apply _)) (fun i => (val_main_v73_apply i).trans (val_main_c_16_apply _))
    (fun i => (val_main_v79_apply i).trans (val_main_c_17_apply _)) (fun i => (val_main_v81_apply i).trans (val_main_c_18_apply _))
    (val_main_v15 (F := Ideal) x1) (val_main_v48 (F := Ideal) x0 x1 x4 x5 x6) j q

/-- The second bias, carried along the nodes, reads the bias at the feature. -/
theorem bias2_read (j : Fin 50000) (q : Fin 10) : val_main_v93 (F := Ideal) x7 (ix2 j q) = x7 (ix1 q) := by
  rw [val_main_v93_apply, val_main_v92_apply]
  exact congrArg x7 (funext fun a => Fin.ext (by match a with | ⟨0, _⟩ => rfl))

/-- THE EMBEDDING: the reference's second layer is the specification's embedding. -/
theorem ref_embedding (j : Fin 50000) (q : Fin 10) :
    val_main_v94 (F := Ideal) x0 x1 x4 x5 x6 x7 (ix2 j q)
      = GcnSpec.embedding (fun p t => x0 (ix2 p t)) (fun t k => x4 (ix2 t k)) (fun k => x5 (ix1 k))
          (fun k q => x6 (ix2 k q)) (fun q => x7 (ix1 q))
          (fun e : Fin 1600000 => x1 (ix2 (0 : Fin 2) e)) (fun e : Fin 1600000 => x1 (ix2 (1 : Fin 2) e)) j q := by
  rw [val_main_v94_apply]
  show val_main_v91 (F := Ideal) x0 x1 x4 x5 x6 (ix2 j q) + val_main_v93 (F := Ideal) x7 (ix2 j q) = _
  rw [aggregate2_read, bias2_read]
  have hx : (fun (p : Fin 50000) (q : Fin 10) => val_main_v48 (F := Ideal) x0 x1 x4 x5 x6 (ix2 p q))
      = fun p q => ∑ k : Fin 50, GcnSpec.hidden (fun p t => x0 (ix2 p t)) (fun t k => x4 (ix2 t k)) (fun k => x5 (ix1 k))
          (fun e : Fin 1600000 => x1 (ix2 (0 : Fin 2) e)) (fun e : Fin 1600000 => x1 (ix2 (1 : Fin 2) e)) p k
            * x6 (ix2 k q) :=
    funext fun p => funext fun q => table2_read x0 x1 x4 x5 x6 p q
  unfold GcnSpec.embedding
  exact (layer_of_reads (fun e : Fin 1600000 => x1 (ix2 (0 : Fin 2) e)) (fun e : Fin 1600000 => x1 (ix2 (1 : Fin 2) e))
    (fun e : Fin 1650000 => val_main_v6 (F := Ideal) x1 (ix1 e)) (fun e : Fin 1650000 => val_main_v7 (F := Ideal) x1 (ix1 e))
    (joined_source_left x1) (joined_source_right x1) (joined_target_left x1) (joined_target_right x1)
    (fun p => val_main_v11 (F := Ideal) x1 (ix1 p)) (fun p => val_main_v15 (F := Ideal) x1 (ix1 p))
    (count_read x1) (normaliser_read x1)
    (fun p q => val_main_v48 (F := Ideal) x0 x1 x4 x5 x6 (ix2 p q)) (fun q => x7 (ix1 q)) j q).trans
    (congrArg (fun xw : Fin 50000 → Fin 10 → EReal =>
      GcnSpec.layer (fun e : Fin 1600000 => x1 (ix2 (0 : Fin 2) e)) (fun e : Fin 1600000 => x1 (ix2 (1 : Fin 2) e))
        (GcnSpec.norm (fun e : Fin 1600000 => x1 (ix2 (1 : Fin 2) e))) xw (fun q => x7 (ix1 q)) j q) hx)

end Cert.ReferenceIdeal.GcnRef

end
-- ==== Proof.lean ====
/-
  A two-layer graph convolution with symmetric degree normalisation, followed by a dot-product decoder on pairs of
  nodes: the kernel's program against the plain jnp reference, at exact extended-real arithmetic.

  Both programs compute, for every node, a degree (one plus the number of edges whose target word reads as the node)
  and its guarded reciprocal square root, the node's normaliser. A layer projects the node features by a weight matrix
  and aggregates along the edges. The reference joins the edge list with one self-loop edge per node, weights every
  edge by the product of its two endpoints' normalisers, and scatter-adds the weighted source rows. The kernel's
  program never builds the joined list: its two pipelined matrix products scale each projected row by the row's own
  normaliser, the host scatter-adds the scaled source rows over the given edges, adds the node's own scaled row for
  the self loop, and scales the sum by the target's normaliser. The two arrangements are one function of the inputs
  (GcnSpec.joined_layer): the self-loop edge of a node is the only joined loop edge into it, an edge into a node has
  that node as target, and a normaliser is a non-negative real, which distributes over any sum of extended reals —
  so no finiteness of the inputs is used.

  The kernel's result is read off its run (KernelRun), stretch by stretch (KernelStages) and region by region
  (RegionRows), down to the specification's embedding (KernelEmbedding); the reference's result is its run's term read
  one operation at a time down to the same embedding (RefLayers). Both programs then apply the same decoder to that
  embedding (RefDecode), so the results are equal.
-/
import proofs.«166101_j23072564314311_2_alg».proof.Defs
import proofs.«166101_j23072564314311_2_alg».proof.Proof.Gen.Kernel
import proofs.«166101_j23072564314311_2_alg».proof.Proof.Gen.Kernel.Skeleton
import proofs.«166101_j23072564314311_2_alg».proof.Proof.Gen.Kernel.Launch
import proofs.«166101_j23072564314311_2_alg».proof.Proof.Gen.Kernel.Points
import proofs.«166101_j23072564314311_2_alg».proof.Proof.Gen.Kernel.Frame
import proofs.«166101_j23072564314311_2_alg».proof.Proof.Gen.KernelIdeal
import proofs.«166101_j23072564314311_2_alg».proof.Proof.Gen.KernelIdeal.Skeleton
import proofs.«166101_j23072564314311_2_alg».proof.Proof.Gen.KernelIdeal.Launch
import proofs.«166101_j23072564314311_2_alg».proof.Proof.Gen.KernelIdeal.Points
import proofs.«166101_j23072564314311_2_alg».proof.Proof.Gen.KernelIdeal.Frame
import proofs.«166101_j23072564314311_2_alg».proof.Proof.Gen.ReferenceIdeal
import proofs.«166101_j23072564314311_2_alg».proof.Proof.Gen.Pre_finite_inputs
import proofs.«166101_j23072564314311_2_alg».proof.Proof.KernelRun
import proofs.«166101_j23072564314311_2_alg».proof.Proof.KernelCarry
import proofs.«166101_j23072564314311_2_alg».proof.Proof.KernelStages
import proofs.«166101_j23072564314311_2_alg».proof.Proof.KernelEmbedding
import proofs.«166101_j23072564314311_2_alg».proof.Proof.RefDecode
import proofs.«166101_j23072564314311_2_alg».proof.Proof.RefLayers
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- From memories agreeing on the arguments, the kernel's program ends with its result at the decoder applied to its
    embedding, the reference with its result at the same decoder applied to its embedding, and the two embeddings are
    the specification's embedding of the same arguments, entry by entry. -/
theorem algebraic : Cert.algebraic_KernelIdeal_ReferenceIdeal := by
  intro m ρ m' ρ' _ hagree
  refine ⟨fun c => Cert.KernelIdeal.Gen.W8 m ρ c (Proc.devRef .tc Cert.KernelIdeal.main_v70),
    Cert.KernelIdeal.GcnRun.run_value (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7⟩ := hagree c
  rw [Cert.ReferenceIdeal.ReadP.val_main_v115_eq, Cert.ReferenceIdeal.GcnDecode.ref_decode, e0, e1, e2, e3, e4, e5, e6, e7]
  show _ = Cert.KernelIdeal.Gen.W8 m ρ c (Proc.devRef .tc Cert.KernelIdeal.main_v70)
  rw [Cert.KernelIdeal.GcnStages.W8_v70,
    Cert.KernelIdeal.GcnCarry.carry7_arg2 (F := Ideal), Cert.KernelIdeal.GcnCarry.carry3_arg2 (F := Ideal),
    Cert.KernelIdeal.GcnCarry.carry7_arg3 (F := Ideal), Cert.KernelIdeal.GcnCarry.carry3_arg3 (F := Ideal)]
  refine congrArg (fun z => Cert.KernelIdeal.GcnStages.decode z _ _) ?_
  funext i
  obtain ⟨j, q, rfl⟩ : ∃ (j : Fin 50000) (q : Fin 10), i = ix2 j q := ⟨i 0, i 1, eq_ix2 i⟩
  rw [Cert.KernelIdeal.GcnValue.kernel_embedding]
  exact Cert.ReferenceIdeal.GcnRef.ref_embedding _ _ _ _ _ _ j q

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
